-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4000 : Shape := ⟨2, ![1024, 4000]⟩
abbrev S1024x64x64 : Shape := ⟨3, ![1024, 64, 64]⟩
abbrev S4000x128 : Shape := ⟨2, ![4000, 128]⟩
abbrev S128 : Shape := ⟨1, ![128]⟩
abbrev S4096x128 : Shape := ⟨2, ![4096, 128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S1024x4000 : S_.BroadcastsInDim S1024x4000 (![] : Fin 0 → Fin S1024x4000.rank)
  reducesTo_S1024x4000_S_d0_1 : S1024x4000.ReducesTo [0, 1] S_
  h_S_ : 0 < S_.numel
  bcast_S_S1024x64x64 : S_.BroadcastsInDim S1024x64x64 (![] : Fin 0 → Fin S1024x64x64.rank)
  reducesTo_S1024x64x64_S_d0_1_2 : S1024x64x64.ReducesTo [0, 1, 2] S_
  bcast_S_S4000x128 : S_.BroadcastsInDim S4000x128 (![] : Fin 0 → Fin S4000x128.rank)
  reducesTo_S4000x128_S_d0_1 : S4000x128.ReducesTo [0, 1] S_
  bcast_S_S128 : S_.BroadcastsInDim S128 (![] : Fin 0 → Fin S128.rank)
  reducesTo_S128_S_d0 : S128.ReducesTo [0] S_
  bcast_S_S4096x128 : S_.BroadcastsInDim S4096x128 (![] : Fin 0 → Fin S4096x128.rank)
  reducesTo_S4096x128_S_d0_1 : S4096x128.ReducesTo [0, 1] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x10 .f32) (main_arg10 : FVec F S10 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg9
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S4096x128 .f32) (main_arg5 : FVec F S128 .f32) (main_arg6 : FVec F S128x128 .f32) (main_arg7 : FVec F S128x128 .f32) (main_arg8 : FVec F S128 .f32) (main_arg9 : FVec F S128x10 .f32) (main_arg10 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4096x128 .f32 := Host.absf main_arg4
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x4000 .f32) (main_arg1 : FVec F S1024x64x64 .f32) (main_arg2 : FVec F S4000x128 .f32) (main_arg3 : FVec F S128 .f32) (main_arg4 : FVec F S4096x128 .f32) (main_arg5 : FVec F S128 .f32) (main_arg6 : FVec F S128x128 .f32) (main_arg7 : FVec F S128x128 .f32) (main_arg8 : FVec F S128 .f32) (main_arg9 : FVec F S128x10 .f32) (main_arg10 : FVec F S10 .f32) : IVec S_ 1 :=
  let main_v0 : FVec F S1024x4000 .f32 := Host.absf main_arg0
  let main_cst : FVec F S_ .f32 := constant S_ .f32 0x7F800000#32
  let main_v1 : FVec F S1024x4000 .f32 := broadcastInDim S1024x4000 ![] bcast_S_S1024x4000 main_cst
  let main_v2 : IVec S1024x4000 1 := cmpf .olt main_v0 main_v1
  let main_c : IVec S_ 1 := constantI S_ 1 1#1
  let main_v3 : IVec S_ 1 := (fun x v => Host.reduce IntOp.andi x v reducesTo_S1024x4000_S_d0_1 h_S_) main_v2 main_c
  let main_v4 : FVec F S1024x64x64 .f32 := Host.absf main_arg1
  let main_cst_0 : FVec F S_ .f32 := constant S_ .f32 0x7F800000#32
  let main_v5 : FVec F S1024x64x64 .f32 := broadcastInDim S1024x64x64 ![] bcast_S_S1024x64x64 main_cst_0
  let main_v6 : IVec S1024x64x64 1 := cmpf .olt main_v4 main_v5
  let main_c_1 : IVec S_ 1 := constantI S_ 1 1#1
  let main_v7 : IVec S_ 1 := (fun x v => Host.reduce IntOp.andi x v reducesTo_S1024x64x64_S_d0_1_2 h_S_) main_v6 main_c_1
  let main_v8 : IVec S_ 1 := andi main_v3 main_v7
  let main_v9 : FVec F S4000x128 .f32 := Host.absf main_arg2
  let main_cst_2 : FVec F S_ .f32 := constant S_ .f32 0x7F800000#32
  let main_v10 : FVec F S4000x128 .f32 := broadcastInDim S4000x128 ![] bcast_S_S4000x128 main_cst_2
  let main_v11 : IVec S4000x128 1 := cmpf .olt main_v9 main_v10
  let main_c_3 : IVec S_ 1 := constantI S_ 1 1#1
  let main_v12 : IVec S_ 1 := (fun x v => Host.reduce IntOp.andi x v reducesTo_S4000x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S1024x4000 : Shape := ⟨2, ![1024, 4000]⟩
abbrev S1024x64x64 : Shape := ⟨3, ![1024, 64, 64]⟩
abbrev S4000x128 : Shape := ⟨2, ![4000, 128]⟩
abbrev S128 : Shape := ⟨1, ![128]⟩
abbrev S4096x128 : Shape := ⟨2, ![4096, 128]⟩
abbrev S128x128 : Shape := ⟨2, ![128, 128]⟩
abbrev S128x10 : Shape := ⟨2, ![128, 10]⟩
abbrev S10 : Shape := ⟨1, ![10]⟩
abbrev S1024x4096 : Shape := ⟨2, ![1024, 4096]⟩
abbrev S1x128 : Shape := ⟨2, ![1, 128]⟩
abbrev S_ : Shape := ⟨0, ![]⟩
abbrev S1x10 : Shape := ⟨2, ![1, 10]⟩
abbrev S1024x128 : Shape := ⟨2, ![1024, 128]⟩
abbrev S256x4000 : Shape := ⟨2, ![256, 4000]⟩
abbrev S256x4096 : Shape := ⟨2, ![256, 4096]⟩
abbrev S256x128 : Shape := ⟨2, ![256, 128]⟩
abbrev S1024x1024 : Shape := ⟨2, ![1024, 1024]⟩
abbrev S1024x1 : Shape := ⟨2, ![1024, 1]⟩
abbrev S128x1 : Shape := ⟨2, ![128, 1]⟩
abbrev S128x1x128 : Shape := ⟨3, ![128, 1, 128]⟩
abbrev S1x128x128 : Shape := ⟨3, ![1, 128, 128]⟩
abbrev S128x128x128 : Shape := ⟨3, ![128, 128, 128]⟩
abbrev S256x1024 : Shape := ⟨2, ![256, 1024]⟩
abbrev S256x1 : Shape := ⟨2, ![256, 1]⟩
abbrev S1024x10 : Shape := ⟨2, ![1024, 10]⟩

abbrev nBuf : Space → Nat
  | .hbm => 38
  | .vmem => 49
  | .smem => 0
  | _ => 0

abbrev bufTy : (tb : Table) → Fin (tcTables nBuf tb) → BufTy
  | .hbm, ⟨0, _⟩ => ⟨S1024x4000, .f32⟩
  | .hbm, ⟨1, _⟩ => ⟨S1024x64x64, .f32⟩
  | .hbm, ⟨2, _⟩ => ⟨S4000x128, .f32⟩
  | .hbm, ⟨3, _⟩ => ⟨S128, .f32⟩
  | .hbm, ⟨4, _⟩ => ⟨S4096x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1024x4096, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128x128, .f32⟩
  | .hbm, ⟨18, _⟩ => ⟨S1x10, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S1024x1024, .f32⟩
  | .hbm, ⟨27, _⟩ => ⟨S1024x1024, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S1024x10, .f32⟩
  | .local _ .vmem, ⟨0, _⟩ => ⟨S256x4000, .f32⟩
  | .local _ .vmem, ⟨1, _⟩ => ⟨S256x4000, .f32⟩
  | .local _ .vmem, ⟨2, _⟩ => ⟨S256x4096, .f32⟩
  | .local _ .vmem, ⟨3, _⟩ => ⟨S256x4096, .f32⟩
  | .local _ .vmem, ⟨4, _⟩ => ⟨S4000x128, .f32⟩
  | .local _ .vmem, ⟨5, _⟩ => ⟨S1x128, .f32⟩
  | .local _ .vmem, ⟨6, _⟩ => ⟨S4096x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x1, .f32⟩
  | .local _ .vmem, ⟨31, _⟩ => ⟨S128x1, .f32⟩
  | .local _ .vmem, ⟨32, _⟩ => ⟨S128x1, .f32⟩
  | .local _ .vmem, ⟨33, _⟩ => ⟨S128x1, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1, .f32⟩
  | .local _ .vmem, ⟨39, _⟩ => ⟨S256x1, .f32⟩
  | .local _ .vmem, ⟨40, _⟩ => ⟨S256x1, .f32⟩
  | .local _ .vmem, ⟨41, _⟩ => ⟨S256x1, .f32⟩
  | .local _ .vmem, ⟨42, _⟩ => ⟨S1024x128, .f32⟩
  | .local _ .vmem, ⟨43, _⟩ => ⟨S1024x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S256x128, .f32⟩
  | .local _ .vmem, ⟨48, _⟩ => ⟨S256x128, .f32⟩
  | _, _ => ⟨S1024x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev main_v8_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg5_0 : Ref sig .tc := ⟨.vmem, 43, rfl⟩
abbrev cc2_stg6_0 : Ref sig .tc := ⟨.vmem, 44, rfl⟩
abbrev cc2_stg7_0 : Ref sig .tc := ⟨.vmem, 45, rfl⟩
abbrev cc2_stg8_0 : Ref sig .tc := ⟨.vmem, 46, rfl⟩
abbrev cc2_stg9_0 : Ref sig .tc := ⟨.vmem, 47, rfl⟩
abbrev cc2_stg9_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem5_0 : DmaSem sig := 43
abbrev cc2_sem6_0 : DmaSem sig := 44
abbrev cc2_sem7_0 : DmaSem sig := 45
abbrev cc2_sem8_0 : DmaSem sig := 46
abbrev cc2_sem9_0 : DmaSem sig := 47
abbrev cc2_sem9_1 : DmaSem sig := 48

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S128x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S1024x64x64_S1024x4096 : S1024x64x64.ShapeCasts S1024x4096
  shapeCasts_S128_S1x128 : S128.ShapeCasts S1x128
  pads_S128x10_S128x128_000_01180 : S128x10.Pads (![0, 0] : Fin 2 → Nat) ![0, 118] ![0, 0] S128x128
  h_S_ : 0 < S_.numel
  shapeCasts_S10_S1x10 : S10.ShapeCasts S1x10
  pads_S1x10_S1x128_000_01180 : S1x10.Pads (![0, 0] : Fin 2 → Nat) ![0, 118] ![0, 0] S1x128
  inb_S256x4000_S256x4000_0_0 : ∀ a, (![0, 0] : Fin 2 → Nat) a + S256x4000.size a ≤ S256x4000.size a
  h_S256x4000 : 0 < S256x4000.numel
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x128_S4096x128_0_0 : ∀ a, (![0, 0] : Fin 2 → Nat) a + S4096x128.size a ≤ S4096x128.size a
  h_S4096x128 : 0 < S4096x128.numel
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  iota_S128x128_d0_w32 : S128x128.Iotas .tc 32 [0]
  iota_S128x128_d1_w32 : S128x128.Iotas .tc 32 [1]
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  shapeCasts_S128x1_S128x1 : S128x1.ShapeCasts S128x1
  reduces_S128x128_S128 : S128x128.Reduces [1] S128
  shapeCasts_S128_S128x1 : S128.ShapeCasts S128x1
  bcast_S1024x1_S1024x128_0_1 : S1024x1.BroadcastsInDim S1024x128 (![0, 1] : Fin 2 → Fin S1024x128.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  slices_S1024x128_S1024x10_0_0 : S1024x128.Slices ![0, 0] S1024x10
  dot_S256x4000_S4000x128_S256x128_1_0_0_1_n_n_wf : DotDims.WF S256x4000 S4000x128 S256x128 [1] [0] [0] [1] [] []
  dot_S256x4096_S4096x128_S256x128_1_0_0_1_n_n_wf : DotDims.WF S256x4096 S4096x128 S256x128 [1] [0] [0] [1] [] []
  dot_S256x128_S128x128_S256x128_1_0_0_1_n_n_wf : DotDims.WF S256x128 S128x128 S256x128 [1] [0] [0] [1] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4000.size a ≤ S1024x4000.size a
  hwx0_0 : ∀ i : grid0.Coords, EltTy.bits .f32 = 32 ∨ (Rect.block (s := S1024x4000) S256x4000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S1024x4096.size a
  hwx0_1 : ∀ i : grid0.Coords, EltTy.bits .f32 = 32 ∨ (Rect.block (s := S1024x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S4000x128.size a
  hwx0_2 : ∀ i : grid0.Coords, EltTy.bits .f32 = 32 ∨ (Rect.block (s := S4000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S1024x128.size a
  hwx0_8 : ∀ i : grid0.Coords, EltTy.bits .f32 = 32 ∨ (Rect.block (s := S1024x128) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S1024x128.size a
  hwx0_9 : ∀ i : grid0.Coords, EltTy.bits .f32 = 32 ∨ (Rect.block (s := S1024x128) S256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S1024x128.size a
  hwx0_10 : ∀ i : grid0.Coords, EltTy.bits .f32 = 32 ∨ (Rect.block (s := S1024x128) S256x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S1024x128.size a
  hwx0_11 : ∀ i : grid0.Coords, EltTy.bits .f32 = 32 ∨ (Rect.block (s := S1024x128) S256x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S1024x128.size a
  hwx1_0 : ∀ i : grid1.Coords, EltTy.bits .f32 = 32 ∨ (Rect.block (s := S1024x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x128.size a
  hwx1_1 : ∀ i : grid1.Coords, EltTy.bits .f32 = 32 ∨ (Rect.block (s := S1024x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S1024x128.size a
  hwx1_2 : ∀ i : grid1.Coords, EltTy.bits .f32 = 32 ∨ (Rect.block (s := S1024x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S1024x128.size a
  hwx1_3 : ∀ i : grid1.Coords, EltTy.bits .f32 = 32 ∨ (Rect.block (s := S1024x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S1024x1024.size a
  hwx1_4 : ∀ i : grid1.Coords, EltTy.bits .f32 = 32 ∨ (Rect.block (s := S1024x1024) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S1024x1024.size a
  hwx1_5 : ∀ i : grid1.Coords, EltTy.bits .f32 = 32 ∨ (Rect.block (s := S1024x1024) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S1024x1.size a
  hwx1_6 : ∀ i : grid1.Coords, EltTy.bits .f32 = 32 ∨ (Rect.block (s := S1024x1) S128x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S1024x1.size a
  hwx1_7 : ∀ i : grid1.Coords, EltTy.bits .f32 = 32 ∨ (Rect.block (s := S1024x1) S128x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .f32 = 32 ∨ (Rect.block (s := S1024x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S1024x1024.size a
  hwx2_1 : ∀ i : grid2.Coords, EltTy.bits .f32 = 32 ∨ (Rect.block (s := S1024x1024) S256x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S1024x1.size a
  hwx2_2 : ∀ i : grid2.Coords, EltTy.bits .f32 = 32 ∨ (Rect.block (s := S1024x1) S256x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S1024x1.size a
  hwx2_3 : ∀ i : grid2.Coords, EltTy.bits .f32 = 32 ∨ (Rect.block (s := S1024x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S1024x128.size a
  hwx2_4 : ∀ i : grid2.Coords, EltTy.bits .f32 = 32 ∨ (Rect.block (s := S1024x128) S1024x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S1024x128.size a
  hwx2_5 : ∀ i : grid2.Coords, EltTy.bits .f32 = 32 ∨ (Rect.block (s := S1024x128) S1024x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S1024x128.size a
  hwx2_9 : ∀ i : grid2.Coords, EltTy.bits .f32 = 32 ∨ (Rect.block (s := S1024x128) S256x128.size (cc2_transform_9 i) (hinb2_9 i)).WholeWords (EltTy.packing .f32)

variable [Facts₀]

def dot_S256x4000_S4000x128_S256x128_1_0_0_1_n_n : DotDims S256x4000 S4000x128 S256x128 where
  lhsContracting := [1]
  rhsContracting := [0]
  lhsNonContracting := [0]
  rhsNonContracting := [1]
  lhsBatch := []
  rhsBatch := []
  wf := dot_S256x4000_S4000x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S256x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7_0) S256x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_1) S256x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_2) S256x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v7_3) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S128x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S128x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v8_2) S128x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8_3) S128x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v8_0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1024x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1024x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v6) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v15) S256x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S1024x4000 : Shape := ⟨2, ![1024, 4000]⟩
abbrev S1024x64x64 : Shape := ⟨3, ![1024, 64, 64]⟩
abbrev S4000x128 : Shape := ⟨2, ![4000, 128]⟩
abbrev S128 : Shape := ⟨1, ![128]⟩
abbrev S4096x128 : Shape := ⟨2, ![4096, 128]⟩
abbrev S128x128 : Shape := ⟨2, ![128, 128]⟩
abbrev S128x10 : Shape := ⟨2, ![128, 10]⟩
abbrev S10 : Shape := ⟨1, ![10]⟩
abbrev S1024x128 : Shape := ⟨2, ![1024, 128]⟩
abbrev S1x128 : Shape := ⟨2, ![1, 128]⟩
abbrev S_ : Shape := ⟨0, ![]⟩
abbrev S1024x4096 : Shape := ⟨2, ![1024, 4096]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1024x10 : Shape := ⟨2, ![1024, 10]⟩
abbrev S1x10 : Shape := ⟨2, ![1, 10]⟩

abbrev nBuf : Space → Nat
  | .hbm => 111
  | .vmem => 0
  | .smem => 0
  | _ => 0

abbrev bufTy : (tb : Table) → Fin (tcTables nBuf tb) → BufTy
  | .hbm, ⟨0, _⟩ => ⟨S1024x4000, .f32⟩
  | .hbm, ⟨1, _⟩ => ⟨S1024x64x64, .f32⟩
  | .hbm, ⟨2, _⟩ => ⟨S4000x128, .f32⟩
  | .hbm, ⟨3, _⟩ => ⟨S128, .f32⟩
  | .hbm, ⟨4, _⟩ => ⟨S4096x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1024x128, .f32⟩
  | .hbm, ⟨12, _⟩ => ⟨S1x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x4096, .f32⟩
  | .hbm, ⟨19, _⟩ => ⟨S1024x128, .f32⟩
  | .hbm, ⟨20, _⟩ => ⟨S1x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S1024x1x128, .f32⟩
  | .hbm, ⟨27, _⟩ => ⟨S1x1024x128, .f32⟩
  | .hbm, ⟨28, _⟩ => ⟨S1024x1024x128, .f32⟩
  | .hbm, ⟨29, _⟩ => ⟨S1024x1024x128, .f32⟩
  | .hbm, ⟨30, _⟩ => ⟨S1024x1024x128, .f32⟩
  | .hbm, ⟨31, _⟩ => ⟨S1024x1024x128, .f32⟩
  | .hbm, ⟨32, _⟩ => ⟨S_, .f32⟩
  | .hbm, ⟨33, _⟩ => ⟨S1024x1024, .f32⟩
  | .hbm, ⟨34, _⟩ => ⟨S1024x1024, .i32⟩
  | .hbm, ⟨35, _⟩ => ⟨S1024x1024, .i32⟩
  | .hbm, ⟨36, _⟩ => ⟨S_, .i32⟩
  | .hbm, ⟨37, _⟩ => ⟨S1024x1024, .i32⟩
  | .hbm, ⟨38, _⟩ => ⟨S1024x1024, .i32⟩
  | .hbm, ⟨39, _⟩ => ⟨S1024x1024, .i1⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024x1, .f32⟩
  | .hbm, ⟨56, _⟩ => ⟨S1024x1024, .f32⟩
  | .hbm, ⟨57, _⟩ => ⟨S1024x1024, .f32⟩
  | .hbm, ⟨58, _⟩ => ⟨S1x1024, .f32⟩
  | .hbm, ⟨59, _⟩ => ⟨S1024x1024, .f32⟩
  | .hbm, ⟨60, _⟩ => ⟨S1024x1024, .f32⟩
  | .hbm, ⟨61, _⟩ => ⟨S1024x1x128, .f32⟩
  | .hbm, ⟨62, _⟩ => ⟨S1x1024x128, .f32⟩
  | .hbm, ⟨63, _⟩ => ⟨S1024x1024x128, .f32⟩
  | .hbm, ⟨64, _⟩ => ⟨S1024x1024x128, .f32⟩
  | .hbm, ⟨65, _⟩ => ⟨S1024x1024x128, .f32⟩
  | .hbm, ⟨66, _⟩ => ⟨S1024x1024x128, .f32⟩
  | .hbm, ⟨67, _⟩ => ⟨S_, .f32⟩
  | .hbm, ⟨68, _⟩ => ⟨S1024x1024, .f32⟩
  | .hbm, ⟨69, _⟩ => ⟨S1024x1024, .i32⟩
  | .hbm, ⟨70, _⟩ => ⟨S1024x1024, .i32⟩
  | .hbm, ⟨71, _⟩ => ⟨S_, .i32⟩
  | .hbm, ⟨72, _⟩ => ⟨S1024x1024, .i32⟩
  | .hbm, ⟨73, _⟩ => ⟨S1024x1024, .i32⟩
  | .hbm, ⟨74, _⟩ => ⟨S1024x1024, .i1⟩
  | .hbm, ⟨75, _⟩ => ⟨S1024x1024, .f32⟩
  | .hbm, ⟨76, _⟩ => ⟨S_, .f32⟩
  | .hbm, ⟨77, _⟩ => ⟨S1024x1024, .f32⟩
  | .hbm, ⟨78, _⟩ => ⟨S1024x1024, .f32⟩
  | .hbm, ⟨79, _⟩ => ⟨S_, .f32⟩
  | .hbm, ⟨80, _⟩ => ⟨S1024x1024, .f32⟩
  | .hbm, ⟨81, _⟩ => ⟨S1024x1024, .f32⟩
  | .hbm, ⟨82, _⟩ => ⟨S_, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S1024x1, .f32⟩
  | .hbm, ⟨91, _⟩ => ⟨S1024x1024, .f32⟩
  | .hbm, ⟨92, _⟩ => ⟨S1024x1024, .f32⟩
  | .hbm, ⟨93, _⟩ => ⟨S1x1024, .f32⟩
  | .hbm, ⟨94, _⟩ => ⟨S1024x1024, .f32⟩
  | .hbm, ⟨95, _⟩ => ⟨S1024x1024, .f32⟩
  | .hbm, ⟨96, _⟩ => ⟨S1024x128, .f32⟩
  | .hbm, ⟨97, _⟩ => ⟨S1024x128, .f32⟩
  | .hbm, ⟨98, _⟩ => ⟨S1024x128, .f32⟩
  | .hbm, ⟨99, _⟩ => ⟨S1024x128, .f32⟩
  | .hbm, ⟨100, _⟩ => ⟨S1024x128, .f32⟩
  | .hbm, ⟨101, _⟩ => ⟨S1x128, .f32⟩
  | .hbm, ⟨102, _⟩ => ⟨S1024x128, .f32⟩
  | .hbm, ⟨103, _⟩ => ⟨S1024x128, .f32⟩
  | .hbm, ⟨104, _⟩ => ⟨S_, .f32⟩
  | .hbm, ⟨105, _⟩ => ⟨S1024x128, .f32⟩
  | .hbm, ⟨106, _⟩ => ⟨S1024x128, .f32⟩
  | .hbm, ⟨107, _⟩ => ⟨S1024x10, .f32⟩
  | .hbm, ⟨108, _⟩ => ⟨S1x10, .f32⟩
  | .hbm, ⟨109, _⟩ => ⟨S1024x10, .f32⟩
  | .hbm, ⟨110, _⟩ => ⟨S1024x10, .f32⟩
  | _, _ => ⟨S1024x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_cst : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call2_cst : Ref sig .tc := ⟨.hbm, 104, rfl⟩
abbrev main_call2_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  shapeCasts_S1024x64x64_S1024x4096 : S1024x64x64.ShapeCasts S1024x4096
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  bcast_S_S1024x1024 : S_.BroadcastsInDim S1024x1024 (![] : Fin 0 → Fin S1024x1024.rank)
  reducesTo_S1024x1024_S1024_d1 : S1024x1024.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  dot_S1024x4000_S4000x128_S1024x128_1_0_0_1_n_n_wf : DotDims.WF S1024x4000 S4000x128 S1024x128 [1] [0] [0] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x128_S128x10_S1024x10_1_0_0_1_n_n_wf : DotDims.WF S1024x128 S128x10 S1024x10 [1] [0] [0] [1] [] []

variable [Facts₀]

def dot_S1024x4000_S4000x128_S1024x128_1_0_0_1_n_n : DotDims S1024x4000 S4000x128 S1024x128 where
  lhsContracting := [1]
  rhsContracting := [0]
  lhsNonContracting := [0]
  rhsNonContracting := [1]
  lhsBatch := []
  rhsBatch := []
  wf := dot_S1024x4000_S4000x128_S1024x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

class Facts : Prop extends Facts₀ where

variable [Facts]
-- ==== Proof.K.R0.lean ====
import proofs.«152008_j55130200211709_2_alg».proof.Proof.Gen.Kernel.Launch
import proofs.«152008_j55130200211709_2_alg».proof.Proof.Gen.Kernel.Skeleton
import proofs.«152008_j55130200211709_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel (the first of the three pipelined calls): its body, window by window

The body has a single control path: it loads each of its eight input blocks whole, computes four
values from them and stores each, whole, into one of its four output blocks. Everything below is
stated at a parameter `V`, the contents of the core's buffers at the moment the call is entered.

* `iblk0 V c w t` is the block of window `w` at grid point `t`, read off the array as `V` has it.
* An input window's staging buffer holds that block at every point, whether the pipeline fetched it
  there or not: where it did not, the block index has not moved since the previous point
  (`before0_w_of`). Six of the eight inputs have a constant index map and are fetched once.
* `out0_w` is what the body leaves in output window `w`: a single whole-block store, so the buffer
  reads as the stored value everywhere (`cover0_w`).
* `sound_kernel0` is the body's triple, `dat0` the proof data of the call, and
  `body_obligation0` the obligation the pipeline's frame theorem asks of the body. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data over `V`'s array whose body leaves the block where it is, the current
    staging buffer holds the block at every point. Where the window was not fetched its block index did not move,
    so the block left by the previous point is this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data over `V`'s array whose body leaves the block where it is, the current
    staging buffer holds the block at every point. Where the window was not fetched its block index did not move,
    so the block left by the previous point is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data over `V`'s array whose body leaves the block where it is, the current
    staging buffer holds the block at every point. Where the window was not fetched its block index did not move,
    so the block left by the previous point is this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data over `V`'s array whose body leaves the block where it is, the current
    staging buffer holds the block at every point. Where the window was not fetched its block index did not move,
    so the block left by the previous point is this point's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data over `V`'s array whose body leaves the block where it is, the current
    staging buffer holds the block at every point. Where the window was not fetched its block index did not move,
    so the block left by the previous point is this point's block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data over `V`'s array whose body leaves the block where it is, the current
    staging buffer holds the block at every point. Where the window was not fetched its block index did not move,
    so the block left by the previous point is this point's block. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: for any proof data over `V`'s array whose body leaves the block where it is, the current
    staging buffer holds the block at every point. Where the window was not fetched its block index did not move,
    so the block left by the previous point is this point's block. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: for any proof data over `V`'s array whose body leaves the block where it is, the current
    staging buffer holds the block at every point. Where the window was not fetched its block index did not move,
    so the block left by the previous point is this point's block. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and every store of the body is of a whole block: the rectangle at the origin of the block's own extent. -/
abbrev rc_S256x4000 : Rect S256x4000 := Rect.unit (s := S256x4000) ![0, 0] S256x4000.size inb_S256x4000_S256x4000_0_0
abbrev rc_S256x4096 : Rect S256x4096 := Rect.unit (s := S256x4096) ![0, 0] S256x4096.size inb_S256x4096_S256x4096_0_0
abbrev rc_S4000x128 : Rect S4000x128 := Rect.unit (s := S4000x128) ![0, 0] S4000x128.size inb_S4000x128_S4000x128_0_0
abbrev rc_S1x128 : Rect S1x128 := Rect.unit (s := S1x128) ![0, 0] S1x128.size inb_S1x128_S1x128_0_0
abbrev rc_S4096x128 : Rect S4096x128 := Rect.unit (s := S4096x128) ![0, 0] S4096x128.size inb_S4096x128_S4096x128_0_0
abbrev rc_S128x128 : Rect S128x128 := Rect.unit (s := S128x128) ![0, 0] S128x128.size inb_S128x128_S128x128_0_0
abbrev rc_S256x128 : Rect S256x128 := Rect.unit (s := S256x128) ![0, 0] S256x128.size inb_S256x128_S256x128_0_0

/-! ## What the body leaves in each output window's buffer

Each output buffer receives one store of its whole block; as a list of pieces (last first) that is one piece over
the whole rectangle. The stored values are the body's arithmetic, named in the generated skeleton, applied to
what the loads read of the input blocks. -/

/-- Window 8, the time-branch features of the block's rows: the waveform block and the time weight, both rounded
    to bf16, multiplied into a zero f32 accumulator; the bias row added to every row; clamped below at zero. -/
def out0_8 (x0 : Vec F S256x4000 .f32) (x2 : Vec F S4000x128 .f32) (x3 : Vec F S1x128 .f32) : Vec F S256x128 .f32 :=
  View.canon [⟨rc_S256x128, k0_pay2 (View.ld x0 rc_S256x4000) (View.ld x2 rc_S4000x128) (View.ld x3 rc_S1x128)⟩]

/-- Window 9, the frequency-branch features: the same of the spectrogram block, the frequency weight and its bias row. -/
def out0_9 (x1 : Vec F S256x4096 .f32) (x4 : Vec F S4096x128 .f32) (x5 : Vec F S1x128 .f32) : Vec F S256x128 .f32 :=
  View.canon [⟨rc_S256x128, k0_pay3 (View.ld x1 rc_S256x4096) (View.ld x4 rc_S4096x128) (View.ld x5 rc_S1x128)⟩]

/-- Window 10: the value stored to window 8, rounded to bf16, times the first graph weight rounded to bf16, into a
    zero f32 accumulator. -/
def out0_10 (x0 : Vec F S256x4000 .f32) (x2 : Vec F S4000x128 .f32) (x3 : Vec F S1x128 .f32) (x6 : Vec F S128x128 .f32) : Vec F S256x128 .f32 :=
  View.canon [⟨rc_S256x128, k0_pay6 (View.ld x0 rc_S256x4000) (View.ld x2 rc_S4000x128) (View.ld x3 rc_S1x128) (View.ld x6 rc_S128x128)⟩]

/-- Window 11: the value stored to window 9, rounded to bf16, times the second graph weight rounded to bf16, into a
    zero f32 accumulator. -/
def out0_11 (x1 : Vec F S256x4096 .f32) (x4 : Vec F S4096x128 .f32) (x5 : Vec F S1x128 .f32) (x7 : Vec F S128x128 .f32) : Vec F S256x128 .f32 :=
  View.canon [⟨rc_S256x128, k0_pay1 (k0_pay4 (View.ld x1 rc_S256x4096) (View.ld x4 rc_S4096x128) (View.ld x5 rc_S1x128)) (k0_pay5 (View.ld x7 rc_S128x128))⟩]

/-- A single store of the whole block covers the buffer: the one piece's rectangle holds every index. -/
theorem cover0_out (p0 : Vec F S256x128 .f32) (y : S256x128.Idx) :
    ∃ pc ∈ ([⟨rc_S256x128, p0⟩] : List (View.Piece (Elt F) S256x128 .f32)), y ∈ pc.1.set :=
  View.cover_of_tiled [⟨rc_S256x128, p0⟩] S256x128.size (by rfl) y

/-! ## The body's triple -/

set_option maxHeartbeats 1000000 in
/-- The body, run on whole staging buffers — the inputs' reading `x0 … x7`, the outputs' holding anything —, reaches
    its continuation with the inputs' buffers as they were and each output's reading `out0_w` of the inputs. The
    printed body is its skeleton of memory operations over named values, and the symbolic executor runs that,
    through the call of the body's first part. -/
theorem sound_kernel0 (c : Dev nD) (E : Set ℕ) (i : grid0.Coords) (arg0 : Memref sig .tc .vmem S256x4000 .f32) (harg0 : arg0.IsWhole) (arg1 : Memref sig .tc .vmem S256x4096 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 : Vec F S256x4000 .f32) (x1 : Vec F S256x4096 .f32) (x2 : Vec F S4000x128 .f32) (x3 : Vec F S1x128 .f32) (x4 : Vec F S4096x128 .f32) (x5 : Vec F S1x128 .f32) (x6 : Vec F S128x128 .f32) (x7 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (out0_8 x0 x2 x3) ∗ owns (c : Thread nD τ) arg9 fullShare (out0_9 x1 x4 x5) ∗ owns (c : Thread nD τ) arg10 fullShare (out0_10 x0 x2 x3 x6) ∗ owns (c : Thread nD τ) arg11 fullShare (out0_11 x1 x4 x5 x7)) -∗ K ⟨⟩))
      ⊢ wp frame (wpE (defs₀ (F := F)) Variants.none c none) E (cc0__project_kernel i arg0 harg0 arg1 harg1 arg2 harg2 arg3 harg3 arg4 harg4 arg5 harg5 arg6 harg6 arg7 harg7 arg8 harg8 arg9 harg9 arg10 harg10 arg11 harg11) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_out _)
  isplitl [H9]
  · iexists _; isplitr
    swap; · iexact H9
    ipureintro
    exact View.read_writes_eq_canon _ _ _ (cover0_out _)
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-! ## The proof data of the call -/

/-- The proof data of the call on core `c`: each window's array as the call finds it; after the body at point `t`
    an input's buffer still at its block and an output's at `out0_w` of the input blocks; the invariant that of a
    body touching nothing but its windows (the scoped rest and the generator register stay put); full shares;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 2 t) (iblk0 V c 3 t)
    | ⟨9, _⟩ => out0_9 (iblk0 V c 1 t) (iblk0 V c 4 t) (iblk0 V c 5 t)
    | ⟨10, _⟩ => out0_10 (iblk0 V c 0 t) (iblk0 V c 2 t) (iblk0 V c 3 t) (iblk0 V c 6 t)
    | ⟨11, _⟩ => out0_11 (iblk0 V c 1 t) (iblk0 V c 4 t) (iblk0 V c 5 t) (iblk0 V c 7 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window: the definition's `match` reduced at each literal window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 2 t) (iblk0 V c 3 t) := by dsimp only [dat0]
theorem after0_9 (c : Dev nD) (t : Fin cfg0.N) : (dat0 V c).after 9 t = out0_9 (iblk0 V c 1 t) (iblk0 V c 4 t) (iblk0 V c 5 t) := by dsimp only [dat0]
theorem after0_10 (c : Dev nD) (t : Fin cfg0.N) : (dat0 V c).after 10 t = out0_10 (iblk0 V c 0 t) (iblk0 V c 2 t) (iblk0 V c 3 t) (iblk0 V c 6 t) := by dsimp only [dat0]
theorem after0_11 (c : Dev nD) (t : Fin cfg0.N) : (dat0 V c).after 11 t = out0_11 (iblk0 V c 1 t) (iblk0 V c 4 t) (iblk0 V c 5 t) (iblk0 V c 7 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`: the invariant, what the core owes, and every window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same, the buffers at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: every input buffer holds its block (`before0_w`), so the body's triple applies; the
    invariant and what the core owes are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The obligation the pipeline's frame theorem asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The adjacency kernel (the second of the three), its body run on whole staging buffers.

  At grid point (i, j) the body reads the four feature blocks x_t[i], x_t[j], x_f[i], x_f[j], writes the two adjacency
  blocks, and adds the blocks' row sums into the two degree columns — which it first clears when j = 0. So there are two
  cases: at j = 0 the degree columns end at 0 + (row sums); at j > 0 at (what the point before left) + (row sums).
  Each case's run yields, as its witness, the list of pieces every output buffer ends with.
-/
import proofs.«152008_j55130200211709_2_alg».proof.Proof.Gen.Kernel.Launch
import proofs.«152008_j55130200211709_2_alg».proof.Proof.Gen.Kernel.Skeleton
import proofs.«152008_j55130200211709_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The body's one branch: "the inner grid coordinate is zero". -/
abbrev cond1_0 (i : grid1.Coords) : Prop :=
  (Scalar.cmpi .ne (Scalar.extui (Scalar.cmpi .eq (BitVec.ofNat 32 (i 1).val) 0#32)) 0#32) = 1#1

/-- It holds exactly at the points whose position is a multiple of 8 (the inner axis has 8 steps). -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The staging buffers at a point -/

abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x1 .f32 := win1_7.stage (cfg1.slots t 7)
abbrev hs1_7 (t : Fin cfg1.N) : (ms1_7 t).IsWhole := hstage1_7 ((cfg1.slots t 7).cast nbuf1_7)

/-- One staging buffer of each output, through which its contents are stated (the choice does not matter). -/
abbrev VO1_4 : View sig .tc .vmem S128x128 .f32 := (Memref.whole cc1_stg4_0 : Memref sig .tc .vmem S128x128 .f32).view
abbrev VO1_5 : View sig .tc .vmem S128x128 .f32 := (Memref.whole cc1_stg5_0 : Memref sig .tc .vmem S128x128 .f32).view
abbrev VO1_6 : View sig .tc .vmem S128x1 .f32 := (Memref.whole cc1_stg6_0 : Memref sig .tc .vmem S128x1 .f32).view
abbrev VO1_7 : View sig .tc .vmem S128x1 .f32 := (Memref.whole cc1_stg7_0 : Memref sig .tc .vmem S128x1 .f32).view

/-- The four piece lists a run ends with: the two adjacency blocks', the two degree columns'. -/
abbrev Pieces1 : Type :=
  List (View.Piece (Elt F) S128x128 .f32) × List (View.Piece (Elt F) S128x128 .f32)
    × List (View.Piece (Elt F) S128x1 .f32) × List (View.Piece (Elt F) S128x1 .f32)

/-! ## The body at j = 0 -/

set_option maxHeartbeats 4000000 in
/-- At a point with j = 0: from the four input blocks at their contents and the four output buffers at anything, the
    body runs to its return with the inputs as they were and every output buffer overwritten by the pieces found. -/
noncomputable def kernelRun1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i)
    (x0 x1 x2 x3 : Vec F S128x128 .f32) :
    { L : Pieces1 (F := F) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2.1)
                ∗ (∃ f, arg9.view.loc (c : Thread nD τ) ↦[arg9.view.set]{fullShare} arg9.view.writes (Elt F) f L.2.2.2)) -∗ K ⟨⟩))
          ⊢ wp frame (wpE (defs₀ (F := F)) Variants.none c none) E (cc1__build_adj_kernel i arg2 harg2 arg3 harg3 arg4 harg4 arg5 harg5 arg6 harg6 arg7 harg7 arg8 harg8 arg9 harg9) K } := by
  refine ⟨(?_, ?_, ?_, ?_), fun E K => ?run⟩
  case run =>
    simp only [cc1__build_adj_kernel_eq_skeleton]; unfold cc1__build_adj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

/-! ## The body at j > 0 -/

set_option maxHeartbeats 4000000 in
/-- At a point with j > 0: as at j = 0, but the degree columns' buffers are entered at known contents (what the point
    before left), which the body reads and adds to. -/
noncomputable def kernelRun1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i)
    (x0 x1 x2 x3 : Vec F S128x128 .f32) (xo6 xo7 : Vec F S128x1 .f32) :
    { L : Pieces1 (F := F) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xo6 ∗ owns (c : Thread nD τ) arg9 fullShare xo7
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2.1)
                ∗ (∃ f, arg9.view.loc (c : Thread nD τ) ↦[arg9.view.set]{fullShare} arg9.view.writes (Elt F) f L.2.2.2)) -∗ K ⟨⟩))
          ⊢ wp frame (wpE (defs₀ (F := F)) Variants.none c none) E (cc1__build_adj_kernel i arg2 harg2 arg3 harg3 arg4 harg4 arg5 harg5 arg6 harg6 arg7 harg7 arg8 harg8 arg9 harg9) K } := by
  refine ⟨(?_, ?_, ?_, ?_), fun E K => ?run⟩
  case run =>
    simp only [cc1__build_adj_kernel_eq_skeleton]; unfold cc1__build_adj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg8.eq_unread hf6
    obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.Kernel.Hand

end
-- ==== Proof.K.R1.lean ====
/-
  The adjacency kernel (the second of the three) as a pipeline over its 8 × 8 grid: what each staging buffer holds
  after the body at every point, and the body's obligation to the pipeline.

  The four inputs' buffers hold their blocks x_t[i], x_t[j], x_f[i], x_f[j]. The adjacency blocks' buffers are rewritten
  at every point. The two degree columns are ACCUMULATORS: their block (row block i) stays in its buffer over the eight
  points j = 0 … 7 of a row — cleared at j = 0, then the point's row sums added at every j —, and is written back
  after j = 7. So what the outputs hold after point n is defined by recursion on n: the run of the case j = 0 at the
  points n ≡ 0 (mod 8), the run of the case j > 0, entered at what point n − 1 left in the two columns, elsewhere.
-/
import proofs.«152008_j55130200211709_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current buffer holds its block at every point, fetched there or not (unfetched, the block index has
    not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the outputs -/

/-- The four outputs' contents: the two adjacency blocks, the two degree columns. -/
abbrev Outs1 : Type := Vec F S128x128 .f32 × Vec F S128x128 .f32 × Vec F S128x1 .f32 × Vec F S128x1 .f32

/-- Every piece list of the case j = 0 covers its buffer. -/
theorem cover1_A_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x128.Idx) :
    ∃ pc ∈ (kernelRun1_A c i arg2 harg2 arg3 harg3 arg4 harg4 arg5 harg5 arg6 harg6 arg7 harg7 arg8 harg8 arg9 harg9 hc0 x0 x1 x2 x3).1.1, y ∈ pc.1.set :=
  View.cover_of_tiledL _ S128x128.size (by sl_kernel_rfl) y
theorem cover1_A_5 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x128.Idx) :
    ∃ pc ∈ (kernelRun1_A c i arg2 harg2 arg3 harg3 arg4 harg4 arg5 harg5 arg6 harg6 arg7 harg7 arg8 harg8 arg9 harg9 hc0 x0 x1 x2 x3).1.2.1, y ∈ pc.1.set :=
  View.cover_of_tiledL _ S128x128.size (by sl_kernel_rfl) y
theorem cover1_A_6 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x1.Idx) :
    ∃ pc ∈ (kernelRun1_A c i arg2 harg2 arg3 harg3 arg4 harg4 arg5 harg5 arg6 harg6 arg7 harg7 arg8 harg8 arg9 harg9 hc0 x0 x1 x2 x3).1.2.2.1, y ∈ pc.1.set :=
  View.cover_of_tiledL _ S128x1.size (by sl_kernel_rfl) y
theorem cover1_A_7 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x1.Idx) :
    ∃ pc ∈ (kernelRun1_A c i arg2 harg2 arg3 harg3 arg4 harg4 arg5 harg5 arg6 harg6 arg7 harg7 arg8 harg8 arg9 harg9 hc0 x0 x1 x2 x3).1.2.2.2, y ∈ pc.1.set :=
  View.cover_of_tiledL _ S128x1.size (by sl_kernel_rfl) y

/-- Every piece list of the case j > 0 covers its buffer. -/
theorem cover1_B_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x128.Idx) :
    ∃ pc ∈ (kernelRun1_B c i arg2 harg2 arg3 harg3 arg4 harg4 arg5 harg5 arg6 harg6 arg7 harg7 arg8 harg8 arg9 harg9 hc0 x0 x1 x2 x3 xo6 xo7).1.1, y ∈ pc.1.set :=
  View.cover_of_tiledL _ S128x128.size (by sl_kernel_rfl) y
theorem cover1_B_5 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x128.Idx) :
    ∃ pc ∈ (kernelRun1_B c i arg2 harg2 arg3 harg3 arg4 harg4 arg5 harg5 arg6 harg6 arg7 harg7 arg8 harg8 arg9 harg9 hc0 x0 x1 x2 x3 xo6 xo7).1.2.1, y ∈ pc.1.set :=
  View.cover_of_tiledL _ S128x128.size (by sl_kernel_rfl) y
theorem cover1_B_6 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x1.Idx) :
    ∃ pc ∈ (kernelRun1_B c i arg2 harg2 arg3 harg3 arg4 harg4 arg5 harg5 arg6 harg6 arg7 harg7 arg8 harg8 arg9 harg9 hc0 x0 x1 x2 x3 xo6 xo7).1.2.2.1, y ∈ pc.1.set :=
  View.cover_of_tiledL _ S128x1.size (by sl_kernel_rfl) y
theorem cover1_B_7 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x1.Idx) :
    ∃ pc ∈ (kernelRun1_B c i arg2 harg2 arg3 harg3 arg4 harg4 arg5 harg5 arg6 harg6 arg7 harg7 arg8 harg8 arg9 harg9 hc0 x0 x1 x2 x3 xo6 xo7).1.2.2.2, y ∈ pc.1.set :=
  View.cover_of_tiledL _ S128x1.size (by sl_kernel_rfl) y

/-- What the case j = 0 leaves in the four outputs' buffers: its pieces read back. -/
def outs1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) : Outs1 (F := F) :=
  (VO1_4.read (Elt F) (VO1_4.writes (Elt F) VO1_4.junk (kernelRun1_A c i arg2 harg2 arg3 harg3 arg4 harg4 arg5 harg5 arg6 harg6 arg7 harg7 arg8 harg8 arg9 harg9 hc0 x0 x1 x2 x3).1.1),
   VO1_5.read (Elt F) (VO1_5.writes (Elt F) VO1_5.junk (kernelRun1_A c i arg2 harg2 arg3 harg3 arg4 harg4 arg5 harg5 arg6 harg6 arg7 harg7 arg8 harg8 arg9 harg9 hc0 x0 x1 x2 x3).1.2.1),
   VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3).1.2.2.1),
   VO1_7.read (Elt F) (VO1_7.writes (Elt F) VO1_7.junk (kernelRun1_A c i arg2 harg2 arg3 harg3 arg4 harg4 arg5 harg5 arg6 harg6 arg7 harg7 arg8 harg8 arg9 harg9 hc0 x0 x1 x2 x3).1.2.2.2))

/-- What the case j > 0 leaves, entered with the two degree columns at `xo6`, `xo7`. -/
def outs1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) : Outs1 (F := F) :=
  (VO1_4.read (Elt F) (VO1_4.writes (Elt F) VO1_4.junk (kernelRun1_B c i arg2 harg2 arg3 harg3 arg4 harg4 arg5 harg5 arg6 harg6 arg7 harg7 arg8 harg8 arg9 harg9 hc0 x0 x1 x2 x3 xo6 xo7).1.1),
   VO1_5.read (Elt F) (VO1_5.writes (Elt F) VO1_5.junk (kernelRun1_B c i arg2 harg2 arg3 harg3 arg4 harg4 arg5 harg5 arg6 harg6 arg7 harg7 arg8 harg8 arg9 harg9 hc0 x0 x1 x2 x3 xo6 xo7).1.2.1),
   VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 xo6 xo7).1.2.2.1),
   VO1_7.read (Elt F) (VO1_7.writes (Elt F) VO1_7.junk (kernelRun1_B c i arg2 harg2 arg3 harg3 arg4 harg4 arg5 harg5 arg6 harg6 arg7 harg7 arg8 harg8 arg9 harg9 hc0 x0 x1 x2 x3 xo6 xo7).1.2.2.2))

/-! ## The accumulation -/

/-- What the outputs' buffers hold after the body at position `n`. -/
def outsAt1 (c : Dev nD) : (n : ℕ) → n < cfg1.N → Outs1 (F := F)
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 c n (Nat.lt_of_succ_lt hn)).2.2.1 (outsAt1 c n (Nat.lt_of_succ_lt hn)).2.2.2

/-- At a point with j = 0. -/
theorem outsAt1_A (c : Dev nD) (t : Fin cfg1.N) (h0 : t.val % 8 = 0) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a point with j > 0: over what the point before left in the two columns. -/
theorem outsAt1_B (c : Dev nD) (t : Fin cfg1.N) (h0 : ¬t.val % 8 = 0) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-! ## The proof data -/

/-- The shares the four input windows hold of their arrays: the two windows on one array split it in halves. -/
def q1 : Fin cfg1.W → PosShare TreeShare
  | ⟨0, _⟩ => fullShare.left
  | ⟨1, _⟩ => fullShare.right
  | ⟨2, _⟩ => fullShare.left
  | ⟨3, _⟩ => fullShare.right
  | _ => fullShare

/-- The pipeline's proof data: the arrays as found; after the body at `t` each input's buffer at its block and the
    outputs' at `outsAt1`; the scoped rest and the generator register as the invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point with j > 0 a degree column's buffer holds what the body left at the point before: the point is not the
    first, the buffer was not written back between (that happens after j = 7 only), the window is live and uncut. -/
theorem before1_6_B (c : Dev nD) (t : Fin cfg1.N) (h0 : ¬t.val % 8 = 0) (d) :
    (dat1 V c).before 6 t d = (outsAt1 V c (t.val - 1) (Nat.lt_of_le_of_lt (Nat.sub_le _ _) t.isLt)).2.2.1 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]
theorem before1_7_B (c : Dev nD) (t : Fin cfg1.N) (h0 : ¬t.val % 8 = 0) (d) :
    (dat1 V c).before 7 t d = (outsAt1 V c (t.val - 1) (Nat.lt_of_le_of_lt (Nat.sub_le _ _) t.isLt)).2.2.2 := by
  have hN : t.val < 64 := lt_of_lt_of_eq t.isLt (show cfg1.N = 64 from N_1)
  rw [Dat.before_out_kept _ 7 rfl t (by omega) (Bool.eq_false_iff.mpr fun h => by have := (flush1_7 _).mp h; dsimp only at this; omega)
    (fun _ => rfl) (fun _ _ => rfl)]
  dsimp only [dat1]

/-! ## The body's obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2000000 in
/-- The body at any point: the inputs' buffers hold their blocks; the position says which case the point is in; at
    j > 0 the two columns' buffers hold what the point before left; so the case's run applies. The invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 64 := lt_of_lt_of_eq t.isLt (show cfg1.N = 64 from N_1)
  by_cases h0 : t.val % 8 = 0
  · rw [outsAt1_A V c t h0]
    unfold outs1_A
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _ _ _)
    isplitl [H6]
    · unfold owns; iexists _; isplitr
      swap; · iexact H6
      ipureintro; exact View.read_writes_of_cover _ _ _ _ _ (cover1_A_6 c _ _ _ _ _ _ _ _ _ _ _ _ _ _ _ _ _ _ _ _ _ _)
    unfold owns; iexists _; isplitr
    swap; · iexact H7
    ipureintro; exact View.read_writes_of_cover _ _ _ _ _ (cover1_A_7 c _ _ _ _ _ _ _ _ _ _ _ _ _ _ _ _ _ _ _ _ _ _)
  · rw [outsAt1_B V c t h0]
    simp only [before1_6_B V c t h0, before1_7_B V c t h0]
    unfold outs1_B
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.R1Share.lean ====
/-
  The adjacency kernel reads each of its two feature arrays through two windows (row block i and row block j). The
  array is held once; on entry it is split in two halves, one for each window, and on exit the halves are joined.
-/
import proofs.«152008_j55130200211709_2_alg».proof.Proof.K.R1
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share

variable (c : Dev nD) (D : Dat τ (Elt F) Unit ℕ (UR sig nD τ) ℕ cfg1 c) (hq : D.q = q1)

include hq in
/-- The share each window holds of its array: a half for each of the four inputs, all of it for an output. -/
theorem share1 : ∀ w, D.share w = q1 w := fun w => by
  unfold Dat.share; rw [hq]; fin_cases w <;> rfl

/-- The six distinct arrays behind the eight windows. -/
theorem arrRefs1 : Finset.univ.image (Pipeline.arrRef spec1)
    = ({main_v7_0, main_v7_1, main_v8_0, main_v8_1, main_v8_2, main_v8_3} : Finset (Ref sig .tc)) := by decide

theorem q1_0 : q1 0 = fullShare.left := rfl
theorem q1_1 : q1 1 = fullShare.right := rfl
theorem q1_2 : q1 2 = fullShare.left := rfl
theorem q1_3 : q1 3 = fullShare.right := rfl
theorem q1_4 : q1 4 = fullShare := rfl
theorem q1_5 : q1 5 = fullShare := rfl
theorem q1_6 : q1 6 = fullShare := rfl
theorem q1_7 : q1 7 = fullShare := rfl

include hq in
/-- ENTRY: the six arrays, each whole, make the eight windows' holdings: each feature array split in two halves. -/
theorem arrays1_split (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (Pipeline.arrBufs (Ix := Unit) (Name := ℕ) (U := UR sig nD τ) (Lvl := ℕ) spec1 c V : sProp 𝕄) ⊢ D.arrays Fw := by
  unfold Pipeline.arrBufs Pipeline.Dat.arrays
  rw [arrRefs1, bigSep_W1]
  rw [bigSep_insert (by decide), bigSep_insert (by decide), bigSep_insert (by decide), bigSep_insert (by decide), bigSep_insert (by decide), bigSep_singleton]
  simp only [share1 c D hq, hF, View.set_whole, q1_0, q1_1, q1_2, q1_3, q1_4, q1_5, q1_6, q1_7]
  show (iprop(_ ∗ _ ∗ _ ∗ _ ∗ _ ∗ _) : sProp 𝕄) ⊢ _
  iintro ⟨H0, H1, H4, H5, H6, H7⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H4]; · iexact H4
  isplitl [H5]; · iexact H5
  isplitl [H6]; · iexact H6
  iexact H7

include hq in
/-- EXIT: the eight windows' holdings, the two windows on one array holding the same contents, make the six arrays whole. -/
theorem arrays1_join (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    D.arrays Fw ⊢ (Pipeline.arrBufs (Ix := Unit) (Name := ℕ) (U := UR sig nD τ) (Lvl := ℕ) spec1 c V : sProp 𝕄) := by
  unfold Pipeline.arrBufs Pipeline.Dat.arrays
  rw [arrRefs1, bigSep_W1]
  rw [bigSep_insert (by decide), bigSep_insert (by decide), bigSep_insert (by decide), bigSep_insert (by decide), bigSep_insert (by decide), bigSep_singleton]
  simp only [share1 c D hq, hF, View.set_whole, q1_0, q1_1, q1_2, q1_3, q1_4, q1_5, q1_6, q1_7]
  show _ ⊢ (iprop(_ ∗ _ ∗ _ ∗ _ ∗ _ ∗ _) : sProp 𝕄)
  iintro ⟨H0a, H0b, H1a, H1b, H4, H5, H6, H7⟩
  isplitl [H0a H0b]
  · iapply (pointsTo_share (PosShare.mem_left_op_right fullShare)).2
    isplitl [H0a]; · iexact H0a
    iexact H0b
  isplitl [H1a H1b]
  · iapply (pointsTo_share (PosShare.mem_left_op_right fullShare)).2
    isplitl [H1a]; · iexact H1a
    iexact H1b
  isplitl [H4]; · iexact H4
  isplitl [H5]; · iexact H5
  isplitl [H6]; · iexact H6
  iexact H7

end Share

end Cert.Kernel.Hand

end
-- ==== Proof.K.R2.lean ====
/- REGION 2 (the aggregation call) at a parameter `V`, the TensorCore's buffer contents when the region is entered:
   each window's block at a grid point read off `V`; what the body leaves in the output window's buffer as a closed
   form of the nine input blocks; the body's triple; the pipeline's proof data and its body obligation.
   The body has one control path: nine whole-block loads, pure arithmetic, one whole-block store. -/
import proofs.«152008_j55130200211709_2_alg».proof.Proof.Gen.Kernel.Launch
import proofs.«152008_j55130200211709_2_alg».proof.Proof.Gen.Kernel.Skeleton
import proofs.«152008_j55130200211709_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- The block of window `w` at grid point `t`: the window's rectangle of its array, the array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point the body finds the window's block in the current staging buffer, whether the
    pipeline fetched it at that point or left it from the point before (then the block index has not moved). For any
    proof data whose array is `V`'s and whose body leaves the block as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point the body finds the window's block in the current staging buffer, whether the
    pipeline fetched it at that point or left it from the point before (then the block index has not moved). For any
    proof data whose array is `V`'s and whose body leaves the block as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point the body finds the window's block in the current staging buffer, whether the
    pipeline fetched it at that point or left it from the point before (then the block index has not moved). For any
    proof data whose array is `V`'s and whose body leaves the block as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point the body finds the window's block in the current staging buffer, whether the
    pipeline fetched it at that point or left it from the point before (then the block index has not moved). For any
    proof data whose array is `V`'s and whose body leaves the block as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point the body finds the window's block in the current staging buffer, whether the
    pipeline fetched it at that point or left it from the point before (then the block index has not moved). For any
    proof data whose array is `V`'s and whose body leaves the block as found. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every grid point the body finds the window's block in the current staging buffer, whether the
    pipeline fetched it at that point or left it from the point before (then the block index has not moved). For any
    proof data whose array is `V`'s and whose body leaves the block as found. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6: at every grid point the body finds the window's block in the current staging buffer, whether the
    pipeline fetched it at that point or left it from the point before (then the block index has not moved). For any
    proof data whose array is `V`'s and whose body leaves the block as found. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7: at every grid point the body finds the window's block in the current staging buffer, whether the
    pipeline fetched it at that point or left it from the point before (then the block index has not moved). For any
    proof data whose array is `V`'s and whose body leaves the block as found. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8: at every grid point the body finds the window's block in the current staging buffer, whether the
    pipeline fetched it at that point or left it from the point before (then the block index has not moved). For any
    proof data whose array is `V`'s and whose body leaves the block as found. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev rw_S256x1024 : Rect S256x1024 := Rect.unit (s := S256x1024) ![0, 0] S256x1024.size inb_S256x1024_S256x1024_0_0
abbrev rw_S256x1 : Rect S256x1 := Rect.unit (s := S256x1) ![0, 0] S256x1.size inb_S256x1_S256x1_0_0
abbrev rw_S1024x128 : Rect S1024x128 := Rect.unit (s := S1024x128) ![0, 0] S1024x128.size inb_S1024x128_S1024x128_0_0
abbrev rw_S1x128 : Rect S1x128 := Rect.unit (s := S1x128) ![0, 0] S1x128.size inb_S1x128_S1x128_0_0
abbrev rw_S128x128 : Rect S128x128 := Rect.unit (s := S128x128) ![0, 0] S128x128.size inb_S128x128_S128x128_0_0
abbrev rw_S256x128 : Rect S256x128 := Rect.unit (s := S256x128) ![0, 0] S256x128.size inb_S256x128_S256x128_0_0

/-! ## What the body leaves in the output window's buffer -/

/-- The output buffer after the body, from the nine input blocks: one whole-block store of
    `(relu-stage matmul) + bias`, the operands the whole-block loads of the inputs. -/
def out2_9 (x0 : Vec F S256x1024 .f32) (x1 : Vec F S256x1024 .f32) (x2 : Vec F S256x1 .f32) (x3 : Vec F S256x1 .f32)
    (x4 : Vec F S1024x128 .f32) (x5 : Vec F S1024x128 .f32) (x6 : Vec F S1x128 .f32) (x7 : Vec F S128x128 .f32) (x8 : Vec F S1x128 .f32) :
    Vec F S256x128 .f32 :=
  View.canon [⟨rw_S256x128, k2_pay1
    (k2_pay2 (View.ld x0 rw_S256x1024) (View.ld x1 rw_S256x1024) (View.ld x4 rw_S1024x128) (View.ld x5 rw_S1024x128)
      (View.ld x2 rw_S256x1) (View.ld x3 rw_S256x1) (View.ld x6 rw_S1x128) (View.ld x7 rw_S128x128))
    (k2_pay3 (View.ld x8 rw_S1x128))⟩]

/-- The one store is of the whole buffer, so it covers it. -/
theorem cover2_9 (p0 : Vec F S256x128 .f32) (y : S256x128.Idx) :
    ∃ pc ∈ ([⟨rw_S256x128, p0⟩] : List (View.Piece (Elt F) S256x128 .f32)), y ∈ pc.1.set :=
  View.cover_of_tiled [⟨rw_S256x128, p0⟩] S256x128.size (by rfl) y

/-! ## The body's triple -/

set_option maxHeartbeats 1000000 in
/-- The kernel body on whole staging memrefs, the inputs' holding `x0 … x8` and the output's holding anything, runs to
    the continuation with the inputs' unchanged and the output's holding `out2_9 x0 … x8`. -/
theorem sound_kernel2 (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole)
    (x0 : Vec F S256x1024 .f32) (x1 : Vec F S256x1024 .f32) (x2 : Vec F S256x1 .f32) (x3 : Vec F S256x1 .f32) (x4 : Vec F S1024x128 .f32) (x5 : Vec F S1024x128 .f32) (x6 : Vec F S1x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__aggregate_kernel i arg1 harg1 arg2 harg2 arg3 harg3 arg4 harg4 arg5 harg5 arg6 harg6 arg7 harg7 arg8 harg8 arg9 harg9 arg10 harg10) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of the aggregation pipeline on core `c`: the arrays as `V` has them; after the body at point `t` each
    input's buffer holds its block and the output's holds `out2_9` of the input blocks; the invariant keeps the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Run.lean ====
/-
  The whole program as a run: nine segments — four stretches of host operations (reshapes and zero-paddings of the
  arguments), the projection kernel, the adjacency kernel, a host stretch (inverse square roots of the degrees and the
  scaling of the projected values), the aggregation kernel, and the final slice.

  The buffers' contents at each boundary are a fold from the launch memory: a host stretch applies its operations; a
  kernel leaves its result arrays at what its write-backs produce and everything else as it found it. Every weakly
  fair execution terminates, and ends with every unscoped buffer at the last contents of that fold.
-/
import proofs.«152008_j55130200211709_2_alg».proof.Proof.K.R0
import proofs.«152008_j55130200211709_2_alg».proof.Proof.K.R1
import proofs.«152008_j55130200211709_2_alg».proof.Proof.K.R1Share
import proofs.«152008_j55130200211709_2_alg».proof.Proof.K.R2
import proofs.«152008_j55130200211709_2_alg».proof.Proof.Gen.Kernel.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Before the projection kernel (after the four host stretches), read at the TensorCore's references. -/
abbrev VR4 : (c : Dev nD) → (b : Ref sig .tc) → Buf (Elt F) ((c : Thread nD τ).loc b) := fun c b => V4 m c b
/-- After the projection kernel. -/
def W5 (c : Dev nD) : Valuation τ sig (Elt F) :=
  Pipeline.withArrays spec0 c (V4 m c) fun w => (dat0 (VR4 m) c).arrAt w cfg0.N
abbrev VR5 : (c : Dev nD) → (b : Ref sig .tc) → Buf (Elt F) ((c : Thread nD τ).loc b) := fun c b => W5 m c b
/-- After the adjacency kernel: its four result arrays replaced. -/
def W6 (c : Dev nD) : Valuation τ sig (Elt F) :=
  Function.update (Function.update (Function.update (Function.update (W5 m c)
    main_v8_0 ((dat1 (VR5 m) c).arrAt 4 cfg1.N)) main_v8_1 ((dat1 (VR5 m) c).arrAt 5 cfg1.N))
    main_v8_2 ((dat1 (VR5 m) c).arrAt 6 cfg1.N)) main_v8_3 ((dat1 (VR5 m) c).arrAt 7 cfg1.N)
abbrev VR6 : (c : Dev nD) → (b : Ref sig .tc) → Buf (Elt F) ((c : Thread nD τ).loc b) := fun c b => W6 m c b
/-- After the host stretch between the adjacency and the aggregation kernels. -/
abbrev W7 (c : Dev nD) : Valuation τ sig (Elt F) := StableHlo.after hostOps2 (W6 m c)
abbrev VR7 : (c : Dev nD) → (b : Ref sig .tc) → Buf (Elt F) ((c : Thread nD τ).loc b) := fun c b => W7 m c b
/-- After the aggregation kernel. -/
def W8 (c : Dev nD) : Valuation τ sig (Elt F) :=
  Pipeline.withArrays spec2 c (W7 m c) fun w => (dat2 (VR7 m) c).arrAt w cfg2.N
/-- At the end. -/
abbrev W9 (c : Dev nD) : Valuation τ sig (Elt F) := StableHlo.after hostOps3 (W8 m c)

theorem W5_arr (c : Dev nD) (w : Fin cfg0.W) :
    W5 m c (Proc.devRef .tc (Pipeline.arrRef spec0 w)) = (dat0 (VR4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = V4 m c (Proc.devRef .tc b) := by
  unfold W5; exact Pipeline.withArrays_of_ne spec0 c _ _ b hb
theorem hF0 (c : Dev nD) (w : Fin cfg0.W) : (dat0 (VR4 m) c).arrAt w cfg0.N = VR5 m c (Pipeline.arrRef spec0 w) :=
  (W5_arr m c w).symm
theorem hrest0 (c : Dev nD) : ∀ b, b ∉ Finset.univ.image (Pipeline.arrRef spec0) → VR5 m c b = VR4 m c b :=
  fun b hb => W5_of_ne m c b fun w e => hb (Finset.mem_image.mpr ⟨w, Finset.mem_univ _, e⟩)

theorem W8_arr (c : Dev nD) (w : Fin cfg2.W) :
    W8 m c (Proc.devRef .tc (Pipeline.arrRef spec2 w)) = (dat2 (VR7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (VR7 m) c).arrAt w cfg2.N = (fun b : Ref sig .tc => W8 m c b) (Pipeline.arrRef spec2 w) :=
  (W8_arr m c w).symm
theorem hrest2 (c : Dev nD) : ∀ b : Ref sig .tc, b ∉ Finset.univ.image (Pipeline.arrRef spec2) → (fun b : Ref sig .tc => W8 m c b) b = VR7 m c b :=
  fun b hb => W8_of_ne m c b fun w e => hb (Finset.mem_image.mpr ⟨w, Finset.mem_univ _, e⟩)

/-- The adjacency kernel changes its four result arrays only. -/
theorem W6_of (c : Dev nD) (r : Ref sig .tc) (h : r ∉ ([main_v8_0, main_v8_1, main_v8_2, main_v8_3] : List (Ref sig .tc))) :
    W6 m c r = W5 m c r := by
  simp only [W6, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1), Function.update_of_ne (StableHlo.devRef_ne_of_ne (List.ne_of_not_mem_cons (List.not_mem_of_not_mem_cons (List.not_mem_of_not_mem_cons h))) : (Proc.devRef .tc r : DevRef τ sig) ≠ Proc.devRef .tc main_v8_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v8_3)]

theorem W6_v8_3 (c : Dev nD) : W6 m c main_v8_3 = (dat1 (VR5 m) c).arrAt 7 cfg1.N := by
  unfold W6; exact Function.update_self _ _ _
theorem W6_v8_2 (c : Dev nD) : W6 m c main_v8_2 = (dat1 (VR5 m) c).arrAt 6 cfg1.N := by
  unfold W6
  rw [Function.update_of_ne (StableHlo.devRef_ne_of_ne (by decide) : (Proc.devRef .tc main_v8_2 : DevRef τ sig) ≠ Proc.devRef .tc main_v8_3)]
  exact Function.update_self _ _ _
theorem W6_v8_1 (c : Dev nD) : W6 m c main_v8_1 = (dat1 (VR5 m) c).arrAt 5 cfg1.N := by
  unfold W6
  rw [Function.update_of_ne (StableHlo.devRef_ne_of_ne (by decide) : (Proc.devRef .tc main_v8_1 : DevRef τ sig) ≠ Proc.devRef .tc main_v8_3),
    Function.update_of_ne (StableHlo.devRef_ne_of_ne (by decide) : (Proc.devRef .tc main_v8_1 : DevRef τ sig) ≠ Proc.devRef .tc main_v8_2)]
  exact Function.update_self _ _ _
theorem W6_v8_0 (c : Dev nD) : W6 m c main_v8_0 = (dat1 (VR5 m) c).arrAt 4 cfg1.N := by
  unfold W6
  rw [Function.update_of_ne (StableHlo.devRef_ne_of_ne (by decide) : (Proc.devRef .tc main_v8_0 : DevRef τ sig) ≠ Proc.devRef .tc main_v8_3),
    Function.update_of_ne (StableHlo.devRef_ne_of_ne (by decide) : (Proc.devRef .tc main_v8_0 : DevRef τ sig) ≠ Proc.devRef .tc main_v8_2),
    Function.update_of_ne (StableHlo.devRef_ne_of_ne (by decide) : (Proc.devRef .tc main_v8_0 : DevRef τ sig) ≠ Proc.devRef .tc main_v8_1)]
  exact Function.update_self _ _ _

/-- After the adjacency kernel each of its windows' arrays holds what the pipeline leaves there: an input's array its
    entry contents, a result array its write-backs. -/
theorem hF1 (c : Dev nD) (w : Fin cfg1.W) : (dat1 (VR5 m) c).arrAt w cfg1.N = VR6 m c (Pipeline.arrRef spec1 w) := by
  fin_cases w
  · exact ((dat1 (VR5 m) c).arrAt_in 0 rfl _).trans ((A_eq1 (VR5 m) c 0).trans (W6_of m c main_v7_0 (by decide)).symm)
  · exact ((dat1 (VR5 m) c).arrAt_in 1 rfl _).trans ((A_eq1 (VR5 m) c 1).trans (W6_of m c main_v7_0 (by decide)).symm)
  · exact ((dat1 (VR5 m) c).arrAt_in 2 rfl _).trans ((A_eq1 (VR5 m) c 2).trans (W6_of m c main_v7_1 (by decide)).symm)
  · exact ((dat1 (VR5 m) c).arrAt_in 3 rfl _).trans ((A_eq1 (VR5 m) c 3).trans (W6_of m c main_v7_1 (by decide)).symm)
  · exact (W6_v8_0 m c).symm
  · exact (W6_v8_1 m c).symm
  · exact (W6_v8_2 m c).symm
  · exact (W6_v8_3 m c).symm

theorem hrest1 (c : Dev nD) : ∀ b, b ∉ Finset.univ.image (Pipeline.arrRef spec1) → VR6 m c b = VR5 m c b := fun b hb =>
  W6_of m c b (by
    rw [arrRefs1] at hb
    simp only [Finset.mem_insert, Finset.mem_singleton, not_or] at hb
    simp only [List.mem_cons, List.not_mem_nil, or_false, not_or]
    exact ⟨hb.2.2.1, hb.2.2.2.1, hb.2.2.2.2.1, hb.2.2.2.2.2⟩)

/-! ## The proof data family and the thread state -/

abbrev adm : (p : Fin 3) → (pcfgs (F := F) p).Adm := fun p => (cfgs p).toPCfg_adm

/-- Every kernel's proof data, each at the contents its kernel is entered with. -/
def pdats : (p : Fin 3) → (c : Dev nD) → Dat τ (Elt F) Unit ℕ (UR sig nD τ) ℕ (Pipeline.pin (pcfgs (F := F)) adm p) c
  | ⟨0, _⟩ => fun c => dat0 (VR4 m) c
  | ⟨1, _⟩ => fun c => dat1 (VR5 m) c
  | ⟨2, _⟩ => fun c => dat2 (VR7 m) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

/-! ## The kernels as segments -/

set_option backward.isDefEq.respectTransparency.types false in
/-- Kernel 0 over the thread state: entered with every unscoped buffer at the contents before it, left with its
    result arrays at what its write-backs leave and every other buffer as entered. Its arrays are split out of the
    unscoped buffers and put back; the generator register goes into the kernel's invariant and comes out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR4 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (VR4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR4 m c) (fun b => W5 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered with every unscoped buffer at the contents before it, left with its
    result arrays at what its write-backs leave and every other buffer as entered. Its arrays are split out of the
    unscoped buffers and put back; the generator register goes into the kernel's invariant and comes out; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (VR7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VR7 m c) (fun b => W8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The adjacency kernel over the thread state. Two pairs of its input windows read one array each, so each such
    array is split in two halves among its windows on entry and joined again on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VR5 m c)
  hentry c := by
    rw [Pipeline.ownSems0_none]
    have hsp : StableHlo.held (c : Thread nD τ) (Pipeline.ucRefs τ sig) (W5 m c)
        ⊢ (iprop(Pipeline.arrBufs spec1 c (VR5 m c) ∗ Pipeline.unscopedRest spec1 c (VR5 m c)) : sProp 𝕄) := by
      rw [← Pipeline.unscopedBufs_held (Ix := Unit) (Name := ℕ) (U := UR sig nD τ) (Lvl := ℕ) c (W5 m c),
        Pipeline.unscopedBufs_split₀ cfgs 1 winFacts₀1.arr_unscoped c (VR5 m c)]
      exact .rfl
    have hsplit := arrays1_split c (pdats m 1 c) rfl (VR5 m c) ((pdats m 1 c).arrAt · 0) (fun _ => rfl)
    iintro ⟨⟨Hub, Hp, HO⟩, -, -⟩
    ihave H := hsp $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_join c (pdats m 1 c) rfl (VR6 m c) ((pdats m 1 c).arrAt · cfg1.N) (hF1 m c)
    have hrest : (Pipeline.unscopedRest (Ix := Unit) (Name := ℕ) (U := UR sig nD τ) (Lvl := ℕ) spec1 c (VR5 m c) : sProp 𝕄)
        = Pipeline.unscopedRest spec1 c (VR6 m c) := by
      unfold Pipeline.unscopedRest
      exact bigSep_congr fun b hb => by rw [hrest1 m c b (Finset.mem_sdiff.mp hb).2]
    have hsp : (iprop(Pipeline.arrBufs spec1 c (VR6 m c) ∗ Pipeline.unscopedRest spec1 c (VR6 m c)) : sProp 𝕄)
        ⊢ StableHlo.held (c : Thread nD τ) (Pipeline.ucRefs τ sig) (W6 m c) := by
      rw [← Pipeline.unscopedBufs_held (Ix := Unit) (Name := ℕ) (U := UR sig nD τ) (Lvl := ℕ) c (W6 m c),
        Pipeline.unscopedBufs_split₀ cfgs 1 winFacts₀1.arr_unscoped c (VR6 m c)]
      exact .rfl
    rw [hrest]
    iintro ⟨Ha, HO, HY, Hrest⟩
    ihave Hb := hjoin $$ Ha
    imodintro
    isplitl [Hb Hrest]
    · iapply hsp; isplitl [Hb] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m),
    .region (reg1 m),
    .host (hseg hostOps2 hostOps2_sub hostOps2_fresh (W6 m)),
    .region (reg2 m),
    .host (hseg hostOps3 hostOps3_sub hostOps3_fresh (W8 m)) ]

/-- The last thread state regrouped: the buffers and the generator register beside the dues. -/
theorem lastStep (c : Dev nD) :
    iprop(StableHlo.held (c : Thread nD τ) (Pipeline.ucRefs τ sig) (W9 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

variable (ρ : Dev nD → PrngReg)

set_option backward.isDefEq.respectTransparency.types false in
/-- Every weakly fair execution of the program from memory `m` with zero counters terminates without a fault, and
    every final memory holds each unscoped buffer at the end of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, lastStep m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.Kernel.Hand

end
-- ==== Proof.K.Frame.lean ====
/-
  The frame: the program runs to the end from any memory and leaves its eleven argument arrays as launched — each
  argument's buffer is written by no host stretch and is no result array of any kernel, so its contents at the end of
  the fold are the launch contents.
-/
import proofs.«152008_j55130200211709_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Argument 0 reaches the end as launched: no host stretch writes it, no kernel changes it. -/
theorem W9_main_arg0 (c : Dev nD) : W9 m c main_arg0 = m ((c : Thread nD τ).loc main_arg0) :=
  (StableHlo.after_of_writes_sub hostOps3 _ hostOps3_writes (by decide : main_arg0 ∉ hostOps3_W)).trans <|
  (W8_of_ne m c main_arg0 (by decide)).trans <|
  (StableHlo.after_of_writes_sub hostOps2 _ hostOps2_writes (by decide : main_arg0 ∉ hostOps2_W)).trans <|
  (W6_of m c main_arg0 (by decide)).trans <|
  ((W5_arr m c 0).trans (((dat0 (VR4 m) c).arrAt_in 0 rfl _).trans (A_eq0 (VR4 m) c 0))).trans <|
  (V4_of m c main_arg0 (by decide)).trans <| (V3_of m c main_arg0 (by decide)).trans <|
  (V2_of m c main_arg0 (by decide)).trans <| (V1_of m c main_arg0 (by decide)).trans rfl
/-- Argument 1 reaches the end as launched: no host stretch writes it, no kernel changes it. -/
theorem W9_main_arg1 (c : Dev nD) : W9 m c main_arg1 = m ((c : Thread nD τ).loc main_arg1) :=
  (StableHlo.after_of_writes_sub hostOps3 _ hostOps3_writes (by decide : main_arg1 ∉ hostOps3_W)).trans <|
  (W8_of_ne m c main_arg1 (by decide)).trans <|
  (StableHlo.after_of_writes_sub hostOps2 _ hostOps2_writes (by decide : main_arg1 ∉ hostOps2_W)).trans <|
  (W6_of m c main_arg1 (by decide)).trans <|
  (W5_of_ne m c main_arg1 (by decide)).trans <|
  (V4_of m c main_arg1 (by decide)).trans <| (V3_of m c main_arg1 (by decide)).trans <|
  (V2_of m c main_arg1 (by decide)).trans <| (V1_of m c main_arg1 (by decide)).trans rfl
/-- Argument 2 reaches the end as launched: no host stretch writes it, no kernel changes it. -/
theorem W9_main_arg2 (c : Dev nD) : W9 m c main_arg2 = m ((c : Thread nD τ).loc main_arg2) :=
  (StableHlo.after_of_writes_sub hostOps3 _ hostOps3_writes (by decide : main_arg2 ∉ hostOps3_W)).trans <|
  (W8_of_ne m c main_arg2 (by decide)).trans <|
  (StableHlo.after_of_writes_sub hostOps2 _ hostOps2_writes (by decide : main_arg2 ∉ hostOps2_W)).trans <|
  (W6_of m c main_arg2 (by decide)).trans <|
  ((W5_arr m c 2).trans (((dat0 (VR4 m) c).arrAt_in 2 rfl _).trans (A_eq0 (VR4 m) c 2))).trans <|
  (V4_of m c main_arg2 (by decide)).trans <| (V3_of m c main_arg2 (by decide)).trans <|
  (V2_of m c main_arg2 (by decide)).trans <| (V1_of m c main_arg2 (by decide)).trans rfl
/-- Argument 3 reaches the end as launched: no host stretch writes it, no kernel changes it. -/
theorem W9_main_arg3 (c : Dev nD) : W9 m c main_arg3 = m ((c : Thread nD τ).loc main_arg3) :=
  (StableHlo.after_of_writes_sub hostOps3 _ hostOps3_writes (by decide : main_arg3 ∉ hostOps3_W)).trans <|
  (W8_of_ne m c main_arg3 (by decide)).trans <|
  (StableHlo.after_of_writes_sub hostOps2 _ hostOps2_writes (by decide : main_arg3 ∉ hostOps2_W)).trans <|
  (W6_of m c main_arg3 (by decide)).trans <|
  (W5_of_ne m c main_arg3 (by decide)).trans <|
  (V4_of m c main_arg3 (by decide)).trans <| (V3_of m c main_arg3 (by decide)).trans <|
  (V2_of m c main_arg3 (by decide)).trans <| (V1_of m c main_arg3 (by decide)).trans rfl
/-- Argument 4 reaches the end as launched: no host stretch writes it, no kernel changes it. -/
theorem W9_main_arg4 (c : Dev nD) : W9 m c main_arg4 = m ((c : Thread nD τ).loc main_arg4) :=
  (StableHlo.after_of_writes_sub hostOps3 _ hostOps3_writes (by decide : main_arg4 ∉ hostOps3_W)).trans <|
  (W8_of_ne m c main_arg4 (by decide)).trans <|
  (StableHlo.after_of_writes_sub hostOps2 _ hostOps2_writes (by decide : main_arg4 ∉ hostOps2_W)).trans <|
  (W6_of m c main_arg4 (by decide)).trans <|
  ((W5_arr m c 4).trans (((dat0 (VR4 m) c).arrAt_in 4 rfl _).trans (A_eq0 (VR4 m) c 4))).trans <|
  (V4_of m c main_arg4 (by decide)).trans <| (V3_of m c main_arg4 (by decide)).trans <|
  (V2_of m c main_arg4 (by decide)).trans <| (V1_of m c main_arg4 (by decide)).trans rfl
/-- Argument 5 reaches the end as launched: no host stretch writes it, no kernel changes it. -/
theorem W9_main_arg5 (c : Dev nD) : W9 m c main_arg5 = m ((c : Thread nD τ).loc main_arg5) :=
  (StableHlo.after_of_writes_sub hostOps3 _ hostOps3_writes (by decide : main_arg5 ∉ hostOps3_W)).trans <|
  (W8_of_ne m c main_arg5 (by decide)).trans <|
  (StableHlo.after_of_writes_sub hostOps2 _ hostOps2_writes (by decide : main_arg5 ∉ hostOps2_W)).trans <|
  (W6_of m c main_arg5 (by decide)).trans <|
  (W5_of_ne m c main_arg5 (by decide)).trans <|
  (V4_of m c main_arg5 (by decide)).trans <| (V3_of m c main_arg5 (by decide)).trans <|
  (V2_of m c main_arg5 (by decide)).trans <| (V1_of m c main_arg5 (by decide)).trans rfl
/-- Argument 6 reaches the end as launched: no host stretch writes it, no kernel changes it. -/
theorem W9_main_arg6 (c : Dev nD) : W9 m c main_arg6 = m ((c : Thread nD τ).loc main_arg6) :=
  (StableHlo.after_of_writes_sub hostOps3 _ hostOps3_writes (by decide : main_arg6 ∉ hostOps3_W)).trans <|
  (W8_of_ne m c main_arg6 (by decide)).trans <|
  (StableHlo.after_of_writes_sub hostOps2 _ hostOps2_writes (by decide : main_arg6 ∉ hostOps2_W)).trans <|
  (W6_of m c main_arg6 (by decide)).trans <|
  ((W5_arr m c 6).trans (((dat0 (VR4 m) c).arrAt_in 6 rfl _).trans (A_eq0 (VR4 m) c 6))).trans <|
  (V4_of m c main_arg6 (by decide)).trans <| (V3_of m c main_arg6 (by decide)).trans <|
  (V2_of m c main_arg6 (by decide)).trans <| (V1_of m c main_arg6 (by decide)).trans rfl
/-- Argument 7 reaches the end as launched: no host stretch writes it, no kernel changes it. -/
theorem W9_main_arg7 (c : Dev nD) : W9 m c main_arg7 = m ((c : Thread nD τ).loc main_arg7) :=
  (StableHlo.after_of_writes_sub hostOps3 _ hostOps3_writes (by decide : main_arg7 ∉ hostOps3_W)).trans <|
  (W8_of_ne m c main_arg7 (by decide)).trans <|
  (StableHlo.after_of_writes_sub hostOps2 _ hostOps2_writes (by decide : main_arg7 ∉ hostOps2_W)).trans <|
  (W6_of m c main_arg7 (by decide)).trans <|
  ((W5_arr m c 7).trans (((dat0 (VR4 m) c).arrAt_in 7 rfl _).trans (A_eq0 (VR4 m) c 7))).trans <|
  (V4_of m c main_arg7 (by decide)).trans <| (V3_of m c main_arg7 (by decide)).trans <|
  (V2_of m c main_arg7 (by decide)).trans <| (V1_of m c main_arg7 (by decide)).trans rfl
/-- Argument 8 reaches the end as launched: no host stretch writes it, no kernel changes it. -/
theorem W9_main_arg8 (c : Dev nD) : W9 m c main_arg8 = m ((c : Thread nD τ).loc main_arg8) :=
  (StableHlo.after_of_writes_sub hostOps3 _ hostOps3_writes (by decide : main_arg8 ∉ hostOps3_W)).trans <|
  (W8_of_ne m c main_arg8 (by decide)).trans <|
  (StableHlo.after_of_writes_sub hostOps2 _ hostOps2_writes (by decide : main_arg8 ∉ hostOps2_W)).trans <|
  (W6_of m c main_arg8 (by decide)).trans <|
  (W5_of_ne m c main_arg8 (by decide)).trans <|
  (V4_of m c main_arg8 (by decide)).trans <| (V3_of m c main_arg8 (by decide)).trans <|
  (V2_of m c main_arg8 (by decide)).trans <| (V1_of m c main_arg8 (by decide)).trans rfl
/-- Argument 9 reaches the end as launched: no host stretch writes it, no kernel changes it. -/
theorem W9_main_arg9 (c : Dev nD) : W9 m c main_arg9 = m ((c : Thread nD τ).loc main_arg9) :=
  (StableHlo.after_of_writes_sub hostOps3 _ hostOps3_writes (by decide : main_arg9 ∉ hostOps3_W)).trans <|
  (W8_of_ne m c main_arg9 (by decide)).trans <|
  (StableHlo.after_of_writes_sub hostOps2 _ hostOps2_writes (by decide : main_arg9 ∉ hostOps2_W)).trans <|
  (W6_of m c main_arg9 (by decide)).trans <|
  (W5_of_ne m c main_arg9 (by decide)).trans <|
  (V4_of m c main_arg9 (by decide)).trans <| (V3_of m c main_arg9 (by decide)).trans <|
  (V2_of m c main_arg9 (by decide)).trans <| (V1_of m c main_arg9 (by decide)).trans rfl
/-- Argument 10 reaches the end as launched: no host stretch writes it, no kernel changes it. -/
theorem W9_main_arg10 (c : Dev nD) : W9 m c main_arg10 = m ((c : Thread nD τ).loc main_arg10) :=
  (StableHlo.after_of_writes_sub hostOps3 _ hostOps3_writes (by decide : main_arg10 ∉ hostOps3_W)).trans <|
  (W8_of_ne m c main_arg10 (by decide)).trans <|
  (StableHlo.after_of_writes_sub hostOps2 _ hostOps2_writes (by decide : main_arg10 ∉ hostOps2_W)).trans <|
  (W6_of m c main_arg10 (by decide)).trans <|
  (W5_of_ne m c main_arg10 (by decide)).trans <|
  (V4_of m c main_arg10 (by decide)).trans <| (V3_of m c main_arg10 (by decide)).trans <|
  (V2_of m c main_arg10 (by decide)).trans <| (V1_of m c main_arg10 (by decide)).trans rfl

variable (ρ : Dev nD → PrngReg)

/-- Every weakly fair execution terminates without a fault; the result buffer ends at the end of the fold and every
    argument array as launched. -/
theorem run_result : θ_run defs (onTc (τ := τ) (main (F := F))) ⟨m, fun _ => 0, ρ⟩ (fun r => ∀ c : Dev nD,
      r.2.mem ((c.tc : Thread nD τ).loc main_v16) = W9 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v16 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c)⟩) (run_all m ρ)

/-- The frame claim's statement, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.Kernel.Hand

end
-- ==== Proof.KI.R0.lean ====
import proofs.«152008_j55130200211709_2_alg».proof.Proof.Gen.KernelIdeal.Launch
import proofs.«152008_j55130200211709_2_alg».proof.Proof.Gen.KernelIdeal.Skeleton
import proofs.«152008_j55130200211709_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The projection kernel (the first of the three pipelined calls): its body, window by window

The body has a single control path: it loads each of its eight input blocks whole, computes four
values from them and stores each, whole, into one of its four output blocks. Everything below is
stated at a parameter `V`, the contents of the core's buffers at the moment the call is entered.

* `iblk0 V c w t` is the block of window `w` at grid point `t`, read off the array as `V` has it.
* An input window's staging buffer holds that block at every point, whether the pipeline fetched it
  there or not: where it did not, the block index has not moved since the previous point
  (`before0_w_of`). Six of the eight inputs have a constant index map and are fetched once.
* `out0_w` is what the body leaves in output window `w`: a single whole-block store, so the buffer
  reads as the stored value everywhere (`cover0_w`).
* `sound_kernel0` is the body's triple, `dat0` the proof data of the call, and
  `body_obligation0` the obligation the pipeline's frame theorem asks of the body. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- The block of window `w` at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data over `V`'s array whose body leaves the block where it is, the current
    staging buffer holds the block at every point. Where the window was not fetched its block index did not move,
    so the block left by the previous point is this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data over `V`'s array whose body leaves the block where it is, the current
    staging buffer holds the block at every point. Where the window was not fetched its block index did not move,
    so the block left by the previous point is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data over `V`'s array whose body leaves the block where it is, the current
    staging buffer holds the block at every point. Where the window was not fetched its block index did not move,
    so the block left by the previous point is this point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data over `V`'s array whose body leaves the block where it is, the current
    staging buffer holds the block at every point. Where the window was not fetched its block index did not move,
    so the block left by the previous point is this point's block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: for any proof data over `V`'s array whose body leaves the block where it is, the current
    staging buffer holds the block at every point. Where the window was not fetched its block index did not move,
    so the block left by the previous point is this point's block. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: for any proof data over `V`'s array whose body leaves the block where it is, the current
    staging buffer holds the block at every point. Where the window was not fetched its block index did not move,
    so the block left by the previous point is this point's block. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: for any proof data over `V`'s array whose body leaves the block where it is, the current
    staging buffer holds the block at every point. Where the window was not fetched its block index did not move,
    so the block left by the previous point is this point's block. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: for any proof data over `V`'s array whose body leaves the block where it is, the current
    staging buffer holds the block at every point. Where the window was not fetched its block index did not move,
    so the block left by the previous point is this point's block. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every load and every store of the body is of a whole block: the rectangle at the origin of the block's own extent. -/
abbrev rc_S256x4000 : Rect S256x4000 := Rect.unit (s := S256x4000) ![0, 0] S256x4000.size inb_S256x4000_S256x4000_0_0
abbrev rc_S256x4096 : Rect S256x4096 := Rect.unit (s := S256x4096) ![0, 0] S256x4096.size inb_S256x4096_S256x4096_0_0
abbrev rc_S4000x128 : Rect S4000x128 := Rect.unit (s := S4000x128) ![0, 0] S4000x128.size inb_S4000x128_S4000x128_0_0
abbrev rc_S1x128 : Rect S1x128 := Rect.unit (s := S1x128) ![0, 0] S1x128.size inb_S1x128_S1x128_0_0
abbrev rc_S4096x128 : Rect S4096x128 := Rect.unit (s := S4096x128) ![0, 0] S4096x128.size inb_S4096x128_S4096x128_0_0
abbrev rc_S128x128 : Rect S128x128 := Rect.unit (s := S128x128) ![0, 0] S128x128.size inb_S128x128_S128x128_0_0
abbrev rc_S256x128 : Rect S256x128 := Rect.unit (s := S256x128) ![0, 0] S256x128.size inb_S256x128_S256x128_0_0

/-! ## What the body leaves in each output window's buffer

Each output buffer receives one store of its whole block; as a list of pieces (last first) that is one piece over
the whole rectangle. The stored values are the body's arithmetic, named in the generated skeleton, applied to
what the loads read of the input blocks. -/

/-- Window 8, the time-branch features of the block's rows: the waveform block and the time weight, both rounded
    to bf16, multiplied into a zero f32 accumulator; the bias row added to every row; clamped below at zero. -/
def out0_8 (x0 : Vec F S256x4000 .f32) (x2 : Vec F S4000x128 .f32) (x3 : Vec F S1x128 .f32) : Vec F S256x128 .f32 :=
  View.canon [⟨rc_S256x128, k0_pay2 (View.ld x0 rc_S256x4000) (View.ld x2 rc_S4000x128) (View.ld x3 rc_S1x128)⟩]

/-- Window 9, the frequency-branch features: the same of the spectrogram block, the frequency weight and its bias row. -/
def out0_9 (x1 : Vec F S256x4096 .f32) (x4 : Vec F S4096x128 .f32) (x5 : Vec F S1x128 .f32) : Vec F S256x128 .f32 :=
  View.canon [⟨rc_S256x128, k0_pay3 (View.ld x1 rc_S256x4096) (View.ld x4 rc_S4096x128) (View.ld x5 rc_S1x128)⟩]

/-- Window 10: the value stored to window 8, rounded to bf16, times the first graph weight rounded to bf16, into a
    zero f32 accumulator. -/
def out0_10 (x0 : Vec F S256x4000 .f32) (x2 : Vec F S4000x128 .f32) (x3 : Vec F S1x128 .f32) (x6 : Vec F S128x128 .f32) : Vec F S256x128 .f32 :=
  View.canon [⟨rc_S256x128, k0_pay6 (View.ld x0 rc_S256x4000) (View.ld x2 rc_S4000x128) (View.ld x3 rc_S1x128) (View.ld x6 rc_S128x128)⟩]

/-- Window 11: the value stored to window 9, rounded to bf16, times the second graph weight rounded to bf16, into a
    zero f32 accumulator. -/
def out0_11 (x1 : Vec F S256x4096 .f32) (x4 : Vec F S4096x128 .f32) (x5 : Vec F S1x128 .f32) (x7 : Vec F S128x128 .f32) : Vec F S256x128 .f32 :=
  View.canon [⟨rc_S256x128, k0_pay1 (k0_pay4 (View.ld x1 rc_S256x4096) (View.ld x4 rc_S4096x128) (View.ld x5 rc_S1x128)) (k0_pay5 (View.ld x7 rc_S128x128))⟩]

/-- A single store of the whole block covers the buffer: the one piece's rectangle holds every index. -/
theorem cover0_out (p0 : Vec F S256x128 .f32) (y : S256x128.Idx) :
    ∃ pc ∈ ([⟨rc_S256x128, p0⟩] : List (View.Piece (Elt F) S256x128 .f32)), y ∈ pc.1.set :=
  View.cover_of_tiled [⟨rc_S256x128, p0⟩] S256x128.size (by rfl) y

/-! ## The body's triple -/

set_option maxHeartbeats 1000000 in
/-- The body, run on whole staging buffers — the inputs' reading `x0 … x7`, the outputs' holding anything —, reaches
    its continuation with the inputs' buffers as they were and each output's reading `out0_w` of the inputs. The
    printed body is its skeleton of memory operations over named values, and the symbolic executor runs that,
    through the call of the body's first part. -/
theorem sound_kernel0 (c : Dev nD) (E : Set ℕ) (i : grid0.Coords) (arg0 : Memref sig .tc .vmem S256x4000 .f32) (harg0 : arg0.IsWhole) (arg1 : Memref sig .tc .vmem S256x4096 .f32) (harg1 : arg1.IsWhole) (arg2 : Memref sig .tc .vmem S4000x128 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole)
    (x0 : Vec F S256x4000 .f32) (x1 : Vec F S256x4096 .f32) (x2 : Vec F S4000x128 .f32) (x3 : Vec F S1x128 .f32) (x4 : Vec F S4096x128 .f32) (x5 : Vec F S1x128 .f32) (x6 : Vec F S128x128 .f32) (x7 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (out0_8 x0 x2 x3) ∗ owns (c : Thread nD τ) arg9 fullShare (out0_9 x1 x4 x5) ∗ owns (c : Thread nD τ) arg10 fullShare (out0_10 x0 x2 x3 x6) ∗ owns (c : Thread nD τ) arg11 fullShare (out0_11 x1 x4 x5 x7)) -∗ K ⟨⟩))
      ⊢ wp frame (wpE (defs₀ (F := F)) Variants.none c none) E (cc0__project_kernel i arg0 harg0 arg1 harg1 arg2 harg2 arg3 harg3 arg4 harg4 arg5 harg5 arg6 harg6 arg7 harg7 arg8 harg8 arg9 harg9 arg10 harg10 arg11 harg11) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_out _)
  isplitl [H9]
  · iexists _; isplitr
    swap; · iexact H9
    ipureintro
    exact View.read_writes_eq_canon _ _ _ (cover0_out _)
  isplitl [H10]
  · iexists _; isplitr
    swap; · iexact H10
    ipureintro
    exact View.read_writes_eq_canon _ _ _ (cover0_out _)
  iexists _; isplitr
  swap; · iexact H11
  ipureintro
  exact View.read_writes_eq_canon _ _ _ (cover0_out _)

/-! ## The proof data of the call -/

/-- The proof data of the call on core `c`: each window's array as the call finds it; after the body at point `t`
    an input's buffer still at its block and an output's at `out0_w` of the input blocks; the invariant that of a
    body touching nothing but its windows (the scoped rest and the generator register stay put); full shares;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 2 t) (iblk0 V c 3 t)
    | ⟨9, _⟩ => out0_9 (iblk0 V c 1 t) (iblk0 V c 4 t) (iblk0 V c 5 t)
    | ⟨10, _⟩ => out0_10 (iblk0 V c 0 t) (iblk0 V c 2 t) (iblk0 V c 3 t) (iblk0 V c 6 t)
    | ⟨11, _⟩ => out0_11 (iblk0 V c 1 t) (iblk0 V c 4 t) (iblk0 V c 5 t) (iblk0 V c 7 t)
  Φ _ := Pipeline.ΦA spec0 c
  q _ := fullShare
  owed _ := 0

/-- The proof data's arrays are the contents at entry. -/
theorem A_eq0 (c : Dev nD) (w : Fin cfg0.W) : (dat0 V c).A w = V c (Pipeline.arrRef spec0 w) := by
  dsimp only [dat0]

/-- What the body leaves, window by window: the definition's `match` reduced at each literal window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 2 t) (iblk0 V c 3 t) := by dsimp only [dat0]
theorem after0_9 (c : Dev nD) (t : Fin cfg0.N) : (dat0 V c).after 9 t = out0_9 (iblk0 V c 1 t) (iblk0 V c 4 t) (iblk0 V c 5 t) := by dsimp only [dat0]
theorem after0_10 (c : Dev nD) (t : Fin cfg0.N) : (dat0 V c).after 10 t = out0_10 (iblk0 V c 0 t) (iblk0 V c 2 t) (iblk0 V c 3 t) (iblk0 V c 6 t) := by dsimp only [dat0]
theorem after0_11 (c : Dev nD) (t : Fin cfg0.N) : (dat0 V c).after 11 t = out0_11 (iblk0 V c 1 t) (iblk0 V c 4 t) (iblk0 V c 5 t) (iblk0 V c 7 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is called with at point `t`: the invariant, what the core owes, and every window's current
    staging buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns: the same, the buffers at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: every input buffer holds its block (`before0_w`), so the body's triple applies; the
    invariant and what the core owes are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The obligation the pipeline's frame theorem asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The adjacency kernel (the second of the three), its body run on whole staging buffers.

  At grid point (i, j) the body reads the four feature blocks x_t[i], x_t[j], x_f[i], x_f[j], writes the two adjacency
  blocks, and adds the blocks' row sums into the two degree columns — which it first clears when j = 0. So there are two
  cases: at j = 0 the degree columns end at 0 + (row sums); at j > 0 at (what the point before left) + (row sums).
  Each case's run yields, as its witness, the list of pieces every output buffer ends with.
-/
import proofs.«152008_j55130200211709_2_alg».proof.Proof.Gen.KernelIdeal.Launch
import proofs.«152008_j55130200211709_2_alg».proof.Proof.Gen.KernelIdeal.Skeleton
import proofs.«152008_j55130200211709_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The body's one branch: "the inner grid coordinate is zero". -/
abbrev cond1_0 (i : grid1.Coords) : Prop :=
  (Scalar.cmpi .ne (Scalar.extui (Scalar.cmpi .eq (BitVec.ofNat 32 (i 1).val) 0#32)) 0#32) = 1#1

/-- It holds exactly at the points whose position is a multiple of 8 (the inner axis has 8 steps). -/
theorem hcond1_0 : ∀ t : Fin cfg1.N, cond1_0 (grid1.coords t) ↔ t.val % 8 = 0 :=
  (by decide +kernel : ∀ t : Fin grid1.N, cond1_0 (grid1.coords t) ↔ t.val % 8 = 0)

/-! ## The staging buffers at a point -/

abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x1 .f32 := win1_7.stage (cfg1.slots t 7)
abbrev hs1_7 (t : Fin cfg1.N) : (ms1_7 t).IsWhole := hstage1_7 ((cfg1.slots t 7).cast nbuf1_7)

/-- One staging buffer of each output, through which its contents are stated (the choice does not matter). -/
abbrev VO1_4 : View sig .tc .vmem S128x128 .f32 := (Memref.whole cc1_stg4_0 : Memref sig .tc .vmem S128x128 .f32).view
abbrev VO1_5 : View sig .tc .vmem S128x128 .f32 := (Memref.whole cc1_stg5_0 : Memref sig .tc .vmem S128x128 .f32).view
abbrev VO1_6 : View sig .tc .vmem S128x1 .f32 := (Memref.whole cc1_stg6_0 : Memref sig .tc .vmem S128x1 .f32).view
abbrev VO1_7 : View sig .tc .vmem S128x1 .f32 := (Memref.whole cc1_stg7_0 : Memref sig .tc .vmem S128x1 .f32).view

/-- The four piece lists a run ends with: the two adjacency blocks', the two degree columns'. -/
abbrev Pieces1 : Type :=
  List (View.Piece (Elt F) S128x128 .f32) × List (View.Piece (Elt F) S128x128 .f32)
    × List (View.Piece (Elt F) S128x1 .f32) × List (View.Piece (Elt F) S128x1 .f32)

/-! ## The body at j = 0 -/

set_option maxHeartbeats 4000000 in
/-- At a point with j = 0: from the four input blocks at their contents and the four output buffers at anything, the
    body runs to its return with the inputs as they were and every output buffer overwritten by the pieces found. -/
noncomputable def kernelRun1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i)
    (x0 x1 x2 x3 : Vec F S128x128 .f32) :
    { L : Pieces1 (F := F) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2.1)
                ∗ (∃ f, arg9.view.loc (c : Thread nD τ) ↦[arg9.view.set]{fullShare} arg9.view.writes (Elt F) f L.2.2.2)) -∗ K ⟨⟩))
          ⊢ wp frame (wpE (defs₀ (F := F)) Variants.none c none) E (cc1__build_adj_kernel i arg2 harg2 arg3 harg3 arg4 harg4 arg5 harg5 arg6 harg6 arg7 harg7 arg8 harg8 arg9 harg9) K } := by
  refine ⟨(?_, ?_, ?_, ?_), fun E K => ?run⟩
  case run =>
    simp only [cc1__build_adj_kernel_eq_skeleton]; unfold cc1__build_adj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

/-! ## The body at j > 0 -/

set_option maxHeartbeats 4000000 in
/-- At a point with j > 0: as at j = 0, but the degree columns' buffers are entered at known contents (what the point
    before left), which the body reads and adds to. -/
noncomputable def kernelRun1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i)
    (x0 x1 x2 x3 : Vec F S128x128 .f32) (xo6 xo7 : Vec F S128x1 .f32) :
    { L : Pieces1 (F := F) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xo6 ∗ owns (c : Thread nD τ) arg9 fullShare xo7
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2.1)
                ∗ (∃ f, arg8.view.loc (c : Thread nD τ) ↦[arg8.view.set]{fullShare} arg8.view.writes (Elt F) f L.2.2.1)
                ∗ (∃ f, arg9.view.loc (c : Thread nD τ) ↦[arg9.view.set]{fullShare} arg9.view.writes (Elt F) f L.2.2.2)) -∗ K ⟨⟩))
          ⊢ wp frame (wpE (defs₀ (F := F)) Variants.none c none) E (cc1__build_adj_kernel i arg2 harg2 arg3 harg3 arg4 harg4 arg5 harg5 arg6 harg6 arg7 harg7 arg8 harg8 arg9 harg9) K } := by
  refine ⟨(?_, ?_, ?_, ?_), fun E K => ?run⟩
  case run =>
    simp only [cc1__build_adj_kernel_eq_skeleton]; unfold cc1__build_adj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg8.eq_unread hf6
    obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact H7

end Cert.KernelIdeal.Hand

end
-- ==== Proof.KI.R1.lean ====
/-
  The adjacency kernel (the second of the three) as a pipeline over its 8 × 8 grid: what each staging buffer holds
  after the body at every point, and the body's obligation to the pipeline.

  The four inputs' buffers hold their blocks x_t[i], x_t[j], x_f[i], x_f[j]. The adjacency blocks' buffers are rewritten
  at every point. The two degree columns are ACCUMULATORS: their block (row block i) stays in its buffer over the eight
  points j = 0 … 7 of a row — cleared at j = 0, then the point's row sums added at every j —, and is written back
  after j = 7. So what the outputs hold after point n is defined by recursion on n: the run of the case j = 0 at the
  points n ≡ 0 (mod 8), the run of the case j > 0, entered at what point n − 1 left in the two columns, elsewhere.
-/
import proofs.«152008_j55130200211709_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current buffer holds its block at every point, fetched there or not (unfetched, the block index has
    not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the outputs -/

/-- The four outputs' contents: the two adjacency blocks, the two degree columns. -/
abbrev Outs1 : Type := Vec F S128x128 .f32 × Vec F S128x128 .f32 × Vec F S128x1 .f32 × Vec F S128x1 .f32

/-- Every piece list of the case j = 0 covers its buffer. -/
theorem cover1_A_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x128.Idx) :
    ∃ pc ∈ (kernelRun1_A c i arg2 harg2 arg3 harg3 arg4 harg4 arg5 harg5 arg6 harg6 arg7 harg7 arg8 harg8 arg9 harg9 hc0 x0 x1 x2 x3).1.1, y ∈ pc.1.set :=
  View.cover_of_tiledL _ S128x128.size (by sl_kernel_rfl) y
theorem cover1_A_5 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x128.Idx) :
    ∃ pc ∈ (kernelRun1_A c i arg2 harg2 arg3 harg3 arg4 harg4 arg5 harg5 arg6 harg6 arg7 harg7 arg8 harg8 arg9 harg9 hc0 x0 x1 x2 x3).1.2.1, y ∈ pc.1.set :=
  View.cover_of_tiledL _ S128x128.size (by sl_kernel_rfl) y
theorem cover1_A_6 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x1.Idx) :
    ∃ pc ∈ (kernelRun1_A c i arg2 harg2 arg3 harg3 arg4 harg4 arg5 harg5 arg6 harg6 arg7 harg7 arg8 harg8 arg9 harg9 hc0 x0 x1 x2 x3).1.2.2.1, y ∈ pc.1.set :=
  View.cover_of_tiledL _ S128x1.size (by sl_kernel_rfl) y
theorem cover1_A_7 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) (y : S128x1.Idx) :
    ∃ pc ∈ (kernelRun1_A c i arg2 harg2 arg3 harg3 arg4 harg4 arg5 harg5 arg6 harg6 arg7 harg7 arg8 harg8 arg9 harg9 hc0 x0 x1 x2 x3).1.2.2.2, y ∈ pc.1.set :=
  View.cover_of_tiledL _ S128x1.size (by sl_kernel_rfl) y

/-- Every piece list of the case j > 0 covers its buffer. -/
theorem cover1_B_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x128.Idx) :
    ∃ pc ∈ (kernelRun1_B c i arg2 harg2 arg3 harg3 arg4 harg4 arg5 harg5 arg6 harg6 arg7 harg7 arg8 harg8 arg9 harg9 hc0 x0 x1 x2 x3 xo6 xo7).1.1, y ∈ pc.1.set :=
  View.cover_of_tiledL _ S128x128.size (by sl_kernel_rfl) y
theorem cover1_B_5 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x128.Idx) :
    ∃ pc ∈ (kernelRun1_B c i arg2 harg2 arg3 harg3 arg4 harg4 arg5 harg5 arg6 harg6 arg7 harg7 arg8 harg8 arg9 harg9 hc0 x0 x1 x2 x3 xo6 xo7).1.2.1, y ∈ pc.1.set :=
  View.cover_of_tiledL _ S128x128.size (by sl_kernel_rfl) y
theorem cover1_B_6 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x1.Idx) :
    ∃ pc ∈ (kernelRun1_B c i arg2 harg2 arg3 harg3 arg4 harg4 arg5 harg5 arg6 harg6 arg7 harg7 arg8 harg8 arg9 harg9 hc0 x0 x1 x2 x3 xo6 xo7).1.2.2.1, y ∈ pc.1.set :=
  View.cover_of_tiledL _ S128x1.size (by sl_kernel_rfl) y
theorem cover1_B_7 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) (y : S128x1.Idx) :
    ∃ pc ∈ (kernelRun1_B c i arg2 harg2 arg3 harg3 arg4 harg4 arg5 harg5 arg6 harg6 arg7 harg7 arg8 harg8 arg9 harg9 hc0 x0 x1 x2 x3 xo6 xo7).1.2.2.2, y ∈ pc.1.set :=
  View.cover_of_tiledL _ S128x1.size (by sl_kernel_rfl) y

/-- What the case j = 0 leaves in the four outputs' buffers: its pieces read back. -/
def outs1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) : Outs1 (F := F) :=
  (VO1_4.read (Elt F) (VO1_4.writes (Elt F) VO1_4.junk (kernelRun1_A c i arg2 harg2 arg3 harg3 arg4 harg4 arg5 harg5 arg6 harg6 arg7 harg7 arg8 harg8 arg9 harg9 hc0 x0 x1 x2 x3).1.1),
   VO1_5.read (Elt F) (VO1_5.writes (Elt F) VO1_5.junk (kernelRun1_A c i arg2 harg2 arg3 harg3 arg4 harg4 arg5 harg5 arg6 harg6 arg7 harg7 arg8 harg8 arg9 harg9 hc0 x0 x1 x2 x3).1.2.1),
   VO1_6.read (Elt F) (VO1_6.writes (Elt F) VO1_6.junk (kernelRun1_A c i arg2 harg2 arg3 harg3 arg4 harg4 arg5 harg5 arg6 harg6 arg7 harg7 arg8 harg8 arg9 harg9 hc0 x0 x1 x2 x3).1.2.2.1),
   VO1_7.read (Elt F) (VO1_7.writes (Elt F) VO1_7.junk (kernelRun1_A c i arg2 harg2 arg3 harg3 arg4 harg4 arg5 harg5 arg6 harg6 arg7 harg7 arg8 harg8 arg9 harg9 hc0 x0 x1 x2 x3).1.2.2.2))

/-- What the case j > 0 leaves, entered with the two degree columns at `xo6`, `xo7`. -/
def outs1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) : Outs1 (F := F) :=
  (VO1_4.read (Elt F) (VO1_4.writes (Elt F) VO1_4.junk (kernelRun1_B c i arg2 harg2 arg3 harg3 arg4 harg4 arg5 harg5 arg6 harg6 arg7 harg7 arg8 harg8 arg9 harg9 hc0 x0 x1 x2 x3 xo6 xo7).1.1),
   VO1_5.read (Elt F) (VO1_5.writes (Elt F) VO1_5.junk (kernelRun1_B c i arg2 harg2 arg3 harg3 arg4 harg4 arg5 harg5 arg6 harg6 arg7 harg7 arg8 harg8 arg9 harg9 hc0 x0 x1 x2 x3 xo6 xo7).1.2.1),
   VO1_6.read (Elt F) (VO1_6.writes (Elt F) VO1_6.junk (kernelRun1_B c i arg2 harg2 arg3 harg3 arg4 harg4 arg5 harg5 arg6 harg6 arg7 harg7 arg8 harg8 arg9 harg9 hc0 x0 x1 x2 x3 xo6 xo7).1.2.2.1),
   VO1_7.read (Elt F) (VO1_7.writes (Elt F) VO1_7.junk (kernelRun1_B c i arg2 harg2 arg3 harg3 arg4 harg4 arg5 harg5 arg6 harg6 arg7 harg7 arg8 harg8 arg9 harg9 hc0 x0 x1 x2 x3 xo6 xo7).1.2.2.2))

/-! ## The accumulation -/

/-- What the outputs' buffers hold after the body at position `n`. -/
def outsAt1 (c : Dev nD) : (n : ℕ) → n < cfg1.N → Outs1 (F := F)
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩)
  | n + 1, hn =>
    if h0 : (n + 1) % 8 = 0 then
      outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩)
    else
      outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 c n (Nat.lt_of_succ_lt hn)).2.2.1 (outsAt1 c n (Nat.lt_of_succ_lt hn)).2.2.2

/-- At a point with j = 0. -/
theorem outsAt1_A (c : Dev nD) (t : Fin cfg1.N) (h0 : t.val % 8 = 0) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) := by
  obtain ⟨n, hn⟩ := t
  cases n with
  | zero => exact rfl
  | succ n => exact (dif_pos h0).trans rfl

/-- At a point with j > 0: over what the point before left in the two columns. -/
theorem outsAt1_B (c : Dev nD) (t : Fin cfg1.N) (h0 : ¬t.val % 8 = 0) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-! ## The proof data -/

/-- The shares the four input windows hold of their arrays: the two windows on one array split it in halves. -/
def q1 : Fin cfg1.W → PosShare TreeShare
  | ⟨0, _⟩ => fullShare.left
  | ⟨1, _⟩ => fullShare.right
  | ⟨2, _⟩ => fullShare.left
  | ⟨3, _⟩ => fullShare.right
  | _ => fullShare

/-- The pipeline's proof data: the arrays as found; after the body at `t` each input's buffer at its block and the
    outputs' at `outsAt1`; the scoped rest and the generator register as the invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point with j > 0 a degree column's buffer holds what the body left at the point before: the point is not the
    first, the buffer was not written back between (that happens after j = 7 only), the window is live and uncut. -/
theorem before1_6_B (c : Dev nD) (t : Fin cfg1.N) (h0 : ¬t.val % 8 = 0) (d) :
    (dat1 V c).before 6 t d = (outsAt1 V c (t.val - 1) (Nat.lt_of_le_of_lt (Nat.sub_le _ _) t.isLt)).2.2.1 := by
  have hN : t.val < 64 := lt_of_lt_of_eq t.isLt (show cfg1.N = 64 from N_1)
  rw [Dat.before_out_kept _ 6 rfl t (by omega) (Bool.eq_false_iff.mpr fun h => by have := (flush1_6 _).mp h; dsimp only at this; omega)
    (fun _ => rfl) (fun _ _ => rfl)]
  dsimp only [dat1]
theorem before1_7_B (c : Dev nD) (t : Fin cfg1.N) (h0 : ¬t.val % 8 = 0) (d) :
    (dat1 V c).before 7 t d = (outsAt1 V c (t.val - 1) (Nat.lt_of_le_of_lt (Nat.sub_le _ _) t.isLt)).2.2.2 := by
  have hN : t.val < 64 := lt_of_lt_of_eq t.isLt (show cfg1.N = 64 from N_1)
  rw [Dat.before_out_kept _ 7 rfl t (by omega) (Bool.eq_false_iff.mpr fun h => by have := (flush1_7 _).mp h; dsimp only at this; omega)
    (fun _ => rfl) (fun _ _ => rfl)]
  dsimp only [dat1]

/-! ## The body's obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 2000000 in
/-- The body at any point: the inputs' buffers hold their blocks; the position says which case the point is in; at
    j > 0 the two columns' buffers hold what the point before left; so the case's run applies. The invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  have hN : t.val < 64 := lt_of_lt_of_eq t.isLt (show cfg1.N = 64 from N_1)
  by_cases h0 : t.val % 8 = 0
  · rw [outsAt1_A V c t h0]
    unfold outs1_A
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) _ _ _ _ _ _ _ _ _ _ _ _ _ _ _ _ ((hcond1_0 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _ _ _)
    isplitl [H6]
    · unfold owns; iexists _; isplitr
      swap; · iexact H6
      ipureintro; exact View.read_writes_of_cover _ _ _ _ _ (cover1_A_6 c _ _ _ _ _ _ _ _ _ _ _ _ _ _ _ _ _ _ _ _ _ _)
    unfold owns; iexists _; isplitr
    swap; · iexact H7
    ipureintro; exact View.read_writes_of_cover _ _ _ _ _ (cover1_A_7 c _ _ _ _ _ _ _ _ _ _ _ _ _ _ _ _ _ _ _ _ _ _)
  · rw [outsAt1_B V c t h0]
    simp only [before1_6_B V c t h0, before1_7_B V c t h0]
    unfold outs1_B
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, ⟨%e4, H4⟩, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _)
    unfold owns; iexists _; isplitr
    swap; · iexact H7
    ipureintro; exact View.read_writes_of_cover _ _ _ _ _ (cover1_B_7 c _ _ _ _ _ _ _ _ _ _ _ _ _ _ _ _ _ _ _ _ _ _ _ _)

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.R1Share.lean ====
/-
  The adjacency kernel reads each of its two feature arrays through two windows (row block i and row block j). The
  array is held once; on entry it is split in two halves, one for each window, and on exit the halves are joined.
-/
import proofs.«152008_j55130200211709_2_alg».proof.Proof.KI.R1
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share

variable (c : Dev nD) (D : Dat τ (Elt F) Unit ℕ (UR sig nD τ) ℕ cfg1 c) (hq : D.q = q1)

include hq in
/-- The share each window holds of its array: a half for each of the four inputs, all of it for an output. -/
theorem share1 : ∀ w, D.share w = q1 w := fun w => by
  unfold Dat.share; rw [hq]; fin_cases w <;> rfl

/-- The six distinct arrays behind the eight windows. -/
theorem arrRefs1 : Finset.univ.image (Pipeline.arrRef spec1)
    = ({main_v7_0, main_v7_1, main_v8_0, main_v8_1, main_v8_2, main_v8_3} : Finset (Ref sig .tc)) := by decide

theorem q1_0 : q1 0 = fullShare.left := rfl
theorem q1_1 : q1 1 = fullShare.right := rfl
theorem q1_2 : q1 2 = fullShare.left := rfl
theorem q1_3 : q1 3 = fullShare.right := rfl
theorem q1_4 : q1 4 = fullShare := rfl
theorem q1_5 : q1 5 = fullShare := rfl
theorem q1_6 : q1 6 = fullShare := rfl
theorem q1_7 : q1 7 = fullShare := rfl

include hq in
/-- ENTRY: the six arrays, each whole, make the eight windows' holdings: each feature array split in two halves. -/
theorem arrays1_split (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    (Pipeline.arrBufs (Ix := Unit) (Name := ℕ) (U := UR sig nD τ) (Lvl := ℕ) spec1 c V : sProp 𝕄) ⊢ D.arrays Fw := by
  unfold Pipeline.arrBufs Pipeline.Dat.arrays
  rw [arrRefs1, bigSep_W1]
  rw [bigSep_insert (by decide), bigSep_insert (by decide), bigSep_insert (by decide), bigSep_insert (by decide), bigSep_insert (by decide), bigSep_singleton]
  simp only [share1 c D hq, hF, View.set_whole, q1_0, q1_1, q1_2, q1_3, q1_4, q1_5, q1_6, q1_7]
  show (iprop(_ ∗ _ ∗ _ ∗ _ ∗ _ ∗ _) : sProp 𝕄) ⊢ _
  iintro ⟨H0, H1, H4, H5, H6, H7⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitl [H0a]; · iexact H0a
  isplitl [H0b]; · iexact H0b
  isplitl [H1a]; · iexact H1a
  isplitl [H1b]; · iexact H1b
  isplitl [H4]; · iexact H4
  isplitl [H5]; · iexact H5
  isplitl [H6]; · iexact H6
  iexact H7

include hq in
/-- EXIT: the eight windows' holdings, the two windows on one array holding the same contents, make the six arrays whole. -/
theorem arrays1_join (V : (b : Ref sig .tc) → Buf (Elt F) ((c : Thread nD τ).loc b))
    (Fw : (w : Fin cfg1.W) → Buf (Elt F) ((cfg1.win w).arr.view.loc (c : Thread nD τ))) (hF : ∀ w, Fw w = V (Pipeline.arrRef spec1 w)) :
    D.arrays Fw ⊢ (Pipeline.arrBufs (Ix := Unit) (Name := ℕ) (U := UR sig nD τ) (Lvl := ℕ) spec1 c V : sProp 𝕄) := by
  unfold Pipeline.arrBufs Pipeline.Dat.arrays
  rw [arrRefs1, bigSep_W1]
  rw [bigSep_insert (by decide), bigSep_insert (by decide), bigSep_insert (by decide), bigSep_insert (by decide), bigSep_insert (by decide), bigSep_singleton]
  simp only [share1 c D hq, hF, View.set_whole, q1_0, q1_1, q1_2, q1_3, q1_4, q1_5, q1_6, q1_7]
  show _ ⊢ (iprop(_ ∗ _ ∗ _ ∗ _ ∗ _ ∗ _) : sProp 𝕄)
  iintro ⟨H0a, H0b, H1a, H1b, H4, H5, H6, H7⟩
  isplitl [H0a H0b]
  · iapply (pointsTo_share (PosShare.mem_left_op_right fullShare)).2
    isplitl [H0a]; · iexact H0a
    iexact H0b
  isplitl [H1a H1b]
  · iapply (pointsTo_share (PosShare.mem_left_op_right fullShare)).2
    isplitl [H1a]; · iexact H1a
    iexact H1b
  isplitl [H4]; · iexact H4
  isplitl [H5]; · iexact H5
  isplitl [H6]; · iexact H6
  iexact H7

end Share

end Cert.KernelIdeal.Hand

end
-- ==== Proof.KI.R2.lean ====
/- REGION 2 (the aggregation call) at a parameter `V`, the TensorCore's buffer contents when the region is entered:
   each window's block at a grid point read off `V`; what the body leaves in the output window's buffer as a closed
   form of the nine input blocks; the body's triple; the pipeline's proof data and its body obligation.
   The body has one control path: nine whole-block loads, pure arithmetic, one whole-block store. -/
import proofs.«152008_j55130200211709_2_alg».proof.Proof.Gen.KernelIdeal.Launch
import proofs.«152008_j55130200211709_2_alg».proof.Proof.Gen.KernelIdeal.Skeleton
import proofs.«152008_j55130200211709_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- The block of window `w` at grid point `t`: the window's rectangle of its array, the array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: at every grid point the body finds the window's block in the current staging buffer, whether the
    pipeline fetched it at that point or left it from the point before (then the block index has not moved). For any
    proof data whose array is `V`'s and whose body leaves the block as found. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: at every grid point the body finds the window's block in the current staging buffer, whether the
    pipeline fetched it at that point or left it from the point before (then the block index has not moved). For any
    proof data whose array is `V`'s and whose body leaves the block as found. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: at every grid point the body finds the window's block in the current staging buffer, whether the
    pipeline fetched it at that point or left it from the point before (then the block index has not moved). For any
    proof data whose array is `V`'s and whose body leaves the block as found. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: at every grid point the body finds the window's block in the current staging buffer, whether the
    pipeline fetched it at that point or left it from the point before (then the block index has not moved). For any
    proof data whose array is `V`'s and whose body leaves the block as found. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: at every grid point the body finds the window's block in the current staging buffer, whether the
    pipeline fetched it at that point or left it from the point before (then the block index has not moved). For any
    proof data whose array is `V`'s and whose body leaves the block as found. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5: at every grid point the body finds the window's block in the current staging buffer, whether the
    pipeline fetched it at that point or left it from the point before (then the block index has not moved). For any
    proof data whose array is `V`'s and whose body leaves the block as found. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6: at every grid point the body finds the window's block in the current staging buffer, whether the
    pipeline fetched it at that point or left it from the point before (then the block index has not moved). For any
    proof data whose array is `V`'s and whose body leaves the block as found. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7: at every grid point the body finds the window's block in the current staging buffer, whether the
    pipeline fetched it at that point or left it from the point before (then the block index has not moved). For any
    proof data whose array is `V`'s and whose body leaves the block as found. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8: at every grid point the body finds the window's block in the current staging buffer, whether the
    pipeline fetched it at that point or left it from the point before (then the block index has not moved). For any
    proof data whose array is `V`'s and whose body leaves the block as found. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev rw_S256x1024 : Rect S256x1024 := Rect.unit (s := S256x1024) ![0, 0] S256x1024.size inb_S256x1024_S256x1024_0_0
abbrev rw_S256x1 : Rect S256x1 := Rect.unit (s := S256x1) ![0, 0] S256x1.size inb_S256x1_S256x1_0_0
abbrev rw_S1024x128 : Rect S1024x128 := Rect.unit (s := S1024x128) ![0, 0] S1024x128.size inb_S1024x128_S1024x128_0_0
abbrev rw_S1x128 : Rect S1x128 := Rect.unit (s := S1x128) ![0, 0] S1x128.size inb_S1x128_S1x128_0_0
abbrev rw_S128x128 : Rect S128x128 := Rect.unit (s := S128x128) ![0, 0] S128x128.size inb_S128x128_S128x128_0_0
abbrev rw_S256x128 : Rect S256x128 := Rect.unit (s := S256x128) ![0, 0] S256x128.size inb_S256x128_S256x128_0_0

/-! ## What the body leaves in the output window's buffer -/

/-- The output buffer after the body, from the nine input blocks: one whole-block store of
    `(relu-stage matmul) + bias`, the operands the whole-block loads of the inputs. -/
def out2_9 (x0 : Vec F S256x1024 .f32) (x1 : Vec F S256x1024 .f32) (x2 : Vec F S256x1 .f32) (x3 : Vec F S256x1 .f32)
    (x4 : Vec F S1024x128 .f32) (x5 : Vec F S1024x128 .f32) (x6 : Vec F S1x128 .f32) (x7 : Vec F S128x128 .f32) (x8 : Vec F S1x128 .f32) :
    Vec F S256x128 .f32 :=
  View.canon [⟨rw_S256x128, k2_pay1
    (k2_pay2 (View.ld x0 rw_S256x1024) (View.ld x1 rw_S256x1024) (View.ld x4 rw_S1024x128) (View.ld x5 rw_S1024x128)
      (View.ld x2 rw_S256x1) (View.ld x3 rw_S256x1) (View.ld x6 rw_S1x128) (View.ld x7 rw_S128x128))
    (k2_pay3 (View.ld x8 rw_S1x128))⟩]

/-- The one store is of the whole buffer, so it covers it. -/
theorem cover2_9 (p0 : Vec F S256x128 .f32) (y : S256x128.Idx) :
    ∃ pc ∈ ([⟨rw_S256x128, p0⟩] : List (View.Piece (Elt F) S256x128 .f32)), y ∈ pc.1.set :=
  View.cover_of_tiled [⟨rw_S256x128, p0⟩] S256x128.size (by rfl) y

/-! ## The body's triple -/

set_option maxHeartbeats 1000000 in
/-- The kernel body on whole staging memrefs, the inputs' holding `x0 … x8` and the output's holding anything, runs to
    the continuation with the inputs' unchanged and the output's holding `out2_9 x0 … x8`. -/
theorem sound_kernel2 (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole)
    (x0 : Vec F S256x1024 .f32) (x1 : Vec F S256x1024 .f32) (x2 : Vec F S256x1 .f32) (x3 : Vec F S256x1 .f32) (x4 : Vec F S1024x128 .f32) (x5 : Vec F S1024x128 .f32) (x6 : Vec F S1x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__aggregate_kernel i arg1 harg1 arg2 harg2 arg3 harg3 arg4 harg4 arg5 harg5 arg6 harg6 arg7 harg7 arg8 harg8 arg9 harg9 arg10 harg10) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of the aggregation pipeline on core `c`: the arrays as `V` has them; after the body at point `t` each
    input's buffer holds its block and the output's holds `out2_9` of the input blocks; the invariant keeps the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are `V`'s. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) :
    (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' buffers hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/-
  The whole program as a run: nine segments — four stretches of host operations (reshapes and zero-paddings of the
  arguments), the projection kernel, the adjacency kernel, a host stretch (inverse square roots of the degrees and the
  scaling of the projected values), the aggregation kernel, and the final slice.

  The buffers' contents at each boundary are a fold from the launch memory: a host stretch applies its operations; a
  kernel leaves its result arrays at what its write-backs produce and everything else as it found it. Every weakly
  fair execution terminates, and ends with every unscoped buffer at the last contents of that fold.
-/
import proofs.«152008_j55130200211709_2_alg».proof.Proof.KI.R0
import proofs.«152008_j55130200211709_2_alg».proof.Proof.KI.R1
import proofs.«152008_j55130200211709_2_alg».proof.Proof.KI.R1Share
import proofs.«152008_j55130200211709_2_alg».proof.Proof.KI.R2
import proofs.«152008_j55130200211709_2_alg».proof.Proof.Gen.KernelIdeal.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Before the projection kernel (after the four host stretches), read at the TensorCore's references. -/
abbrev VR4 : (c : Dev nD) → (b : Ref sig .tc) → Buf (Elt F) ((c : Thread nD τ).loc b) := fun c b => V4 m c b
/-- After the projection kernel. -/
def W5 (c : Dev nD) : Valuation τ sig (Elt F) :=
  Pipeline.withArrays spec0 c (V4 m c) fun w => (dat0 (VR4 m) c).arrAt w cfg0.N
abbrev VR5 : (c : Dev nD) → (b : Ref sig .tc) → Buf (Elt F) ((c : Thread nD τ).loc b) := fun c b => W5 m c b
/-- After the adjacency kernel: its four result arrays replaced. -/
def W6 (c : Dev nD) : Valuation τ sig (Elt F) :=
  Function.update (Function.update (Function.update (Function.update (W5 m c)
    main_v8_0 ((dat1 (VR5 m) c).arrAt 4 cfg1.N)) main_v8_1 ((dat1 (VR5 m) c).arrAt 5 cfg1.N))
    main_v8_2 ((dat1 (VR5 m) c).arrAt 6 cfg1.N)) main_v8_3 ((dat1 (VR5 m) c).arrAt 7 cfg1.N)
abbrev VR6 : (c : Dev nD) → (b : Ref sig .tc) → Buf (Elt F) ((c : Thread nD τ).loc b) := fun c b => W6 m c b
/-- After the host stretch between the adjacency and the aggregation kernels. -/
abbrev W7 (c : Dev nD) : Valuation τ sig (Elt F) := StableHlo.after hostOps2 (W6 m c)
abbrev VR7 : (c : Dev nD) → (b : Ref sig .tc) → Buf (Elt F) ((c : Thread nD τ).loc b) := fun c b => W7 m c b
/-- After the aggregation kernel. -/
def W8 (c : Dev nD) : Valuation τ sig (Elt F) :=
  Pipeline.withArrays spec2 c (W7 m c) fun w => (dat2 (VR7 m) c).arrAt w cfg2.N
/-- At the end. -/
abbrev W9 (c : Dev nD) : Valuation τ sig (Elt F) := StableHlo.after hostOps3 (W8 m c)

theorem W5_arr (c : Dev nD) (w : Fin cfg0.W) :
    W5 m c (Proc.devRef .tc (Pipeline.arrRef spec0 w)) = (dat0 (VR4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = V4 m c (Proc.devRef .tc b) := by
  unfold W5; exact Pipeline.withArrays_of_ne spec0 c _ _ b hb
theorem hF0 (c : Dev nD) (w : Fin cfg0.W) : (dat0 (VR4 m) c).arrAt w cfg0.N = VR5 m c (Pipeline.arrRef spec0 w) :=
  (W5_arr m c w).symm
theorem hrest0 (c : Dev nD) : ∀ b, b ∉ Finset.univ.image (Pipeline.arrRef spec0) → VR5 m c b = VR4 m c b :=
  fun b hb => W5_of_ne m c b fun w e => hb (Finset.mem_image.mpr ⟨w, Finset.mem_univ _, e⟩)

theorem W8_arr (c : Dev nD) (w : Fin cfg2.W) :
    W8 m c (Proc.devRef .tc (Pipeline.arrRef spec2 w)) = (dat2 (VR7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem hF2 (c : Dev nD) (w : Fin cfg2.W) : (dat2 (VR7 m) c).arrAt w cfg2.N = (fun b : Ref sig .tc => W8 m c b) (Pipeline.arrRef spec2 w) :=
  (W8_arr m c w).symm
theorem hrest2 (c : Dev nD) : ∀ b : Ref sig .tc, b ∉ Finset.univ.image (Pipeline.arrRef spec2) → (fun b : Ref sig .tc => W8 m c b) b = VR7 m c b :=
  fun b hb => W8_of_ne m c b fun w e => hb (Finset.mem_image.mpr ⟨w, Finset.mem_univ _, e⟩)

/-- The adjacency kernel changes its four result arrays only. -/
theorem W6_of (c : Dev nD) (r : Ref sig .tc) (h : r ∉ ([main_v8_0, main_v8_1, main_v8_2, main_v8_3] : List (Ref sig .tc))) :
    W6 m c r = W5 m c r := by
  simp only [W6, Function.update_of_ne (StableHlo.devRef_ne_of_ne (List.ne_of_not_mem_cons h) : (Proc.devRef .tc r : DevRef τ sig) ≠ Proc.devRef .tc main_v8_0), Function.update_of_ne (StableHlo.devRef_ne_of_ne (List.ne_of_not_mem_cons (List.not_mem_of_not_mem_cons h)) : (Proc.devRef .tc r : DevRef τ sig) ≠ Proc.devRef .tc main_v8_1), Function.update_of_ne (StableHlo.devRef_ne_of_ne (List.ne_of_not_mem_cons (List.not_mem_of_not_mem_cons (List.not_mem_of_not_mem_cons h))) : (Proc.devRef .tc r : DevRef τ sig) ≠ Proc.devRef .tc main_v8_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v8_3)]

theorem W6_v8_3 (c : Dev nD) : W6 m c main_v8_3 = (dat1 (VR5 m) c).arrAt 7 cfg1.N := by
  unfold W6; exact Function.update_self _ _ _
theorem W6_v8_2 (c : Dev nD) : W6 m c main_v8_2 = (dat1 (VR5 m) c).arrAt 6 cfg1.N := by
  unfold W6
  rw [Function.update_of_ne (StableHlo.devRef_ne_of_ne (by decide) : (Proc.devRef .tc main_v8_2 : DevRef τ sig) ≠ Proc.devRef .tc main_v8_3)]
  exact Function.update_self _ _ _
theorem W6_v8_1 (c : Dev nD) : W6 m c main_v8_1 = (dat1 (VR5 m) c).arrAt 5 cfg1.N := by
  unfold W6
  rw [Function.update_of_ne (StableHlo.devRef_ne_of_ne (by decide) : (Proc.devRef .tc main_v8_1 : DevRef τ sig) ≠ Proc.devRef .tc main_v8_3),
    Function.update_of_ne (StableHlo.devRef_ne_of_ne (by decide) : (Proc.devRef .tc main_v8_1 : DevRef τ sig) ≠ Proc.devRef .tc main_v8_2)]
  exact Function.update_self _ _ _
theorem W6_v8_0 (c : Dev nD) : W6 m c main_v8_0 = (dat1 (VR5 m) c).arrAt 4 cfg1.N := by
  unfold W6
  rw [Function.update_of_ne (StableHlo.devRef_ne_of_ne (by decide) : (Proc.devRef .tc main_v8_0 : DevRef τ sig) ≠ Proc.devRef .tc main_v8_3),
    Function.update_of_ne (StableHlo.devRef_ne_of_ne (by decide) : (Proc.devRef .tc main_v8_0 : DevRef τ sig) ≠ Proc.devRef .tc main_v8_2),
    Function.update_of_ne (StableHlo.devRef_ne_of_ne (by decide) : (Proc.devRef .tc main_v8_0 : DevRef τ sig) ≠ Proc.devRef .tc main_v8_1)]
  exact Function.update_self _ _ _

/-- After the adjacency kernel each of its windows' arrays holds what the pipeline leaves there: an input's array its
    entry contents, a result array its write-backs. -/
theorem hF1 (c : Dev nD) (w : Fin cfg1.W) : (dat1 (VR5 m) c).arrAt w cfg1.N = VR6 m c (Pipeline.arrRef spec1 w) := by
  fin_cases w
  · exact ((dat1 (VR5 m) c).arrAt_in 0 rfl _).trans ((A_eq1 (VR5 m) c 0).trans (W6_of m c main_v7_0 (by decide)).symm)
  · exact ((dat1 (VR5 m) c).arrAt_in 1 rfl _).trans ((A_eq1 (VR5 m) c 1).trans (W6_of m c main_v7_0 (by decide)).symm)
  · exact ((dat1 (VR5 m) c).arrAt_in 2 rfl _).trans ((A_eq1 (VR5 m) c 2).trans (W6_of m c main_v7_1 (by decide)).symm)
  · exact ((dat1 (VR5 m) c).arrAt_in 3 rfl _).trans ((A_eq1 (VR5 m) c 3).trans (W6_of m c main_v7_1 (by decide)).symm)
  · exact (W6_v8_0 m c).symm
  · exact (W6_v8_1 m c).symm
  · exact (W6_v8_2 m c).symm
  · exact (W6_v8_3 m c).symm

theorem hrest1 (c : Dev nD) : ∀ b, b ∉ Finset.univ.image (Pipeline.arrRef spec1) → VR6 m c b = VR5 m c b := fun b hb =>
  W6_of m c b (by
    rw [arrRefs1] at hb
    simp only [Finset.mem_insert, Finset.mem_singleton, not_or] at hb
    simp only [List.mem_cons, List.not_mem_nil, or_false, not_or]
    exact ⟨hb.2.2.1, hb.2.2.2.1, hb.2.2.2.2.1, hb.2.2.2.2.2⟩)

/-! ## The proof data family and the thread state -/

abbrev adm : (p : Fin 3) → (pcfgs (F := F) p).Adm := fun p => (cfgs p).toPCfg_adm

/-- Every kernel's proof data, each at the contents its kernel is entered with. -/
def pdats : (p : Fin 3) → (c : Dev nD) → Dat τ (Elt F) Unit ℕ (UR sig nD τ) ℕ (Pipeline.pin (pcfgs (F := F)) adm p) c
  | ⟨0, _⟩ => fun c => dat0 (VR4 m) c
  | ⟨1, _⟩ => fun c => dat1 (VR5 m) c
  | ⟨2, _⟩ => fun c => dat2 (VR7 m) c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W9 m c) ∗ ∃ r, prngReg c r)

/-! ## The kernels as segments -/

set_option backward.isDefEq.respectTransparency.types false in
/-- Kernel 0 over the thread state: entered with every unscoped buffer at the contents before it, left with its
    result arrays at what its write-backs leave and every other buffer as entered. Its arrays are split out of the
    unscoped buffers and put back; the generator register goes into the kernel's invariant and comes out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR4 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (VR4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR4 m c) (fun b => W5 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered with every unscoped buffer at the contents before it, left with its
    result arrays at what its write-backs leave and every other buffer as entered. Its arrays are split out of the
    unscoped buffers and put back; the generator register goes into the kernel's invariant and comes out; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (VR7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VR7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VR7 m c) (fun b => W8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The adjacency kernel over the thread state. Two pairs of its input windows read one array each, so each such
    array is split in two halves among its windows on entry and joined again on exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VR5 m c)
  hentry c := by
    rw [Pipeline.ownSems0_none]
    have hsp : StableHlo.held (c : Thread nD τ) (Pipeline.ucRefs τ sig) (W5 m c)
        ⊢ (iprop(Pipeline.arrBufs spec1 c (VR5 m c) ∗ Pipeline.unscopedRest spec1 c (VR5 m c)) : sProp 𝕄) := by
      rw [← Pipeline.unscopedBufs_held (Ix := Unit) (Name := ℕ) (U := UR sig nD τ) (Lvl := ℕ) c (W5 m c),
        Pipeline.unscopedBufs_split₀ cfgs 1 winFacts₀1.arr_unscoped c (VR5 m c)]
      exact .rfl
    have hsplit := arrays1_split c (pdats m 1 c) rfl (VR5 m c) ((pdats m 1 c).arrAt · 0) (fun _ => rfl)
    iintro ⟨⟨Hub, Hp, HO⟩, -, -⟩
    ihave H := hsp $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_join c (pdats m 1 c) rfl (VR6 m c) ((pdats m 1 c).arrAt · cfg1.N) (hF1 m c)
    have hrest : (Pipeline.unscopedRest (Ix := Unit) (Name := ℕ) (U := UR sig nD τ) (Lvl := ℕ) spec1 c (VR5 m c) : sProp 𝕄)
        = Pipeline.unscopedRest spec1 c (VR6 m c) := by
      unfold Pipeline.unscopedRest
      exact bigSep_congr fun b hb => by rw [hrest1 m c b (Finset.mem_sdiff.mp hb).2]
    have hsp : (iprop(Pipeline.arrBufs spec1 c (VR6 m c) ∗ Pipeline.unscopedRest spec1 c (VR6 m c)) : sProp 𝕄)
        ⊢ StableHlo.held (c : Thread nD τ) (Pipeline.ucRefs τ sig) (W6 m c) := by
      rw [← Pipeline.unscopedBufs_held (Ix := Unit) (Name := ℕ) (U := UR sig nD τ) (Lvl := ℕ) c (W6 m c),
        Pipeline.unscopedBufs_split₀ cfgs 1 winFacts₀1.arr_unscoped c (VR6 m c)]
      exact .rfl
    rw [hrest]
    iintro ⟨Ha, HO, HY, Hrest⟩
    ihave Hb := hjoin $$ Ha
    imodintro
    isplitl [Hb Hrest]
    · iapply hsp; isplitl [Hb] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m),
    .region (reg1 m),
    .host (hseg hostOps2 hostOps2_sub hostOps2_fresh (W6 m)),
    .region (reg2 m),
    .host (hseg hostOps3 hostOps3_sub hostOps3_fresh (W8 m)) ]

/-- The last thread state regrouped: the buffers and the generator register beside the dues. -/
theorem lastStep (c : Dev nD) :
    iprop(StableHlo.held (c : Thread nD τ) (Pipeline.ucRefs τ sig) (W9 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

variable (ρ : Dev nD → PrngReg)

set_option backward.isDefEq.respectTransparency.types false in
/-- Every weakly fair execution of the program from memory `m` with zero counters terminates without a fault, and
    every final memory holds each unscoped buffer at the end of the fold. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl, .rfl, .rfl, .rfl, .rfl, lastStep m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.KernelIdeal.Hand

end
-- ==== Proof.KI.Frame.lean ====
/-
  The frame: the program runs to the end from any memory and leaves its eleven argument arrays as launched — each
  argument's buffer is written by no host stretch and is no result array of any kernel, so its contents at the end of
  the fold are the launch contents.
-/
import proofs.«152008_j55130200211709_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Argument 0 reaches the end as launched: no host stretch writes it, no kernel changes it. -/
theorem W9_main_arg0 (c : Dev nD) : W9 m c main_arg0 = m ((c : Thread nD τ).loc main_arg0) :=
  (StableHlo.after_of_writes_sub hostOps3 _ hostOps3_writes (by decide : main_arg0 ∉ hostOps3_W)).trans <|
  (W8_of_ne m c main_arg0 (by decide)).trans <|
  (StableHlo.after_of_writes_sub hostOps2 _ hostOps2_writes (by decide : main_arg0 ∉ hostOps2_W)).trans <|
  (W6_of m c main_arg0 (by decide)).trans <|
  ((W5_arr m c 0).trans (((dat0 (VR4 m) c).arrAt_in 0 rfl _).trans (A_eq0 (VR4 m) c 0))).trans <|
  (V4_of m c main_arg0 (by decide)).trans <| (V3_of m c main_arg0 (by decide)).trans <|
  (V2_of m c main_arg0 (by decide)).trans <| (V1_of m c main_arg0 (by decide)).trans rfl
/-- Argument 1 reaches the end as launched: no host stretch writes it, no kernel changes it. -/
theorem W9_main_arg1 (c : Dev nD) : W9 m c main_arg1 = m ((c : Thread nD τ).loc main_arg1) :=
  (StableHlo.after_of_writes_sub hostOps3 _ hostOps3_writes (by decide : main_arg1 ∉ hostOps3_W)).trans <|
  (W8_of_ne m c main_arg1 (by decide)).trans <|
  (StableHlo.after_of_writes_sub hostOps2 _ hostOps2_writes (by decide : main_arg1 ∉ hostOps2_W)).trans <|
  (W6_of m c main_arg1 (by decide)).trans <|
  (W5_of_ne m c main_arg1 (by decide)).trans <|
  (V4_of m c main_arg1 (by decide)).trans <| (V3_of m c main_arg1 (by decide)).trans <|
  (V2_of m c main_arg1 (by decide)).trans <| (V1_of m c main_arg1 (by decide)).trans rfl
/-- Argument 2 reaches the end as launched: no host stretch writes it, no kernel changes it. -/
theorem W9_main_arg2 (c : Dev nD) : W9 m c main_arg2 = m ((c : Thread nD τ).loc main_arg2) :=
  (StableHlo.after_of_writes_sub hostOps3 _ hostOps3_writes (by decide : main_arg2 ∉ hostOps3_W)).trans <|
  (W8_of_ne m c main_arg2 (by decide)).trans <|
  (StableHlo.after_of_writes_sub hostOps2 _ hostOps2_writes (by decide : main_arg2 ∉ hostOps2_W)).trans <|
  (W6_of m c main_arg2 (by decide)).trans <|
  ((W5_arr m c 2).trans (((dat0 (VR4 m) c).arrAt_in 2 rfl _).trans (A_eq0 (VR4 m) c 2))).trans <|
  (V4_of m c main_arg2 (by decide)).trans <| (V3_of m c main_arg2 (by decide)).trans <|
  (V2_of m c main_arg2 (by decide)).trans <| (V1_of m c main_arg2 (by decide)).trans rfl
/-- Argument 3 reaches the end as launched: no host stretch writes it, no kernel changes it. -/
theorem W9_main_arg3 (c : Dev nD) : W9 m c main_arg3 = m ((c : Thread nD τ).loc main_arg3) :=
  (StableHlo.after_of_writes_sub hostOps3 _ hostOps3_writes (by decide : main_arg3 ∉ hostOps3_W)).trans <|
  (W8_of_ne m c main_arg3 (by decide)).trans <|
  (StableHlo.after_of_writes_sub hostOps2 _ hostOps2_writes (by decide : main_arg3 ∉ hostOps2_W)).trans <|
  (W6_of m c main_arg3 (by decide)).trans <|
  (W5_of_ne m c main_arg3 (by decide)).trans <|
  (V4_of m c main_arg3 (by decide)).trans <| (V3_of m c main_arg3 (by decide)).trans <|
  (V2_of m c main_arg3 (by decide)).trans <| (V1_of m c main_arg3 (by decide)).trans rfl
/-- Argument 4 reaches the end as launched: no host stretch writes it, no kernel changes it. -/
theorem W9_main_arg4 (c : Dev nD) : W9 m c main_arg4 = m ((c : Thread nD τ).loc main_arg4) :=
  (StableHlo.after_of_writes_sub hostOps3 _ hostOps3_writes (by decide : main_arg4 ∉ hostOps3_W)).trans <|
  (W8_of_ne m c main_arg4 (by decide)).trans <|
  (StableHlo.after_of_writes_sub hostOps2 _ hostOps2_writes (by decide : main_arg4 ∉ hostOps2_W)).trans <|
  (W6_of m c main_arg4 (by decide)).trans <|
  ((W5_arr m c 4).trans (((dat0 (VR4 m) c).arrAt_in 4 rfl _).trans (A_eq0 (VR4 m) c 4))).trans <|
  (V4_of m c main_arg4 (by decide)).trans <| (V3_of m c main_arg4 (by decide)).trans <|
  (V2_of m c main_arg4 (by decide)).trans <| (V1_of m c main_arg4 (by decide)).trans rfl
/-- Argument 5 reaches the end as launched: no host stretch writes it, no kernel changes it. -/
theorem W9_main_arg5 (c : Dev nD) : W9 m c main_arg5 = m ((c : Thread nD τ).loc main_arg5) :=
  (StableHlo.after_of_writes_sub hostOps3 _ hostOps3_writes (by decide : main_arg5 ∉ hostOps3_W)).trans <|
  (W8_of_ne m c main_arg5 (by decide)).trans <|
  (StableHlo.after_of_writes_sub hostOps2 _ hostOps2_writes (by decide : main_arg5 ∉ hostOps2_W)).trans <|
  (W6_of m c main_arg5 (by decide)).trans <|
  (W5_of_ne m c main_arg5 (by decide)).trans <|
  (V4_of m c main_arg5 (by decide)).trans <| (V3_of m c main_arg5 (by decide)).trans <|
  (V2_of m c main_arg5 (by decide)).trans <| (V1_of m c main_arg5 (by decide)).trans rfl
/-- Argument 6 reaches the end as launched: no host stretch writes it, no kernel changes it. -/
theorem W9_main_arg6 (c : Dev nD) : W9 m c main_arg6 = m ((c : Thread nD τ).loc main_arg6) :=
  (StableHlo.after_of_writes_sub hostOps3 _ hostOps3_writes (by decide : main_arg6 ∉ hostOps3_W)).trans <|
  (W8_of_ne m c main_arg6 (by decide)).trans <|
  (StableHlo.after_of_writes_sub hostOps2 _ hostOps2_writes (by decide : main_arg6 ∉ hostOps2_W)).trans <|
  (W6_of m c main_arg6 (by decide)).trans <|
  ((W5_arr m c 6).trans (((dat0 (VR4 m) c).arrAt_in 6 rfl _).trans (A_eq0 (VR4 m) c 6))).trans <|
  (V4_of m c main_arg6 (by decide)).trans <| (V3_of m c main_arg6 (by decide)).trans <|
  (V2_of m c main_arg6 (by decide)).trans <| (V1_of m c main_arg6 (by decide)).trans rfl
/-- Argument 7 reaches the end as launched: no host stretch writes it, no kernel changes it. -/
theorem W9_main_arg7 (c : Dev nD) : W9 m c main_arg7 = m ((c : Thread nD τ).loc main_arg7) :=
  (StableHlo.after_of_writes_sub hostOps3 _ hostOps3_writes (by decide : main_arg7 ∉ hostOps3_W)).trans <|
  (W8_of_ne m c main_arg7 (by decide)).trans <|
  (StableHlo.after_of_writes_sub hostOps2 _ hostOps2_writes (by decide : main_arg7 ∉ hostOps2_W)).trans <|
  (W6_of m c main_arg7 (by decide)).trans <|
  ((W5_arr m c 7).trans (((dat0 (VR4 m) c).arrAt_in 7 rfl _).trans (A_eq0 (VR4 m) c 7))).trans <|
  (V4_of m c main_arg7 (by decide)).trans <| (V3_of m c main_arg7 (by decide)).trans <|
  (V2_of m c main_arg7 (by decide)).trans <| (V1_of m c main_arg7 (by decide)).trans rfl
/-- Argument 8 reaches the end as launched: no host stretch writes it, no kernel changes it. -/
theorem W9_main_arg8 (c : Dev nD) : W9 m c main_arg8 = m ((c : Thread nD τ).loc main_arg8) :=
  (StableHlo.after_of_writes_sub hostOps3 _ hostOps3_writes (by decide : main_arg8 ∉ hostOps3_W)).trans <|
  (W8_of_ne m c main_arg8 (by decide)).trans <|
  (StableHlo.after_of_writes_sub hostOps2 _ hostOps2_writes (by decide : main_arg8 ∉ hostOps2_W)).trans <|
  (W6_of m c main_arg8 (by decide)).trans <|
  (W5_of_ne m c main_arg8 (by decide)).trans <|
  (V4_of m c main_arg8 (by decide)).trans <| (V3_of m c main_arg8 (by decide)).trans <|
  (V2_of m c main_arg8 (by decide)).trans <| (V1_of m c main_arg8 (by decide)).trans rfl
/-- Argument 9 reaches the end as launched: no host stretch writes it, no kernel changes it. -/
theorem W9_main_arg9 (c : Dev nD) : W9 m c main_arg9 = m ((c : Thread nD τ).loc main_arg9) :=
  (StableHlo.after_of_writes_sub hostOps3 _ hostOps3_writes (by decide : main_arg9 ∉ hostOps3_W)).trans <|
  (W8_of_ne m c main_arg9 (by decide)).trans <|
  (StableHlo.after_of_writes_sub hostOps2 _ hostOps2_writes (by decide : main_arg9 ∉ hostOps2_W)).trans <|
  (W6_of m c main_arg9 (by decide)).trans <|
  (W5_of_ne m c main_arg9 (by decide)).trans <|
  (V4_of m c main_arg9 (by decide)).trans <| (V3_of m c main_arg9 (by decide)).trans <|
  (V2_of m c main_arg9 (by decide)).trans <| (V1_of m c main_arg9 (by decide)).trans rfl
/-- Argument 10 reaches the end as launched: no host stretch writes it, no kernel changes it. -/
theorem W9_main_arg10 (c : Dev nD) : W9 m c main_arg10 = m ((c : Thread nD τ).loc main_arg10) :=
  (StableHlo.after_of_writes_sub hostOps3 _ hostOps3_writes (by decide : main_arg10 ∉ hostOps3_W)).trans <|
  (W8_of_ne m c main_arg10 (by decide)).trans <|
  (StableHlo.after_of_writes_sub hostOps2 _ hostOps2_writes (by decide : main_arg10 ∉ hostOps2_W)).trans <|
  (W6_of m c main_arg10 (by decide)).trans <|
  (W5_of_ne m c main_arg10 (by decide)).trans <|
  (V4_of m c main_arg10 (by decide)).trans <| (V3_of m c main_arg10 (by decide)).trans <|
  (V2_of m c main_arg10 (by decide)).trans <| (V1_of m c main_arg10 (by decide)).trans rfl

variable (ρ : Dev nD → PrngReg)

/-- Every weakly fair execution terminates without a fault; the result buffer ends at the end of the fold and every
    argument array as launched. -/
theorem run_result : θ_run defs (onTc (τ := τ) (main (F := F))) ⟨m, fun _ => 0, ρ⟩ (fun r => ∀ c : Dev nD,
      r.2.mem ((c.tc : Thread nD τ).loc main_v16) = W9 m c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v16 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c)⟩) (run_all m ρ)

/-- The frame claim's statement, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.KernelIdeal.Hand

end
-- ==== Proof.KI.R0Value.lean ====
import proofs.«152008_j55130200211709_2_alg».proof.Proof.KI.R0
import Idealize.ShloMosaic.Lib.Pipeline.Value
import Idealize.ShloMosaic.Lib.ValueIdx
import Idealize.ShloMosaic.Lib.ValueLayout
import Idealize.ShloMosaic.PureOps.Ideal.Laws

/-! # The projection kernel: what its four result arrays hold after the call

At the ideal values (extended reals, exact operations, format changes the identity) each of the four output arrays
of the first pipelined call is one function of the arrays the call finds, index by index:

* window 8 — `featT`: the waveform rows times the time weight, plus the bias row, clamped below at zero;
* window 9 — `featF`: the same of the spectrogram rows, the frequency weight and its bias;
* window 10 — `timesW featT`: window 8's rows times the first graph weight;
* window 11 — `timesW featF`: window 9's rows times the second graph weight.

The road: the body's stored values at an index (`payN_apply`: a product into a zero accumulator is a plain sum over
the contracted axis); each input block as rows of its array (`iblk0_w_apply`, `iblk0_w_eq`); hence what a grid point
writes back is its block of the whole-array function (`flushed0_w_eq`); the four row blocks cover the array
(`covered0_w`: row `r` belongs to point `r / 256`); so the array ends holding the function (`final0_w`). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The four results as functions of whole arrays -/

/-- Rows of `a` (4000 columns) times `w`, plus the row `b`, clamped below at zero. -/
def featT (a : S1024x4000.Idx → EReal) (w : S4000x128.Idx → EReal) (b : S1x128.Idx → EReal) : S1024x128.Idx → EReal :=
  fun i => max (∑ k : Fin 4000, a (ix2 (i 0) k) * w (ix2 k (i 1)) + b (ix2 (0 : Fin 1) (i 1))) 0

/-- The same over 4096 columns. -/
def featF (a : S1024x4096.Idx → EReal) (w : S4096x128.Idx → EReal) (b : S1x128.Idx → EReal) : S1024x128.Idx → EReal :=
  fun i => max (∑ k : Fin 4096, a (ix2 (i 0) k) * w (ix2 k (i 1)) + b (ix2 (0 : Fin 1) (i 1))) 0

/-- Rows of `x` times the square matrix `g`. -/
def timesW (x : S1024x128.Idx → EReal) (g : S128x128.Idx → EReal) : S1024x128.Idx → EReal :=
  fun i => ∑ k : Fin 128, x (ix2 (i 0) k) * g (ix2 k (i 1))

theorem featT_apply (a : S1024x4000.Idx → EReal) (w : S4000x128.Idx → EReal) (b : S1x128.Idx → EReal) (i : S1024x128.Idx) :
    featT a w b i = max (∑ k : Fin 4000, a (ix2 (i 0) k) * w (ix2 k (i 1)) + b (ix2 (0 : Fin 1) (i 1))) 0 := rfl
theorem featF_apply (a : S1024x4096.Idx → EReal) (w : S4096x128.Idx → EReal) (b : S1x128.Idx → EReal) (i : S1024x128.Idx) :
    featF a w b i = max (∑ k : Fin 4096, a (ix2 (i 0) k) * w (ix2 k (i 1)) + b (ix2 (0 : Fin 1) (i 1))) 0 := rfl
theorem timesW_apply (x : S1024x128.Idx → EReal) (g : S128x128.Idx → EReal) (i : S1024x128.Idx) :
    timesW x g i = ∑ k : Fin 128, x (ix2 (i 0) k) * g (ix2 k (i 1)) := rfl

/-- The offsets of a whole-block access, however the zeros are spelt. -/
theorem hz : (![0, 0] : Fin 2 → Nat) = fun _ => 0 := funext fun a => by fin_cases a <;> rfl

/-! ## The body's values at an index -/

/-! The dot `dot_S256x4000_S4000x128_S256x128_1_0_0_1_n_n`: rows of the left operand against columns of the right, one contracted axis of extent 4000. -/
theorem mmT_lhs0 (i : S256x128.Idx) (q : dot_S256x4000_S4000x128_S256x128_1_0_0_1_n_n.contr.Idx) : (dot_S256x4000_S4000x128_S256x128_1_0_0_1_n_n.lhsIdx i q 0).val = (i 0).val := by
  unfold DotDims.lhsIdx
  rw [dif_neg (show ¬(0 : Fin S256x4000.rank) ∈ dot_S256x4000_S4000x128_S256x128_1_0_0_1_n_n.lhsBatch by decide), dif_pos (show (0 : Fin S256x4000.rank) ∈ dot_S256x4000_S4000x128_S256x128_1_0_0_1_n_n.lhsNonContracting by decide)]
  rfl
theorem mmT_lhs1 (i : S256x128.Idx) (q : dot_S256x4000_S4000x128_S256x128_1_0_0_1_n_n.contr.Idx) : (dot_S256x4000_S4000x128_S256x128_1_0_0_1_n_n.lhsIdx i q 1).val = (q ⟨0, by decide⟩).val :=
  dot_S256x4000_S4000x128_S256x128_1_0_0_1_n_n.lhsIdx_val_of_single rfl i q
theorem mmT_rhs0 (i : S256x128.Idx) (q : dot_S256x4000_S4000x128_S256x128_1_0_0_1_n_n.contr.Idx) : (dot_S256x4000_S4000x128_S256x128_1_0_0_1_n_n.rhsIdx i q 0).val = (q ⟨0, by decide⟩).val :=
  dot_S256x4000_S4000x128_S256x128_1_0_0_1_n_n.rhsIdx_val_of_single rfl i q
theorem mmT_rhs1 (i : S256x128.Idx) (q : dot_S256x4000_S4000x128_S256x128_1_0_0_1_n_n.contr.Idx) : (dot_S256x4000_S4000x128_S256x128_1_0_0_1_n_n.rhsIdx i q 1).val = (i 1).val := by
  unfold DotDims.rhsIdx
  rw [dif_neg (show ¬(1 : Fin S4000x128.rank) ∈ dot_S256x4000_S4000x128_S256x128_1_0_0_1_n_n.rhsBatch by decide), dif_pos (show (1 : Fin S4000x128.rank) ∈ dot_S256x4000_S4000x128_S256x128_1_0_0_1_n_n.rhsNonContracting by decide)]
  rfl

/-- Into a zero accumulator the product at `(p, q)` is the plain sum over the contracted axis. -/
theorem mmT_apply (l : FVec Ideal S256x4000 .bf16) (r : FVec Ideal S4000x128 .bf16) (p : Fin 256) (q : Fin 128) :
    matmul dot_S256x4000_S4000x128_S256x128_1_0_0_1_n_n none l r (constant (F := Ideal) S256x128 .f32 0x00000000#32) (ix2 p q)
      = ∑ k : Fin 4000, l (ix2 p k) * r (ix2 k q) := by
  show FloatOps.matmul dot_S256x4000_S4000x128_S256x128_1_0_0_1_n_n none l r (constant (F := Ideal) S256x128 .f32 0x00000000#32) (ix2 p q) = _
  rw [Ideal.matmul_constant_zero_apply, ← Equiv.sum_comp (ValueIdx.contrEquiv1 dot_S256x4000_S4000x128_S256x128_1_0_0_1_n_n 4000 rfl rfl).symm]
  refine Finset.sum_congr rfl fun k _ => ?_
  have hk := ValueIdx.contrEquiv1_symm_val dot_S256x4000_S4000x128_S256x128_1_0_0_1_n_n 4000 rfl rfl k
  have el : dot_S256x4000_S4000x128_S256x128_1_0_0_1_n_n.lhsIdx (ix2 p q) ((ValueIdx.contrEquiv1 dot_S256x4000_S4000x128_S256x128_1_0_0_1_n_n 4000 rfl rfl).symm k) = ix2 p k := funext fun a => Fin.ext (by
    match a with
    | ⟨0, _⟩ => exact mmT_lhs0 _ _
    | ⟨1, _⟩ => exact (mmT_lhs1 _ _).trans hk)
  have er : dot_S256x4000_S4000x128_S256x128_1_0_0_1_n_n.rhsIdx (ix2 p q) ((ValueIdx.contrEquiv1 dot_S256x4000_S4000x128_S256x128_1_0_0_1_n_n 4000 rfl rfl).symm k) = ix2 k q := funext fun a => Fin.ext (by
    match a with
    | ⟨0, _⟩ => exact (mmT_rhs0 _ _).trans hk
    | ⟨1, _⟩ => exact mmT_rhs1 _ _)
  rw [el, er]

/-! The dot `dot_S256x4096_S4096x128_S256x128_1_0_0_1_n_n`: rows of the left operand against columns of the right, one contracted axis of extent 4096. -/
theorem mmF_lhs0 (i : S256x128.Idx) (q : dot_S256x4096_S4096x128_S256x128_1_0_0_1_n_n.contr.Idx) : (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem mmF_lhs1 (i : S256x128.Idx) (q : dot_S256x4096_S4096x128_S256x128_1_0_0_1_n_n.contr.Idx) : (dot_S256x4096_S4096x128_S256x128_1_0_0_1_n_n.lhsIdx i q 1).val = (q ⟨0, by decide⟩).val :=
  dot_S256x4096_S4096x128_S256x128_1_0_0_1_n_n.lhsIdx_val_of_single rfl i q
theorem mmF_rhs0 (i : S256x128.Idx) (q : dot_S256x4096_S4096x128_S256x128_1_0_0_1_n_n.contr.Idx) : (dot_S256x4096_S4096x128_S256x128_1_0_0_1_n_n.rhsIdx i q 0).val = (q ⟨0, by decide⟩).val :=
  dot_S256x4096_S4096x128_S256x128_1_0_0_1_n_n.rhsIdx_val_of_single rfl i q
theorem mmF_rhs1 (i : S256x128.Idx) (q : dot_S256x4096_S4096x128_S256x128_1_0_0_1_n_n.contr.Idx) : (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- Into a zero accumulator the product at `(p, q)` is the plain sum over the contracted axis. -/
theorem mmF_apply (l : FVec Ideal S256x4096 .bf16) (r : FVec Ideal S4096x128 .bf16) (p : Fin 256) (q : Fin 128) :
    matmul dot_S256x4096_S4096x128_S256x128_1_0_0_1_n_n none l r (constant (F := Ideal) S256x128 .f32 0x00000000#32) (ix2 p q)
      = ∑ k : Fin 4096, l (ix2 p k) * r (ix2 k q) := by
  show FloatOps.matmul dot_S256x4096_S4096x128_S256x128_1_0_0_1_n_n none l r (constant (F := Ideal) S256x128 .f32 0x00000000#32) (ix2 p q) = _
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 p q) ((ValueIdx.contrEquiv1 dot_S256x4096_S4096x128_S256x128_1_0_0_1_n_n 4096 rfl rfl).symm k) = ix2 p k := funext fun a => Fin.ext (by
    match a with
    | ⟨0, _⟩ => exact mmF_lhs0 _ _
    | ⟨1, _⟩ => exact (mmF_lhs1 _ _).trans hk)
  have er : dot_S256x4096_S4096x128_S256x128_1_0_0_1_n_n.rhsIdx (ix2 p q) ((ValueIdx.contrEquiv1 dot_S256x4096_S4096x128_S256x128_1_0_0_1_n_n 4096 rfl rfl).symm k) = ix2 k q := funext fun a => Fin.ext (by
    match a with
    | ⟨0, _⟩ => exact (mmF_rhs0 _ _).trans hk
    | ⟨1, _⟩ => exact mmF_rhs1 _ _)
  rw [el, er]

/-! The dot `dot_S256x128_S128x128_S256x128_1_0_0_1_n_n`: rows of the left operand against columns of the right, one contracted axis of extent 128. -/
theorem mmG_lhs0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem mmG_lhs1 (i : S256x128.Idx) (q : dot_S256x128_S128x128_S256x128_1_0_0_1_n_n.contr.Idx) : (dot_S256x128_S128x128_S256x128_1_0_0_1_n_n.lhsIdx i q 1).val = (q ⟨0, by decide⟩).val :=
  dot_S256x128_S128x128_S256x128_1_0_0_1_n_n.lhsIdx_val_of_single rfl i q
theorem mmG_rhs0 (i : S256x128.Idx) (q : dot_S256x128_S128x128_S256x128_1_0_0_1_n_n.contr.Idx) : (dot_S256x128_S128x128_S256x128_1_0_0_1_n_n.rhsIdx i q 0).val = (q ⟨0, by decide⟩).val :=
  dot_S256x128_S128x128_S256x128_1_0_0_1_n_n.rhsIdx_val_of_single rfl i q
theorem mmG_rhs1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- Into a zero accumulator the product at `(p, q)` is the plain sum over the contracted axis. -/
theorem mmG_apply (l : FVec Ideal S256x128 .bf16) (r : FVec Ideal S128x128 .bf16) (p : Fin 256) (q : Fin 128) :
    matmul dot_S256x128_S128x128_S256x128_1_0_0_1_n_n none l r (constant (F := Ideal) S256x128 .f32 0x00000000#32) (ix2 p q)
      = ∑ k : Fin 128, l (ix2 p k) * r (ix2 k q) := by
  show FloatOps.matmul dot_S256x128_S128x128_S256x128_1_0_0_1_n_n none l r (constant (F := Ideal) S256x128 .f32 0x00000000#32) (ix2 p q) = _
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p q) ((ValueIdx.contrEquiv1 dot_S256x128_S128x128_S256x128_1_0_0_1_n_n 128 rfl rfl).symm k) = ix2 p k := funext fun a => Fin.ext (by
    match a with
    | ⟨0, _⟩ => exact mmG_lhs0 _ _
    | ⟨1, _⟩ => exact (mmG_lhs1 _ _).trans hk)
  have er : dot_S256x128_S128x128_S256x128_1_0_0_1_n_n.rhsIdx (ix2 p q) ((ValueIdx.contrEquiv1 dot_S256x128_S128x128_S256x128_1_0_0_1_n_n 128 rfl rfl).symm k) = ix2 k q := funext fun a => Fin.ext (by
    match a with
    | ⟨0, _⟩ => exact (mmG_rhs0 _ _).trans hk
    | ⟨1, _⟩ => exact mmG_rhs1 _ _)
  rw [el, er]

/-- The value stored to window 8 at `(p, q)`: format changes are the identity on extended reals, the bias row is
    read at column `q`, the zero word is zero. -/
theorem pay2_apply (x0 : Vec Ideal S256x4000 .f32) (x2 : Vec Ideal S4000x128 .f32) (x3 : Vec Ideal S1x128 .f32) (p : Fin 256) (q : Fin 128) :
    k0_pay2 x0 x2 x3 (ix2 p q) = max (∑ k : Fin 4000, x0 (ix2 p k) * x2 (ix2 k q) + x3 (ix2 (0 : Fin 1) q)) 0 := by
  unfold k0_pay2
  rw [maximumf_apply, addf_apply, broadcast_apply, mmT_apply, shapeCast_self, broadcastTo_1b_ab_apply]
  show max (∑ k : Fin 4000, x0 (ix2 p k) * x2 (ix2 k q) + x3 (ix2 (0 : Fin 1) q)) (Ideal.ofBits .f32 0x00000000#32) = _
  rw [Ideal.ofBits_zero_f32]

theorem pay3_apply (x1 : Vec Ideal S256x4096 .f32) (x4 : Vec Ideal S4096x128 .f32) (x5 : Vec Ideal S1x128 .f32) (p : Fin 256) (q : Fin 128) :
    k0_pay3 x1 x4 x5 (ix2 p q) = max (∑ k : Fin 4096, x1 (ix2 p k) * x4 (ix2 k q) + x5 (ix2 (0 : Fin 1) q)) 0 := by
  unfold k0_pay3
  rw [maximumf_apply, addf_apply, broadcast_apply, mmF_apply, shapeCast_self, shapeCast_self, broadcastTo_1b_ab_apply]
  show max (∑ k : Fin 4096, x1 (ix2 p k) * x4 (ix2 k q) + x5 (ix2 (0 : Fin 1) q)) (Ideal.ofBits .f32 0x00000000#32) = _
  rw [Ideal.ofBits_zero_f32]

theorem pay6_apply (x0 : Vec Ideal S256x4000 .f32) (x2 : Vec Ideal S4000x128 .f32) (x3 : Vec Ideal S1x128 .f32) (x6 : Vec Ideal S128x128 .f32) (p : Fin 256) (q : Fin 128) :
    k0_pay6 x0 x2 x3 x6 (ix2 p q) = ∑ k : Fin 128, k0_pay2 x0 x2 x3 (ix2 p k) * x6 (ix2 k q) := by
  unfold k0_pay6
  rw [mmG_apply]
  rfl

theorem pay1_apply (x1 : Vec Ideal S256x4096 .f32) (x4 : Vec Ideal S4096x128 .f32) (x5 : Vec Ideal S1x128 .f32) (x7 : Vec Ideal S128x128 .f32) (p : Fin 256) (q : Fin 128) :
    k0_pay1 (k0_pay4 x1 x4 x5) (k0_pay5 x7) (ix2 p q) = ∑ k : Fin 128, k0_pay3 x1 x4 x5 (ix2 p k) * x7 (ix2 k q) := by
  unfold k0_pay1
  rw [mmG_apply]
  rfl

/-! ## Where the blocks sit

The block index of every window at every point, decided once over the four grid points: the two big inputs and the
four outputs move with the point along the rows; the weights, biases and graph weights stay at block zero. -/

theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

variable (V : (c : Dev nD) → (b : Ref sig .tc) → Buf (Elt Ideal) ((c : Thread nD τ).loc b))

/-- Input window 0: the block at point `t` is rows `256 t … 256 t + 255` of the array. -/
theorem iblk0_0_apply (c : Dev nD) (t : Fin cfg0.N) (p : Fin 256) (k : Fin 4000) (r : Fin 1024) (hr : r.val = 256 * t.val + p.val) :
    (iblk0 V c 0 t : Vec Ideal S256x4000 .f32) (ix2 p k) = (V c (Pipeline.arrRef spec0 0) : S1024x4000.Idx → EReal) (ix2 r k) := by
  obtain ⟨⟨e0, e1⟩, -, -, -, -, -, -, -, -, -, -, -⟩ := idx_facts0 t
  show (V c (Pipeline.arrRef spec0 0) : S1024x4000.Idx → EReal) (((cfg0.win 0).blk t).view.emb (ix2 p k)) = _
  refine congrArg (V c (Pipeline.arrRef spec0 0) : S1024x4000.Idx → EReal) (funext fun a => Fin.ext ?_)
  match a with
  | ⟨0, _⟩ => show win0_0.index t (0 : Fin 2) * 256 + 1 * p.val = r.val; rw [e0, hr]; omega
  | ⟨1, _⟩ => show win0_0.index t (1 : Fin 2) * 4000 + 1 * k.val = k.val; rw [e1]; omega

/-- Input window 1: the block at point `t` is rows `256 t … 256 t + 255` of the array. -/
theorem iblk0_1_apply (c : Dev nD) (t : Fin cfg0.N) (p : Fin 256) (k : Fin 4096) (r : Fin 1024) (hr : r.val = 256 * t.val + p.val) :
    (iblk0 V c 1 t : Vec Ideal S256x4096 .f32) (ix2 p k) = (V c (Pipeline.arrRef spec0 1) : S1024x4096.Idx → EReal) (ix2 r k) := by
  obtain ⟨-, ⟨e0, e1⟩, -, -, -, -, -, -, -, -, -, -⟩ := idx_facts0 t
  show (V c (Pipeline.arrRef spec0 1) : S1024x4096.Idx → EReal) (((cfg0.win 1).blk t).view.emb (ix2 p k)) = _
  refine congrArg (V c (Pipeline.arrRef spec0 1) : S1024x4096.Idx → EReal) (funext fun a => Fin.ext ?_)
  match a with
  | ⟨0, _⟩ => show win0_1.index t (0 : Fin 2) * 256 + 1 * p.val = r.val; rw [e0, hr]; omega
  | ⟨1, _⟩ => show win0_1.index t (1 : Fin 2) * 4096 + 1 * k.val = k.val; rw [e1]; omega

/-- Input window 2: its one block is the whole array. -/
theorem iblk0_2_eq (c : Dev nD) (t : Fin cfg0.N) :
    (iblk0 V c 2 t : Vec Ideal S4000x128 .f32) = (V c (Pipeline.arrRef spec0 2) : S4000x128.Idx → EReal) := by
  obtain ⟨-, -, ⟨e0, e1⟩, -, -, -, -, -, -, -, -, -⟩ := idx_facts0 t
  funext x
  show (V c (Pipeline.arrRef spec0 2) : S4000x128.Idx → EReal) (((cfg0.win 2).blk t).view.emb x) = _
  refine congrArg (V c (Pipeline.arrRef spec0 2) : S4000x128.Idx → EReal) (funext fun a => Fin.ext ?_)
  match a with
  | ⟨0, _⟩ => show win0_2.index t (0 : Fin 2) * 4000 + 1 * (x 0).val = (x 0).val; rw [e0]; omega
  | ⟨1, _⟩ => show win0_2.index t (1 : Fin 2) * 128 + 1 * (x 1).val = (x 1).val; rw [e1]; omega

/-- Input window 3: its one block is the whole array. -/
theorem iblk0_3_eq (c : Dev nD) (t : Fin cfg0.N) :
    (iblk0 V c 3 t : Vec Ideal S1x128 .f32) = (V c (Pipeline.arrRef spec0 3) : S1x128.Idx → EReal) := by
  obtain ⟨-, -, -, ⟨e0, e1⟩, -, -, -, -, -, -, -, -⟩ := idx_facts0 t
  funext x
  show (V c (Pipeline.arrRef spec0 3) : S1x128.Idx → EReal) (((cfg0.win 3).blk t).view.emb x) = _
  refine congrArg (V c (Pipeline.arrRef spec0 3) : S1x128.Idx → EReal) (funext fun a => Fin.ext ?_)
  match a with
  | ⟨0, _⟩ => show win0_3.index t (0 : Fin 2) * 1 + 1 * (x 0).val = (x 0).val; rw [e0]; omega
  | ⟨1, _⟩ => show win0_3.index t (1 : Fin 2) * 128 + 1 * (x 1).val = (x 1).val; rw [e1]; omega

/-- Input window 4: its one block is the whole array. -/
theorem iblk0_4_eq (c : Dev nD) (t : Fin cfg0.N) :
    (iblk0 V c 4 t : Vec Ideal S4096x128 .f32) = (V c (Pipeline.arrRef spec0 4) : S4096x128.Idx → EReal) := by
  obtain ⟨-, -, -, -, ⟨e0, e1⟩, -, -, -, -, -, -, -⟩ := idx_facts0 t
  funext x
  show (V c (Pipeline.arrRef spec0 4) : S4096x128.Idx → EReal) (((cfg0.win 4).blk t).view.emb x) = _
  refine congrArg (V c (Pipeline.arrRef spec0 4) : S4096x128.Idx → EReal) (funext fun a => Fin.ext ?_)
  match a with
  | ⟨0, _⟩ => show win0_4.index t (0 : Fin 2) * 4096 + 1 * (x 0).val = (x 0).val; rw [e0]; omega
  | ⟨1, _⟩ => show win0_4.index t (1 : Fin 2) * 128 + 1 * (x 1).val = (x 1).val; rw [e1]; omega

/-- Input window 5: its one block is the whole array. -/
theorem iblk0_5_eq (c : Dev nD) (t : Fin cfg0.N) :
    (iblk0 V c 5 t : Vec Ideal S1x128 .f32) = (V c (Pipeline.arrRef spec0 5) : S1x128.Idx → EReal) := by
  obtain ⟨-, -, -, -, -, ⟨e0, e1⟩, -, -, -, -, -, -⟩ := idx_facts0 t
  funext x
  show (V c (Pipeline.arrRef spec0 5) : S1x128.Idx → EReal) (((cfg0.win 5).blk t).view.emb x) = _
  refine congrArg (V c (Pipeline.arrRef spec0 5) : S1x128.Idx → EReal) (funext fun a => Fin.ext ?_)
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-- Input window 6: its one block is the whole array. -/
theorem iblk0_6_eq (c : Dev nD) (t : Fin cfg0.N) :
    (iblk0 V c 6 t : Vec Ideal S128x128 .f32) = (V c (Pipeline.arrRef spec0 6) : S128x128.Idx → EReal) := by
  obtain ⟨-, -, -, -, -, -, ⟨e0, e1⟩, -, -, -, -, -⟩ := idx_facts0 t
  funext x
  show (V c (Pipeline.arrRef spec0 6) : S128x128.Idx → EReal) (((cfg0.win 6).blk t).view.emb x) = _
  refine congrArg (V c (Pipeline.arrRef spec0 6) : S128x128.Idx → EReal) (funext fun a => Fin.ext ?_)
  match a with
  | ⟨0, _⟩ => show win0_6.index t (0 : Fin 2) * 128 + 1 * (x 0).val = (x 0).val; rw [e0]; omega
  | ⟨1, _⟩ => show win0_6.index t (1 : Fin 2) * 128 + 1 * (x 1).val = (x 1).val; rw [e1]; omega

/-- Input window 7: its one block is the whole array. -/
theorem iblk0_7_eq (c : Dev nD) (t : Fin cfg0.N) :
    (iblk0 V c 7 t : Vec Ideal S128x128 .f32) = (V c (Pipeline.arrRef spec0 7) : S128x128.Idx → EReal) := by
  obtain ⟨-, -, -, -, -, -, -, ⟨e0, e1⟩, -, -, -, -⟩ := idx_facts0 t
  funext x
  show (V c (Pipeline.arrRef spec0 7) : S128x128.Idx → EReal) (((cfg0.win 7).blk t).view.emb x) = _
  refine congrArg (V c (Pipeline.arrRef spec0 7) : S128x128.Idx → EReal) (funext fun a => Fin.ext ?_)
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

/-! ## A point's stored values are rows of the whole-array functions -/

/-- A block whose rows are rows of `a`: the stored value at `(p, q)` is `featT` at the row `p` stands for. -/
theorem featT_of_rows (a : S1024x4000.Idx → EReal) (w : S4000x128.Idx → EReal) (b : S1x128.Idx → EReal)
    (x0 : Vec Ideal S256x4000 .f32) (p : Fin 256) (q : Fin 128) (r : Fin 1024) (h0 : ∀ k : Fin 4000, x0 (ix2 p k) = a (ix2 r k)) :
    k0_pay2 x0 w b (ix2 p q) = featT a w b (ix2 r q) := by
  refine (pay2_apply _ _ _ p q).trans ?_
  show _ = max (∑ k : Fin 4000, a (ix2 r k) * w (ix2 k q) + b (ix2 (0 : Fin 1) q)) 0
  refine congrArg (fun s : EReal => max (s + b (ix2 (0 : Fin 1) q)) 0) (Finset.sum_congr rfl fun k _ => ?_)
  rw [h0 k]

theorem featF_of_rows (a : S1024x4096.Idx → EReal) (w : S4096x128.Idx → EReal) (b : S1x128.Idx → EReal)
    (x1 : Vec Ideal S256x4096 .f32) (p : Fin 256) (q : Fin 128) (r : Fin 1024) (h1 : ∀ k : Fin 4096, x1 (ix2 p k) = a (ix2 r k)) :
    k0_pay3 x1 w b (ix2 p q) = featF a w b (ix2 r q) := by
  refine (pay3_apply _ _ _ p q).trans ?_
  show _ = max (∑ k : Fin 4096, a (ix2 r k) * w (ix2 k q) + b (ix2 (0 : Fin 1) q)) 0
  refine congrArg (fun s : EReal => max (s + b (ix2 (0 : Fin 1) q)) 0) (Finset.sum_congr rfl fun k _ => ?_)
  rw [h1 k]

/-- What point `t` stores to window 8, at `(p, q)`, is `featT` of the arrays at row `256 t + p`. -/
theorem featT_block (c : Dev nD) (t : Fin cfg0.N) (p : Fin 256) (q : Fin 128) (r : Fin 1024) (hr : r.val = 256 * t.val + p.val) :
    k0_pay2 (iblk0 V c 0 t) (iblk0 V c 2 t) (iblk0 V c 3 t) (ix2 p q) = featT (V c (Pipeline.arrRef spec0 0)) (V c (Pipeline.arrRef spec0 2)) (V c (Pipeline.arrRef spec0 3)) (ix2 r q) := by
  rw [iblk0_2_eq V c t, iblk0_3_eq V c t]
  exact featT_of_rows _ _ _ _ p q r fun k => iblk0_0_apply V c t p k r hr

/-- The same for window 9 and `featF`. -/
theorem featF_block (c : Dev nD) (t : Fin cfg0.N) (p : Fin 256) (q : Fin 128) (r : Fin 1024) (hr : r.val = 256 * t.val + p.val) :
    k0_pay3 (iblk0 V c 1 t) (iblk0 V c 4 t) (iblk0 V c 5 t) (ix2 p q) = featF (V c (Pipeline.arrRef spec0 1)) (V c (Pipeline.arrRef spec0 4)) (V c (Pipeline.arrRef spec0 5)) (ix2 r q) := by
  rw [iblk0_4_eq V c t, iblk0_5_eq V c t]
  exact featF_of_rows _ _ _ _ p q r fun k => iblk0_1_apply V c t p k r hr

/-- Window 10: the row of `featT` times the first graph weight. -/
theorem vT_block (c : Dev nD) (t : Fin cfg0.N) (p : Fin 256) (q : Fin 128) (r : Fin 1024) (hr : r.val = 256 * t.val + p.val) :
    k0_pay6 (iblk0 V c 0 t) (iblk0 V c 2 t) (iblk0 V c 3 t) (iblk0 V c 6 t) (ix2 p q) = timesW (featT (V c (Pipeline.arrRef spec0 0)) (V c (Pipeline.arrRef spec0 2)) (V c (Pipeline.arrRef spec0 3))) (V c (Pipeline.arrRef spec0 6)) (ix2 r q) := by
  refine (pay6_apply _ _ _ _ p q).trans ?_
  show _ = ∑ k : Fin 128, featT (V c (Pipeline.arrRef spec0 0)) (V c (Pipeline.arrRef spec0 2)) (V c (Pipeline.arrRef spec0 3)) (ix2 r k) * (V c (Pipeline.arrRef spec0 6) : S128x128.Idx → EReal) (ix2 k q)
  rw [iblk0_6_eq V c t]
  refine Finset.sum_congr rfl fun k _ => ?_
  rw [featT_block V c t p k r hr]

/-- Window 11: the row of `featF` times the second graph weight. -/
theorem vF_block (c : Dev nD) (t : Fin cfg0.N) (p : Fin 256) (q : Fin 128) (r : Fin 1024) (hr : r.val = 256 * t.val + p.val) :
    k0_pay1 (k0_pay4 (iblk0 V c 1 t) (iblk0 V c 4 t) (iblk0 V c 5 t)) (k0_pay5 (iblk0 V c 7 t)) (ix2 p q) = timesW (featF (V c (Pipeline.arrRef spec0 1)) (V c (Pipeline.arrRef spec0 4)) (V c (Pipeline.arrRef spec0 5))) (V c (Pipeline.arrRef spec0 7)) (ix2 r q) := by
  refine (pay1_apply _ _ _ _ p q).trans ?_
  show _ = ∑ k : Fin 128, featF (V c (Pipeline.arrRef spec0 1)) (V c (Pipeline.arrRef spec0 4)) (V c (Pipeline.arrRef spec0 5)) (ix2 r k) * (V c (Pipeline.arrRef spec0 7) : S128x128.Idx → EReal) (ix2 k q)
  rw [iblk0_7_eq V c t]
  refine Finset.sum_congr rfl fun k _ => ?_
  rw [featF_block V c t p k r hr]

/-! ## Output window 8 -/

/-- What point `t` writes back of window 8 is block `t` of `featT` of the entry arrays. -/
theorem flushed0_8_eq (c : Dev nD) (t : Fin cfg0.N) :
    (dat0 V c).flushed 8 t = ((cfg0.win 8).blk t).view.read (Elt Ideal) (featT (V c (Pipeline.arrRef spec0 0)) (V c (Pipeline.arrRef spec0 2)) (V c (Pipeline.arrRef spec0 3))) := by
  show (cfg0.win 8).cut (grid0.coords t) ((dat0 V c).after 8 t) = _
  rw [after0_8]
  unfold out0_8
  rw [View.canon_unit_zero hz]
  simp only [View.ld_unit_zero (S := S256x4000) hz, View.ld_unit_zero (S := S4000x128) hz, View.ld_unit_zero (S := S1x128) hz]
  obtain ⟨-, -, -, -, -, -, -, -, ⟨e0, e1⟩, -, -, -⟩ := idx_facts0 t
  funext j
  obtain ⟨p, q, rfl⟩ : ∃ (p : Fin 256) (q : Fin 128), j = ix2 p q := ⟨j 0, j 1, eq_ix2 j⟩
  have hr : 256 * t.val + p.val < 1024 := by have h := t.isLt; have h4 : cfg0.N = 4 := N_0; omega
  have he : ((cfg0.win 8).blk t).view.emb (ix2 p q) = (ix2 (⟨256 * t.val + p.val, hr⟩ : Fin 1024) q : S1024x128.Idx) :=
    funext fun a => Fin.ext (by
      match a with
      | ⟨0, _⟩ => show win0_8.index t (0 : Fin 2) * 256 + 1 * p.val = 256 * t.val + p.val; rw [e0]; omega
      | ⟨1, _⟩ => show win0_8.index t (1 : Fin 2) * 128 + 1 * q.val = q.val; rw [e1]; omega)
  show k0_pay2 (iblk0 V c 0 t) (iblk0 V c 2 t) (iblk0 V c 3 t) (ix2 p q) = (featT (V c (Pipeline.arrRef spec0 0)) (V c (Pipeline.arrRef spec0 2)) (V c (Pipeline.arrRef spec0 3))) (((cfg0.win 8).blk t).view.emb (ix2 p q))
  rw [he]
  exact featT_block V c t p q ⟨_, hr⟩ rfl

/-- An index of the array lies in point `t`'s block iff each coordinate lies in the block's range. -/
theorem mem_blk0_8 (t : Fin cfg0.N) (i : S1024x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v7_0).slice (win0_8.rect t)).set ↔ _
  rw [View.set_slice_whole, Rect.mem_set_unit]
  exact Iff.rfl

/-- Every row is in some point's block: row `r` in that of point `r / 256`. -/
theorem covered0_8 (i : S1024x128.Idx) : ∃ t : Fin cfg0.N, (cfg0.win 8).flush t = true ∧ i ∈ ((cfg0.win 8).blk t).view.set := by
  have hi0 : (i 0).val < 1024 := (i 0).isLt
  have hi1 : (i 1).val < 128 := (i 1).isLt
  have ht : (i 0).val / 256 < cfg0.N := by rw [show cfg0.N = 4 from N_0]; omega
  obtain ⟨-, -, -, -, -, -, -, -, ⟨e0, e1⟩, -, -, -⟩ := idx_facts0 ⟨(i 0).val / 256, ht⟩
  refine ⟨⟨(i 0).val / 256, ht⟩, flush0_8 _, ?_⟩
  rw [mem_blk0_8]
  intro a
  match a with
  | ⟨0, _⟩ =>
    show win0_8.index ⟨(i 0).val / 256, ht⟩ (0 : Fin 2) * 256 ≤ (i 0).val ∧ (i 0).val < win0_8.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, ht⟩ (1 : Fin 2) * 128 ≤ (i 1).val ∧ (i 1).val < win0_8.index ⟨(i 0).val / 256, ht⟩ (1 : Fin 2) * 128 + 128
    rw [e1]; omega

/-- The array of window 8 after the call: `featT` of the entry arrays. -/
theorem final0_8 (c : Dev nD) : (dat0 V c).arrAt 8 cfg0.N = (featT (V c (Pipeline.arrRef spec0 0)) (V c (Pipeline.arrRef spec0 2)) (V c (Pipeline.arrRef spec0 3))) :=
  (dat0 V c).arrAt_eq_of_cover 8 (featT (V c (Pipeline.arrRef spec0 0)) (V c (Pipeline.arrRef spec0 2)) (V c (Pipeline.arrRef spec0 3))) (fun t _ => flushed0_8_eq V c t) covered0_8

/-! ## Output window 9 -/

/-- What point `t` writes back of window 9 is block `t` of `featF` of the entry arrays. -/
theorem flushed0_9_eq (c : Dev nD) (t : Fin cfg0.N) :
    (dat0 V c).flushed 9 t = ((cfg0.win 9).blk t).view.read (Elt Ideal) (featF (V c (Pipeline.arrRef spec0 1)) (V c (Pipeline.arrRef spec0 4)) (V c (Pipeline.arrRef spec0 5))) := by
  show (cfg0.win 9).cut (grid0.coords t) ((dat0 V c).after 9 t) = _
  rw [after0_9]
  unfold out0_9
  rw [View.canon_unit_zero hz]
  simp only [View.ld_unit_zero (S := S256x4096) hz, View.ld_unit_zero (S := S4096x128) hz, View.ld_unit_zero (S := S1x128) hz]
  obtain ⟨-, -, -, -, -, -, -, -, -, ⟨e0, e1⟩, -, -⟩ := idx_facts0 t
  funext j
  obtain ⟨p, q, rfl⟩ : ∃ (p : Fin 256) (q : Fin 128), j = ix2 p q := ⟨j 0, j 1, eq_ix2 j⟩
  have hr : 256 * t.val + p.val < 1024 := by have h := t.isLt; have h4 : cfg0.N = 4 := N_0; omega
  have he : ((cfg0.win 9).blk t).view.emb (ix2 p q) = (ix2 (⟨256 * t.val + p.val, hr⟩ : Fin 1024) q : S1024x128.Idx) :=
    funext fun a => Fin.ext (by
      match a with
      | ⟨0, _⟩ => show win0_9.index t (0 : Fin 2) * 256 + 1 * p.val = 256 * t.val + p.val; rw [e0]; omega
      | ⟨1, _⟩ => show win0_9.index t (1 : Fin 2) * 128 + 1 * q.val = q.val; rw [e1]; omega)
  show k0_pay3 (iblk0 V c 1 t) (iblk0 V c 4 t) (iblk0 V c 5 t) (ix2 p q) = (featF (V c (Pipeline.arrRef spec0 1)) (V c (Pipeline.arrRef spec0 4)) (V c (Pipeline.arrRef spec0 5))) (((cfg0.win 9).blk t).view.emb (ix2 p q))
  rw [he]
  exact featF_block V c t p q ⟨_, hr⟩ rfl

/-- An index of the array lies in point `t`'s block iff each coordinate lies in the block's range. -/
theorem mem_blk0_9 (t : Fin cfg0.N) (i : S1024x128.Idx) :
    i ∈ ((cfg0.win 9).blk t).view.set ↔ ∀ a : Fin 2, win0_9.index t a * S256x128.size a ≤ (i a).val ∧ (i a).val < win0_9.index t a * S256x128.size a + S256x128.size a := by
  show i ∈ ((View.whole main_v7_1).slice (win0_9.rect t)).set ↔ _
  rw [View.set_slice_whole, Rect.mem_set_unit]
  exact Iff.rfl

/-- Every row is in some point's block: row `r` in that of point `r / 256`. -/
theorem covered0_9 (i : S1024x128.Idx) : ∃ t : Fin cfg0.N, (cfg0.win 9).flush t = true ∧ i ∈ ((cfg0.win 9).blk t).view.set := by
  have hi0 : (i 0).val < 1024 := (i 0).isLt
  have hi1 : (i 1).val < 128 := (i 1).isLt
  have ht : (i 0).val / 256 < cfg0.N := by rw [show cfg0.N = 4 from N_0]; omega
  obtain ⟨-, -, -, -, -, -, -, -, -, ⟨e0, e1⟩, -, -⟩ := idx_facts0 ⟨(i 0).val / 256, ht⟩
  refine ⟨⟨(i 0).val / 256, ht⟩, flush0_9 _, ?_⟩
  rw [mem_blk0_9]
  intro a
  match a with
  | ⟨0, _⟩ =>
    show win0_9.index ⟨(i 0).val / 256, ht⟩ (0 : Fin 2) * 256 ≤ (i 0).val ∧ (i 0).val < win0_9.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 2) * 128 ≤ (i 1).val ∧ (i 1).val < win0_9.index ⟨(i 0).val / 256, ht⟩ (1 : Fin 2) * 128 + 128
    rw [e1]; omega

/-- The array of window 9 after the call: `featF` of the entry arrays. -/
theorem final0_9 (c : Dev nD) : (dat0 V c).arrAt 9 cfg0.N = (featF (V c (Pipeline.arrRef spec0 1)) (V c (Pipeline.arrRef spec0 4)) (V c (Pipeline.arrRef spec0 5))) :=
  (dat0 V c).arrAt_eq_of_cover 9 (featF (V c (Pipeline.arrRef spec0 1)) (V c (Pipeline.arrRef spec0 4)) (V c (Pipeline.arrRef spec0 5))) (fun t _ => flushed0_9_eq V c t) covered0_9

/-! ## Output window 10 -/

/-- What point `t` writes back of window 10 is block `t` of `featT` times the first graph weight. -/
theorem flushed0_10_eq (c : Dev nD) (t : Fin cfg0.N) :
    (dat0 V c).flushed 10 t = ((cfg0.win 10).blk t).view.read (Elt Ideal) (timesW (featT (V c (Pipeline.arrRef spec0 0)) (V c (Pipeline.arrRef spec0 2)) (V c (Pipeline.arrRef spec0 3))) (V c (Pipeline.arrRef spec0 6))) := by
  show (cfg0.win 10).cut (grid0.coords t) ((dat0 V c).after 10 t) = _
  rw [after0_10]
  unfold out0_10
  rw [View.canon_unit_zero hz]
  simp only [View.ld_unit_zero (S := S256x4000) hz, View.ld_unit_zero (S := S4000x128) hz, View.ld_unit_zero (S := S1x128) hz, View.ld_unit_zero (S := S128x128) hz]
  obtain ⟨-, -, -, -, -, -, -, -, -, -, ⟨e0, e1⟩, -⟩ := idx_facts0 t
  funext j
  obtain ⟨p, q, rfl⟩ : ∃ (p : Fin 256) (q : Fin 128), j = ix2 p q := ⟨j 0, j 1, eq_ix2 j⟩
  have hr : 256 * t.val + p.val < 1024 := by have h := t.isLt; have h4 : cfg0.N = 4 := N_0; omega
  have he : ((cfg0.win 10).blk t).view.emb (ix2 p q) = (ix2 (⟨256 * t.val + p.val, hr⟩ : Fin 1024) q : S1024x128.Idx) :=
    funext fun a => Fin.ext (by
      match a with
      | ⟨0, _⟩ => show win0_10.index t (0 : Fin 2) * 256 + 1 * p.val = 256 * t.val + p.val; rw [e0]; omega
      | ⟨1, _⟩ => show win0_10.index t (1 : Fin 2) * 128 + 1 * q.val = q.val; rw [e1]; omega)
  show k0_pay6 (iblk0 V c 0 t) (iblk0 V c 2 t) (iblk0 V c 3 t) (iblk0 V c 6 t) (ix2 p q) = (timesW (featT (V c (Pipeline.arrRef spec0 0)) (V c (Pipeline.arrRef spec0 2)) (V c (Pipeline.arrRef spec0 3))) (V c (Pipeline.arrRef spec0 6))) (((cfg0.win 10).blk t).view.emb (ix2 p q))
  rw [he]
  exact vT_block V c t p q ⟨_, hr⟩ rfl

/-- An index of the array lies in point `t`'s block iff each coordinate lies in the block's range. -/
theorem mem_blk0_10 (t : Fin cfg0.N) (i : S1024x128.Idx) :
    i ∈ ((cfg0.win 10).blk t).view.set ↔ ∀ a : Fin 2, win0_10.index t a * S256x128.size a ≤ (i a).val ∧ (i a).val < win0_10.index t a * S256x128.size a + S256x128.size a := by
  show i ∈ ((View.whole main_v7_2).slice (win0_10.rect t)).set ↔ _
  rw [View.set_slice_whole, Rect.mem_set_unit]
  exact Iff.rfl

/-- Every row is in some point's block: row `r` in that of point `r / 256`. -/
theorem covered0_10 (i : S1024x128.Idx) : ∃ t : Fin cfg0.N, (cfg0.win 10).flush t = true ∧ i ∈ ((cfg0.win 10).blk t).view.set := by
  have hi0 : (i 0).val < 1024 := (i 0).isLt
  have hi1 : (i 1).val < 128 := (i 1).isLt
  have ht : (i 0).val / 256 < cfg0.N := by rw [show cfg0.N = 4 from N_0]; omega
  obtain ⟨-, -, -, -, -, -, -, -, -, -, ⟨e0, e1⟩, -⟩ := idx_facts0 ⟨(i 0).val / 256, ht⟩
  refine ⟨⟨(i 0).val / 256, ht⟩, flush0_10 _, ?_⟩
  rw [mem_blk0_10]
  intro a
  match a with
  | ⟨0, _⟩ =>
    show win0_10.index ⟨(i 0).val / 256, ht⟩ (0 : Fin 2) * 256 ≤ (i 0).val ∧ (i 0).val < win0_10.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_10.index ⟨(i 0).val / 256, ht⟩ (1 : Fin 2) * 128 ≤ (i 1).val ∧ (i 1).val < win0_10.index ⟨(i 0).val / 256, ht⟩ (1 : Fin 2) * 128 + 128
    rw [e1]; omega

/-- The array of window 10 after the call: `featT` times the first graph weight. -/
theorem final0_10 (c : Dev nD) : (dat0 V c).arrAt 10 cfg0.N = (timesW (featT (V c (Pipeline.arrRef spec0 0)) (V c (Pipeline.arrRef spec0 2)) (V c (Pipeline.arrRef spec0 3))) (V c (Pipeline.arrRef spec0 6))) :=
  (dat0 V c).arrAt_eq_of_cover 10 (timesW (featT (V c (Pipeline.arrRef spec0 0)) (V c (Pipeline.arrRef spec0 2)) (V c (Pipeline.arrRef spec0 3))) (V c (Pipeline.arrRef spec0 6))) (fun t _ => flushed0_10_eq V c t) covered0_10

/-! ## Output window 11 -/

/-- What point `t` writes back of window 11 is block `t` of `featF` times the second graph weight. -/
theorem flushed0_11_eq (c : Dev nD) (t : Fin cfg0.N) :
    (dat0 V c).flushed 11 t = ((cfg0.win 11).blk t).view.read (Elt Ideal) (timesW (featF (V c (Pipeline.arrRef spec0 1)) (V c (Pipeline.arrRef spec0 4)) (V c (Pipeline.arrRef spec0 5))) (V c (Pipeline.arrRef spec0 7))) := by
  show (cfg0.win 11).cut (grid0.coords t) ((dat0 V c).after 11 t) = _
  rw [after0_11]
  unfold out0_11
  rw [View.canon_unit_zero hz]
  simp only [View.ld_unit_zero (S := S256x4096) hz, View.ld_unit_zero (S := S4096x128) hz, View.ld_unit_zero (S := S1x128) hz, View.ld_unit_zero (S := S128x128) hz]
  obtain ⟨-, -, -, -, -, -, -, -, -, -, -, ⟨e0, e1⟩⟩ := idx_facts0 t
  funext j
  obtain ⟨p, q, rfl⟩ : ∃ (p : Fin 256) (q : Fin 128), j = ix2 p q := ⟨j 0, j 1, eq_ix2 j⟩
  have hr : 256 * t.val + p.val < 1024 := by have h := t.isLt; have h4 : cfg0.N = 4 := N_0; omega
  have he : ((cfg0.win 11).blk t).view.emb (ix2 p q) = (ix2 (⟨256 * t.val + p.val, hr⟩ : Fin 1024) q : S1024x128.Idx) :=
    funext fun a => Fin.ext (by
      match a with
      | ⟨0, _⟩ => show win0_11.index t (0 : Fin 2) * 256 + 1 * p.val = 256 * t.val + p.val; rw [e0]; omega
      | ⟨1, _⟩ => show win0_11.index t (1 : Fin 2) * 128 + 1 * q.val = q.val; rw [e1]; omega)
  show k0_pay1 (k0_pay4 (iblk0 V c 1 t) (iblk0 V c 4 t) (iblk0 V c 5 t)) (k0_pay5 (iblk0 V c 7 t)) (ix2 p q) = (timesW (featF (V c (Pipeline.arrRef spec0 1)) (V c (Pipeline.arrRef spec0 4)) (V c (Pipeline.arrRef spec0 5))) (V c (Pipeline.arrRef spec0 7))) (((cfg0.win 11).blk t).view.emb (ix2 p q))
  rw [he]
  exact vF_block V c t p q ⟨_, hr⟩ rfl

/-- An index of the array lies in point `t`'s block iff each coordinate lies in the block's range. -/
theorem mem_blk0_11 (t : Fin cfg0.N) (i : S1024x128.Idx) :
    i ∈ ((cfg0.win 11).blk t).view.set ↔ ∀ a : Fin 2, win0_11.index t a * S256x128.size a ≤ (i a).val ∧ (i a).val < win0_11.index t a * S256x128.size a + S256x128.size a := by
  show i ∈ ((View.whole main_v7_3).slice (win0_11.rect t)).set ↔ _
  rw [View.set_slice_whole, Rect.mem_set_unit]
  exact Iff.rfl

/-- Every row is in some point's block: row `r` in that of point `r / 256`. -/
theorem covered0_11 (i : S1024x128.Idx) : ∃ t : Fin cfg0.N, (cfg0.win 11).flush t = true ∧ i ∈ ((cfg0.win 11).blk t).view.set := by
  have hi0 : (i 0).val < 1024 := (i 0).isLt
  have hi1 : (i 1).val < 128 := (i 1).isLt
  have ht : (i 0).val / 256 < cfg0.N := by rw [show cfg0.N = 4 from N_0]; omega
  obtain ⟨-, -, -, -, -, -, -, -, -, -, -, ⟨e0, e1⟩⟩ := idx_facts0 ⟨(i 0).val / 256, ht⟩
  refine ⟨⟨(i 0).val / 256, ht⟩, flush0_11 _, ?_⟩
  rw [mem_blk0_11]
  intro a
  match a with
  | ⟨0, _⟩ =>
    show win0_11.index ⟨(i 0).val / 256, ht⟩ (0 : Fin 2) * 256 ≤ (i 0).val ∧ (i 0).val < win0_11.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_11.index ⟨(i 0).val / 256, ht⟩ (1 : Fin 2) * 128 ≤ (i 1).val ∧ (i 1).val < win0_11.index ⟨(i 0).val / 256, ht⟩ (1 : Fin 2) * 128 + 128
    rw [e1]; omega

/-- The array of window 11 after the call: `featF` times the second graph weight. -/
theorem final0_11 (c : Dev nD) : (dat0 V c).arrAt 11 cfg0.N = (timesW (featF (V c (Pipeline.arrRef spec0 1)) (V c (Pipeline.arrRef spec0 4)) (V c (Pipeline.arrRef spec0 5))) (V c (Pipeline.arrRef spec0 7))) :=
  (dat0 V c).arrAt_eq_of_cover 11 (timesW (featF (V c (Pipeline.arrRef spec0 1)) (V c (Pipeline.arrRef spec0 4)) (V c (Pipeline.arrRef spec0 5))) (V c (Pipeline.arrRef spec0 7))) (fun t _ => flushed0_11_eq V c t) covered0_11

end Cert.KernelIdeal.Hand

end
-- ==== Proof.KI.R2Value.lean ====
/- REGION 2 (the aggregation call), the value at the extended reals: the block the body stores, index by index, as sums
   and products of the nine input blocks; and the output array after the region's run as ONE function of the nine operand
   arrays as the region finds them — every row of the array is in the block of the grid point its row falls in. -/
import proofs.«152008_j55130200211709_2_alg».proof.Proof.KI.R2
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ### The 256×1024 by 1024×128 block product at an index -/

theorem mmA_l0 (i : S256x128.Idx) (q : dot_S256x1024_S1024x128_S256x128_1_0_0_1_n_n.contr.Idx) : (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem mmA_l1 (i : S256x128.Idx) (q : dot_S256x1024_S1024x128_S256x128_1_0_0_1_n_n.contr.Idx) : (dot_S256x1024_S1024x128_S256x128_1_0_0_1_n_n.lhsIdx i q 1).val = (q ⟨0, by decide⟩).val :=
  dot_S256x1024_S1024x128_S256x128_1_0_0_1_n_n.lhsIdx_val_of_single rfl i q
theorem mmA_r0 (i : S256x128.Idx) (q : dot_S256x1024_S1024x128_S256x128_1_0_0_1_n_n.contr.Idx) : (dot_S256x1024_S1024x128_S256x128_1_0_0_1_n_n.rhsIdx i q 0).val = (q ⟨0, by decide⟩).val :=
  dot_S256x1024_S1024x128_S256x128_1_0_0_1_n_n.rhsIdx_val_of_single rfl i q
theorem mmA_r1 (i : S256x128.Idx) (q : dot_S256x1024_S1024x128_S256x128_1_0_0_1_n_n.contr.Idx) : (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- A block product into the zero accumulator, read at row `p` and column `q`: the sum over the contraction index of the
    left operand's row `p` times the right operand's column `q`. -/
theorem mmA_apply {φ₁ φ₂ : FTy} (l : FVec Ideal S256x1024 φ₁) (r : FVec Ideal S1024x128 φ₂) (p : Fin 256) (q : Fin 128) :
    matmul dot_S256x1024_S1024x128_S256x128_1_0_0_1_n_n none l r (constant (F := Ideal) S256x128 .f32 0x00000000#32) (ix2 p q)
      = ∑ k : Fin 1024, l (ix2 p k) * r (ix2 k q) := by
  simp only [matmul]
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 p q) ((contrEquiv1 dot_S256x1024_S1024x128_S256x128_1_0_0_1_n_n 1024 rfl rfl).symm k) = ix2 p k := funext fun a => Fin.ext (by
    match a with
    | ⟨0, _⟩ => exact mmA_l0 _ _
    | ⟨1, _⟩ => exact (mmA_l1 _ _).trans hk)
  have er : dot_S256x1024_S1024x128_S256x128_1_0_0_1_n_n.rhsIdx (ix2 p q) ((contrEquiv1 dot_S256x1024_S1024x128_S256x128_1_0_0_1_n_n 1024 rfl rfl).symm k) = ix2 k q := funext fun a => Fin.ext (by
    match a with
    | ⟨0, _⟩ => exact (mmA_r0 _ _).trans hk
    | ⟨1, _⟩ => exact mmA_r1 _ _)
  rw [el, er]

/-! ### The 256×128 by 128×128 block product at an index -/

theorem mmW_l0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem mmW_l1 (i : S256x128.Idx) (q : dot_S256x128_S128x128_S256x128_1_0_0_1_n_n.contr.Idx) : (dot_S256x128_S128x128_S256x128_1_0_0_1_n_n.lhsIdx i q 1).val = (q ⟨0, by decide⟩).val :=
  dot_S256x128_S128x128_S256x128_1_0_0_1_n_n.lhsIdx_val_of_single rfl i q
theorem mmW_r0 (i : S256x128.Idx) (q : dot_S256x128_S128x128_S256x128_1_0_0_1_n_n.contr.Idx) : (dot_S256x128_S128x128_S256x128_1_0_0_1_n_n.rhsIdx i q 0).val = (q ⟨0, by decide⟩).val :=
  dot_S256x128_S128x128_S256x128_1_0_0_1_n_n.rhsIdx_val_of_single rfl i q
theorem mmW_r1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- A block product into the zero accumulator, read at row `p` and column `q`: the sum over the contraction index of the
    left operand's row `p` times the right operand's column `q`. -/
theorem mmW_apply {φ₁ φ₂ : FTy} (l : FVec Ideal S256x128 φ₁) (r : FVec Ideal S128x128 φ₂) (p : Fin 256) (q : Fin 128) :
    matmul dot_S256x128_S128x128_S256x128_1_0_0_1_n_n none l r (constant (F := Ideal) S256x128 .f32 0x00000000#32) (ix2 p q)
      = ∑ k : Fin 128, l (ix2 p k) * r (ix2 k q) := by
  simp only [matmul]
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 p q) ((contrEquiv1 dot_S256x128_S128x128_S256x128_1_0_0_1_n_n 128 rfl rfl).symm k) = ix2 p k := funext fun a => Fin.ext (by
    match a with
    | ⟨0, _⟩ => exact mmW_l0 _ _
    | ⟨1, _⟩ => exact (mmW_l1 _ _).trans hk)
  have er : dot_S256x128_S128x128_S256x128_1_0_0_1_n_n.rhsIdx (ix2 p q) ((contrEquiv1 dot_S256x128_S128x128_S256x128_1_0_0_1_n_n 128 rfl rfl).symm k) = ix2 k q := funext fun a => Fin.ext (by
    match a with
    | ⟨0, _⟩ => exact (mmW_r0 _ _).trans hk
    | ⟨1, _⟩ => exact mmW_r1 _ _)
  rw [el, er]

theorem hz2 : (![0, 0] : Fin 2 → Nat) = fun _ => 0 := funext fun a => by fin_cases a <;> rfl

/-! ### The two broadcasts at an index -/

/-- A column broadcast along the rows' lanes reads the column's entry of the row. -/
theorem bcast_col_apply {α : Type} (v : S256x1.Idx → α) (p : Fin 256) (q : Fin 128) :
    broadcastTo S256x128 v broadcasts_S256x1_S256x128 (ix2 p q) = v (ix2 p (0 : Fin 1)) :=
  broadcastTo_apply v _ (ix2 p q) (ix2 p (0 : Fin 1)) (fun a => by
    match a with
    | ⟨0, _⟩ => rfl
    | ⟨1, _⟩ => rfl)

/-- A row broadcast down the rows reads the row's entry of the column. -/
theorem bcast_row_apply {α : Type} (v : S1x128.Idx → α) (p : Fin 256) (q : Fin 128) :
    broadcastTo S256x128 v broadcasts_S1x128_S256x128 (ix2 p q) = v (ix2 (0 : Fin 1) q) :=
  broadcastTo_apply v _ (ix2 p q) (ix2 (0 : Fin 1) q) (fun a => by
    match a with
    | ⟨0, _⟩ => rfl
    | ⟨1, _⟩ => rfl)

/-! ### The block the body stores, index by index -/

/-- Row `p`, column `q` of the stored block, from the nine input blocks: the two normalised neighbourhood sums
    `d₀ · (A₀ Y₀) + d₁ · (A₁ Y₁)` plus the first bias, clamped below at zero, times the head weights, plus the head bias. -/
def blkAt (x0 x1 : Vec Ideal S256x1024 .f32) (x2 x3 : Vec Ideal S256x1 .f32) (x4 x5 : Vec Ideal S1024x128 .f32)
    (x6 : Vec Ideal S1x128 .f32) (x7 : Vec Ideal S128x128 .f32) (x8 : Vec Ideal S1x128 .f32) (p : Fin 256) (q : Fin 128) : EReal :=
  (∑ k : Fin 128,
      max (x2 (ix2 p (0 : Fin 1)) * (∑ l : Fin 1024, x0 (ix2 p l) * x4 (ix2 l k))
            + x3 (ix2 p (0 : Fin 1)) * (∑ l : Fin 1024, x1 (ix2 p l) * x5 (ix2 l k)) + x6 (ix2 (0 : Fin 1) k))
          (Ideal.ofBits .f32 0x00000000#32) * x7 (ix2 k q))
    + x8 (ix2 (0 : Fin 1) q)

/-- The stored block at row `p`, column `q`: the payloads' vector operations read at the index — the products by their
    sums over the contraction index, the broadcasts by the entry they repeat, the format changes the identity. -/
theorem out2_9_apply (x0 x1 : Vec Ideal S256x1024 .f32) (x2 x3 : Vec Ideal S256x1 .f32) (x4 x5 : Vec Ideal S1024x128 .f32)
    (x6 : Vec Ideal S1x128 .f32) (x7 : Vec Ideal S128x128 .f32) (x8 : Vec Ideal S1x128 .f32) (p : Fin 256) (q : Fin 128) :
    out2_9 x0 x1 x2 x3 x4 x5 x6 x7 x8 (ix2 p q) = blkAt x0 x1 x2 x3 x4 x5 x6 x7 x8 p q := by
  unfold out2_9
  rw [View.canon_unit_zero hz2]
  simp only [View.ld_unit_zero (S := S256x1024) hz2, View.ld_unit_zero (S := S256x1) hz2, View.ld_unit_zero (S := S1024x128) hz2,
    View.ld_unit_zero (S := S1x128) hz2, View.ld_unit_zero (S := S128x128) hz2]
  unfold k2_pay1 k2_pay2 k2_pay3 blkAt
  simp only [shapeCast_self]
  rw [addf_apply, mmW_apply, bcast_row_apply]
  congr 1
  refine Finset.sum_congr rfl fun k _ => ?_
  rw [truncf_apply, truncf_apply, maximumf_apply, addf_apply, addf_apply, mulf_apply, mulf_apply, bcast_col_apply, bcast_col_apply,
    bcast_row_apply, mmA_apply, mmA_apply, broadcast_apply, Ideal.ofBits_def]
  simp only [truncf_apply]

/-! ### The output array, index by index -/

/-- Row `r`, column `n` of the aggregated output, from the nine operand arrays: the same formula as the block's, the two
    adjacency operands and the two degree columns read at row `r` of the whole arrays. -/
def aggAt (A0 A1 : Vec Ideal S1024x1024 .f32) (A2 A3 : Vec Ideal S1024x1 .f32) (A4 A5 : Vec Ideal S1024x128 .f32)
    (A6 : Vec Ideal S1x128 .f32) (A7 : Vec Ideal S128x128 .f32) (A8 : Vec Ideal S1x128 .f32) (r : Fin 1024) (n : Fin 128) : EReal :=
  (∑ k : Fin 128,
      max (A2 (ix2 r (0 : Fin 1)) * (∑ l : Fin 1024, A0 (ix2 r l) * A4 (ix2 l k))
            + A3 (ix2 r (0 : Fin 1)) * (∑ l : Fin 1024, A1 (ix2 r l) * A5 (ix2 l k)) + A6 (ix2 (0 : Fin 1) k))
          (Ideal.ofBits .f32 0x00000000#32) * A7 (ix2 k n))
    + A8 (ix2 (0 : Fin 1) n)

/-- The aggregated output as one array. -/
def aggArr (A0 A1 : Vec Ideal S1024x1024 .f32) (A2 A3 : Vec Ideal S1024x1 .f32) (A4 A5 : Vec Ideal S1024x128 .f32)
    (A6 : Vec Ideal S1x128 .f32) (A7 : Vec Ideal S128x128 .f32) (A8 : Vec Ideal S1x128 .f32) : Vec Ideal S1024x128 .f32 :=
  fun i => aggAt A0 A1 A2 A3 A4 A5 A6 A7 A8 (i 0) (i 1)

theorem aggArr_apply (A0 A1 : Vec Ideal S1024x1024 .f32) (A2 A3 : Vec Ideal S1024x1 .f32) (A4 A5 : Vec Ideal S1024x128 .f32)
    (A6 : Vec Ideal S1x128 .f32) (A7 : Vec Ideal S128x128 .f32) (A8 : Vec Ideal S1x128 .f32) (r : Fin 1024) (n : Fin 128) :
    aggArr A0 A1 A2 A3 A4 A5 A6 A7 A8 (ix2 r n) = aggAt A0 A1 A2 A3 A4 A5 A6 A7 A8 r n := rfl

/-- The block's formula is the array's at row `r` when the row-blocked operands' row `p` is the arrays' row `r` and the
    unblocked operands are the whole arrays. -/
theorem blkAt_eq_aggAt (A0 A1 : Vec Ideal S1024x1024 .f32) (A2 A3 : Vec Ideal S1024x1 .f32) (A4 A5 : Vec Ideal S1024x128 .f32)
    (A6 : Vec Ideal S1x128 .f32) (A7 : Vec Ideal S128x128 .f32) (A8 : Vec Ideal S1x128 .f32)
    (x0 x1 : Vec Ideal S256x1024 .f32) (x2 x3 : Vec Ideal S256x1 .f32) (x4 x5 : Vec Ideal S1024x128 .f32)
    (x6 : Vec Ideal S1x128 .f32) (x7 : Vec Ideal S128x128 .f32) (x8 : Vec Ideal S1x128 .f32) (p : Fin 256) (q : Fin 128) (r : Fin 1024)
    (h0 : ∀ l : Fin 1024, x0 (ix2 p l) = A0 (ix2 r l)) (h1 : ∀ l : Fin 1024, x1 (ix2 p l) = A1 (ix2 r l))
    (h2 : x2 (ix2 p (0 : Fin 1)) = A2 (ix2 r (0 : Fin 1))) (h3 : x3 (ix2 p (0 : Fin 1)) = A3 (ix2 r (0 : Fin 1)))
    (h4 : x4 = A4) (h5 : x5 = A5) (h6 : x6 = A6) (h7 : x7 = A7) (h8 : x8 = A8) :
    blkAt x0 x1 x2 x3 x4 x5 x6 x7 x8 p q = aggAt A0 A1 A2 A3 A4 A5 A6 A7 A8 r q := by
  subst h4 h5 h6 h7 h8
  unfold blkAt aggAt
  simp only [h0, h1, h2, h3]

/-! ### The windows' index maps, decided over the four grid points -/

theorem idx_facts2 : ∀ t : Fin cfg2.N,
    win2_9.index t (0 : Fin 2) = t.val ∧ win2_9.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

section Region2Value

variable (V : (c : Dev nD) → (b : Ref sig .tc) → Buf (Elt Ideal) ((c : Thread nD τ).loc b))

/-! ### The input blocks as rows of their arrays -/

/-- Row `p` of window 0's block at point `t` is row `256 t + p` of its array. -/
theorem iblk2_0_apply (c : Dev nD) (t : Fin cfg2.N) (p : Fin 256) (l : Fin 1024) (r : Fin 1024) (hr : r.val = t.val * 256 + p.val) :
    (iblk2 V c 0 t : Vec Ideal S256x1024 .f32) (ix2 p l) = (V c (Pipeline.arrRef spec2 0) : Vec Ideal S1024x1024 .f32) (ix2 r l) := by
  obtain ⟨-, -, e0, e1, -⟩ := idx_facts2 t
  show V c (Pipeline.arrRef spec2 0) (((cfg2.win 0).blk t).view.emb (ix2 p l)) = _
  refine congrArg _ (funext fun a => Fin.ext ?_)
  match a with
  | ⟨0, _⟩ => show win2_0.index t (0 : Fin 2) * 256 + 1 * p.val = r.val; omega
  | ⟨1, _⟩ => show win2_0.index t (1 : Fin 2) * 1024 + 1 * l.val = l.val; omega

/-- Row `p` of window 1's block at point `t` is row `256 t + p` of its array. -/
theorem iblk2_1_apply (c : Dev nD) (t : Fin cfg2.N) (p : Fin 256) (l : Fin 1024) (r : Fin 1024) (hr : r.val = t.val * 256 + p.val) :
    (iblk2 V c 1 t : Vec Ideal S256x1024 .f32) (ix2 p l) = (V c (Pipeline.arrRef spec2 1) : Vec Ideal S1024x1024 .f32) (ix2 r l) := by
  obtain ⟨-, -, -, -, e0, e1, -⟩ := idx_facts2 t
  show V c (Pipeline.arrRef spec2 1) (((cfg2.win 1).blk t).view.emb (ix2 p l)) = _
  refine congrArg _ (funext fun a => Fin.ext ?_)
  match a with
  | ⟨0, _⟩ => show win2_1.index t (0 : Fin 2) * 256 + 1 * p.val = r.val; omega
  | ⟨1, _⟩ => show win2_1.index t (1 : Fin 2) * 1024 + 1 * l.val = l.val; omega

/-- Row `p` of window 2's block at point `t` is row `256 t + p` of its array. -/
theorem iblk2_2_apply (c : Dev nD) (t : Fin cfg2.N) (p : Fin 256) (l : Fin 1) (r : Fin 1024) (hr : r.val = t.val * 256 + p.val) :
    (iblk2 V c 2 t : Vec Ideal S256x1 .f32) (ix2 p l) = (V c (Pipeline.arrRef spec2 2) : Vec Ideal S1024x1 .f32) (ix2 r l) := by
  obtain ⟨-, -, -, -, -, -, e0, e1, -⟩ := idx_facts2 t
  show V c (Pipeline.arrRef spec2 2) (((cfg2.win 2).blk t).view.emb (ix2 p l)) = _
  refine congrArg _ (funext fun a => Fin.ext ?_)
  match a with
  | ⟨0, _⟩ => show win2_2.index t (0 : Fin 2) * 256 + 1 * p.val = r.val; omega
  | ⟨1, _⟩ => show win2_2.index t (1 : Fin 2) * 1 + 1 * l.val = l.val; omega

/-- Row `p` of window 3's block at point `t` is row `256 t + p` of its array. -/
theorem iblk2_3_apply (c : Dev nD) (t : Fin cfg2.N) (p : Fin 256) (l : Fin 1) (r : Fin 1024) (hr : r.val = t.val * 256 + p.val) :
    (iblk2 V c 3 t : Vec Ideal S256x1 .f32) (ix2 p l) = (V c (Pipeline.arrRef spec2 3) : Vec Ideal S1024x1 .f32) (ix2 r l) := by
  obtain ⟨-, -, -, -, -, -, -, -, e0, e1, -⟩ := idx_facts2 t
  show V c (Pipeline.arrRef spec2 3) (((cfg2.win 3).blk t).view.emb (ix2 p l)) = _
  refine congrArg _ (funext fun a => Fin.ext ?_)
  match a with
  | ⟨0, _⟩ => show win2_3.index t (0 : Fin 2) * 256 + 1 * p.val = r.val; omega
  | ⟨1, _⟩ => show win2_3.index t (1 : Fin 2) * 1 + 1 * l.val = l.val; omega

/-- Window 4's block at every point is its whole array. -/
theorem iblk2_4_eq (c : Dev nD) (t : Fin cfg2.N) :
    (iblk2 V c 4 t : Vec Ideal S1024x128 .f32) = (V c (Pipeline.arrRef spec2 4) : Vec Ideal S1024x128 .f32) := by
  obtain ⟨-, -, -, -, -, -, -, -, -, -, e0, e1, -⟩ := idx_facts2 t
  funext x
  show V c (Pipeline.arrRef spec2 4) (((cfg2.win 4).blk t).view.emb x) = _
  refine congrArg _ (funext fun a => Fin.ext ?_)
  match a with
  | ⟨0, _⟩ => show win2_4.index t (0 : Fin 2) * 1024 + 1 * (x 0).val = (x 0).val; omega
  | ⟨1, _⟩ => show win2_4.index t (1 : Fin 2) * 128 + 1 * (x 1).val = (x 1).val; omega

/-- Window 5's block at every point is its whole array. -/
theorem iblk2_5_eq (c : Dev nD) (t : Fin cfg2.N) :
    (iblk2 V c 5 t : Vec Ideal S1024x128 .f32) = (V c (Pipeline.arrRef spec2 5) : Vec Ideal S1024x128 .f32) := by
  obtain ⟨-, -, -, -, -, -, -, -, -, -, -, -, e0, e1, -⟩ := idx_facts2 t
  funext x
  show V c (Pipeline.arrRef spec2 5) (((cfg2.win 5).blk t).view.emb x) = _
  refine congrArg _ (funext fun a => Fin.ext ?_)
  match a with
  | ⟨0, _⟩ => show win2_5.index t (0 : Fin 2) * 1024 + 1 * (x 0).val = (x 0).val; omega
  | ⟨1, _⟩ => show win2_5.index t (1 : Fin 2) * 128 + 1 * (x 1).val = (x 1).val; omega

/-- Window 6's block at every point is its whole array. -/
theorem iblk2_6_eq (c : Dev nD) (t : Fin cfg2.N) :
    (iblk2 V c 6 t : Vec Ideal S1x128 .f32) = (V c (Pipeline.arrRef spec2 6) : Vec Ideal S1x128 .f32) := by
  obtain ⟨-, -, -, -, -, -, -, -, -, -, -, -, -, -, e0, e1, -⟩ := idx_facts2 t
  funext x
  show V c (Pipeline.arrRef spec2 6) (((cfg2.win 6).blk t).view.emb x) = _
  refine congrArg _ (funext fun a => Fin.ext ?_)
  match a with
  | ⟨0, _⟩ => show win2_6.index t (0 : Fin 2) * 1 + 1 * (x 0).val = (x 0).val; omega
  | ⟨1, _⟩ => show win2_6.index t (1 : Fin 2) * 128 + 1 * (x 1).val = (x 1).val; omega

/-- Window 7's block at every point is its whole array. -/
theorem iblk2_7_eq (c : Dev nD) (t : Fin cfg2.N) :
    (iblk2 V c 7 t : Vec Ideal S128x128 .f32) = (V c (Pipeline.arrRef spec2 7) : Vec Ideal S128x128 .f32) := by
  obtain ⟨-, -, -, -, -, -, -, -, -, -, -, -, -, -, -, -, e0, e1, -⟩ := idx_facts2 t
  funext x
  show V c (Pipeline.arrRef spec2 7) (((cfg2.win 7).blk t).view.emb x) = _
  refine congrArg _ (funext fun a => Fin.ext ?_)
  match a with
  | ⟨0, _⟩ => show win2_7.index t (0 : Fin 2) * 128 + 1 * (x 0).val = (x 0).val; omega
  | ⟨1, _⟩ => show win2_7.index t (1 : Fin 2) * 128 + 1 * (x 1).val = (x 1).val; omega

/-- Window 8's block at every point is its whole array. -/
theorem iblk2_8_eq (c : Dev nD) (t : Fin cfg2.N) :
    (iblk2 V c 8 t : Vec Ideal S1x128 .f32) = (V c (Pipeline.arrRef spec2 8) : Vec Ideal S1x128 .f32) := by
  obtain ⟨-, -, -, -, -, -, -, -, -, -, -, -, -, -, -, -, -, -, e0, e1⟩ := idx_facts2 t
  funext x
  show V c (Pipeline.arrRef spec2 8) (((cfg2.win 8).blk t).view.emb x) = _
  refine congrArg _ (funext fun a => Fin.ext ?_)
  match a with
  | ⟨0, _⟩ => show win2_8.index t (0 : Fin 2) * 1 + 1 * (x 0).val = (x 0).val; omega
  | ⟨1, _⟩ => show win2_8.index t (1 : Fin 2) * 128 + 1 * (x 1).val = (x 1).val; omega

/-! ### What a grid point writes back -/

/-- Row `p`, column `q` of what the body leaves at point `t` is row `256 t + p`, column `q` of `aggArr`'s formula. -/
theorem out2_9_at (c : Dev nD) (t : Fin cfg2.N) (p : Fin 256) (q : Fin 128) (r : Fin 1024) (n : Fin 128)
    (hr : r.val = t.val * 256 + p.val) (hn : n = q) :
    out2_9 (iblk2 V c 0 t) (iblk2 V c 1 t) (iblk2 V c 2 t) (iblk2 V c 3 t) (iblk2 V c 4 t) (iblk2 V c 5 t) (iblk2 V c 6 t) (iblk2 V c 7 t) (iblk2 V c 8 t) (ix2 p q)
      = aggAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) r n := by
  subst hn
  rw [out2_9_apply]
  exact blkAt_eq_aggAt _ _ _ _ _ _ _ _ _ _ _ _ _ _ _ _ _ _ p n r
    (fun l => iblk2_0_apply V c t p l r hr) (fun l => iblk2_1_apply V c t p l r hr)
    (iblk2_2_apply V c t p 0 r hr) (iblk2_3_apply V c t p 0 r hr)
    (iblk2_4_eq V c t) (iblk2_5_eq V c t) (iblk2_6_eq V c t) (iblk2_7_eq V c t) (iblk2_8_eq V c t)

/-- What grid point `t` writes back to the output array is block `t` of `aggArr` of the operand arrays as the region
    finds them. -/
theorem flushed2_9_eq (c : Dev nD) (t : Fin cfg2.N) :
    (dat2 V c).flushed 9 t = ((cfg2.win 9).blk t).view.read (Elt Ideal)
      (aggArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 V c).after 9 t) = _
  rw [after2_9]
  obtain ⟨e90, e91, -⟩ := idx_facts2 t
  funext y
  obtain ⟨p, q, rfl⟩ : ∃ (p : Fin 256) (q : Fin 128), y = ix2 p q := ⟨y 0, y 1, eq_ix2 y⟩
  refine out2_9_at V c t p q (((cfg2.win 9).blk t).view.emb (ix2 p q) 0) (((cfg2.win 9).blk t).view.emb (ix2 p q) 1) ?_ (Fin.ext ?_)
  · show win2_9.index t (0 : Fin 2) * 256 + 1 * p.val = t.val * 256 + p.val; omega
  · show win2_9.index t (1 : Fin 2) * 128 + 1 * q.val = q.val; omega

/-! ### The blocks cover the array -/

/-- An index of the output array is in point `t`'s block iff each coordinate is in the block's range on its axis. -/
theorem mem_blk2_9 (t : Fin cfg2.N) (i : S1024x128.Idx) :
    i ∈ ((cfg2.win 9).blk t).view.set ↔ ∀ a : Fin 2, win2_9.index t a * S256x128.size a ≤ (i a).val ∧ (i a).val < win2_9.index t a * S256x128.size a + S256x128.size a := by
  show i ∈ ((View.whole main_v15).slice (win2_9.rect t)).set ↔ _
  rw [View.set_slice_whole, Rect.mem_set_unit]
  exact Iff.rfl

/-- Every index of the output array is in the block of the point its row falls in: row `r` in point `r / 256`'s. -/
theorem arr_cover2_9 (i : S1024x128.Idx) :
    ∃ t : Fin cfg2.N, (cfg2.win 9).flush t = true ∧ i ∈ ((cfg2.win 9).blk t).view.set := by
  have hi0 : (i 0).val < 1024 := (i 0).isLt
  have hi1 : (i 1).val < 128 := (i 1).isLt
  have hN : cfg2.N = 4 := N_2
  have ht : (i 0).val / 256 < cfg2.N := by omega
  obtain ⟨e90, e91, -⟩ := idx_facts2 ⟨(i 0).val / 256, ht⟩
  refine ⟨⟨(i 0).val / 256, ht⟩, flush2_9 _, ?_⟩
  rw [mem_blk2_9]
  intro a
  match a with
  | ⟨0, _⟩ =>
    show win2_9.index ⟨(i 0).val / 256, ht⟩ (0 : Fin 2) * 256 ≤ (i 0).val ∧ (i 0).val < win2_9.index ⟨(i 0).val / 256, ht⟩ (0 : Fin 2) * 256 + 256
    rw [e90]; show (i 0).val / 256 * 256 ≤ (i 0).val ∧ (i 0).val < (i 0).val / 256 * 256 + 256; omega
  | ⟨1, _⟩ =>
    show win2_9.index ⟨(i 0).val / 256, ht⟩ (1 : Fin 2) * 128 ≤ (i 1).val ∧ (i 1).val < win2_9.index ⟨(i 0).val / 256, ht⟩ (1 : Fin 2) * 128 + 128
    rw [e91]; omega

/-! ### The output array after the region's run -/

/-- The output array after the region's run is `aggArr` of the operand arrays as the region finds them. -/
theorem final2_9 (c : Dev nD) :
    (dat2 V c).arrAt 9 cfg2.N = aggArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (dat2 V c).arrAt_eq_of_cover 9 _ (fun t _ => flushed2_9_eq V c t) arr_cover2_9

end Region2Value

end Cert.KernelIdeal.Hand

end
-- ==== Proof.Spec.lean ====
/-
  The function both programs compute, index by index, on the extended reals.

  From waveforms `w` (1024×4000), spectrograms `s` (1024×64×64, read as 1024×4096 rows), weights and biases:
    xt r d = max (∑ k, w r k · Wt k d + bt d) 0,   xf r d = max (∑ k, s r k · Wf k d + bf d) 0        (node features)
  and for a feature matrix `x` (1024×128):
    dist x i j = ∑ k, |x i k − x j k|                                   (pairwise L1 distance)
    adj x i j  = 1 if i = j, else 1 / (dist x i j + ε)                   (edge weight, self loop 1)
    deg x i    = ∑ j, adj x i j,     dinv x i = (deg x i)^(-1/2)         (degree and its inverse root)
    val x W j h = ∑ k, x j k · W k h                                     (projected values)
    agg x W i h = dinv x i · ∑ j, adj x i j · (dinv x j · val x W j h)   (symmetrically normalised aggregation)
  then
    hid i h = max (agg xt Wgt i h + agg xf Wgf i h + bg h) 0,    out i c = ∑ h, hid i h · Wo h c + bo c.
  `ε` is the single-precision number nearest 1e-5, kept as its bit pattern; the sums are finite sums of extended reals.
-/
import Idealize.ShloMosaic.PureOps.Ideal
import Idealize.ShloMosaic.Lib.ValueIdx

noncomputable section

namespace Cert.Spec

open Idealize.ShloMosaic

/-- The single-precision number nearest `1e-5`, as an extended real. -/
def eps : EReal := Ideal.ofBits .f32 0x3727C5AC#32

/-- A dense layer followed by the positive part: `max (∑ k, x r k · W k d + b d) 0`. -/
def feat {K : ℕ} (x : Fin 1024 → Fin K → EReal) (W : Fin K → Fin 128 → EReal) (b : Fin 128 → EReal)
    (r : Fin 1024) (d : Fin 128) : EReal :=
  max ((∑ k : Fin K, x r k * W k d) + b d) 0

/-- Pairwise L1 distance of rows `i` and `j`. -/
def dist (x : Fin 1024 → Fin 128 → EReal) (i j : Fin 1024) : EReal :=
  ∑ k : Fin 128, max (x i k - x j k) (-(x i k - x j k))

/-- Edge weight: `1` on the diagonal, the inverse of the shifted distance off it. -/
def adj (x : Fin 1024 → Fin 128 → EReal) (i j : Fin 1024) : EReal :=
  if i = j then 1 else Ideal.div 1 (dist x i j + eps)

/-- Weighted degree of node `i`. -/
def deg (x : Fin 1024 → Fin 128 → EReal) (i : Fin 1024) : EReal := ∑ j : Fin 1024, adj x i j

/-- Inverse square root of the degree. -/
def dinv (x : Fin 1024 → Fin 128 → EReal) (i : Fin 1024) : EReal := Ideal.rsqrt (deg x i)

/-- Projected values `x · W`. -/
def val (x : Fin 1024 → Fin 128 → EReal) (W : Fin 128 → Fin 128 → EReal) (j : Fin 1024) (h : Fin 128) : EReal :=
  ∑ k : Fin 128, x j k * W k h

/-- Symmetrically normalised aggregation, the column factor applied to the values and the row factor after the sum. -/
def agg (x : Fin 1024 → Fin 128 → EReal) (W : Fin 128 → Fin 128 → EReal) (i : Fin 1024) (h : Fin 128) : EReal :=
  dinv x i * ∑ j : Fin 1024, adj x i j * (dinv x j * val x W j h)

/-- The hidden layer. -/
def hid (xt xf : Fin 1024 → Fin 128 → EReal) (Wgt Wgf : Fin 128 → Fin 128 → EReal) (bg : Fin 128 → EReal)
    (i : Fin 1024) (h : Fin 128) : EReal :=
  max (agg xt Wgt i h + agg xf Wgf i h + bg h) 0

/-- The result, from the eleven argument arrays read at coordinates. -/
def out (w : Fin 1024 → Fin 4000 → EReal) (s : Fin 1024 → Fin 4096 → EReal)
    (Wt : Fin 4000 → Fin 128 → EReal) (bt : Fin 128 → EReal) (Wf : Fin 4096 → Fin 128 → EReal) (bf : Fin 128 → EReal)
    (Wgt Wgf : Fin 128 → Fin 128 → EReal) (bg : Fin 128 → EReal) (Wo : Fin 128 → Fin 10 → EReal) (bo : Fin 10 → EReal)
    (i : Fin 1024) (c : Fin 10) : EReal :=
  (∑ h : Fin 128, hid (feat w Wt bt) (feat s Wf bf) Wgt Wgf bg i h * Wo h c) + bo c

end Cert.Spec

end
-- ==== Proof.Args.lean ====
/-
  The argument arrays read at coordinates, and the specification as one function of the eleven arrays.
  The spectrograms are stored as 1024 images of 64×64 and used as 1024 rows of 4096: entry k of a row is pixel
  (k / 64, k % 64), the row-major order.
-/
import proofs.«152008_j55130200211709_2_alg».proof.Proof.Spec

noncomputable section

namespace Cert.Spec

open Idealize.ShloMosaic Idealize.ShloMosaic.ValueIdx

/-- A matrix array read at (row, column). -/
abbrev at2 {n0 n1 : ℕ} (x : (⟨2, ![n0, n1]⟩ : Shape).Idx → EReal) (a : Fin n0) (b : Fin n1) : EReal := x (ix2 a b)

/-- A vector array read at its coordinate. -/
abbrev at1 {n : ℕ} (x : (⟨1, ![n]⟩ : Shape).Idx → EReal) (a : Fin n) : EReal := x (ix1 a)

/-- The spectrogram array read as rows of length 4096, row-major. -/
def specRow (x : (⟨3, ![1024, 64, 64]⟩ : Shape).Idx → EReal) (r : Fin 1024) (k : Fin 4096) : EReal :=
  x (ix3 r (⟨k.val / 64, by have := k.isLt; omega⟩ : Fin 64) (⟨k.val % 64, by omega⟩ : Fin 64))

/-- The specification as one function of the eleven argument arrays, index by index. -/
def outOf (x0 : (⟨2, ![1024, 4000]⟩ : Shape).Idx → EReal) (x1 : (⟨3, ![1024, 64, 64]⟩ : Shape).Idx → EReal)
    (x2 : (⟨2, ![4000, 128]⟩ : Shape).Idx → EReal) (x3 : (⟨1, ![128]⟩ : Shape).Idx → EReal)
    (x4 : (⟨2, ![4096, 128]⟩ : Shape).Idx → EReal) (x5 : (⟨1, ![128]⟩ : Shape).Idx → EReal)
    (x6 x7 : (⟨2, ![128, 128]⟩ : Shape).Idx → EReal) (x8 : (⟨1, ![128]⟩ : Shape).Idx → EReal)
    (x9 : (⟨2, ![128, 10]⟩ : Shape).Idx → EReal) (x10 : (⟨1, ![10]⟩ : Shape).Idx → EReal) :
    (⟨2, ![1024, 10]⟩ : Shape).Idx → EReal :=
  fun i => out (at2 x0) (specRow x1) (at2 x2) (at1 x3) (at2 x4) (at1 x5) (at2 x6) (at2 x7) (at1 x8) (at2 x9) (at1 x10) (i 0) (i 1)

end Cert.Spec

end
-- ==== Proof.KI.HostValue.lean ====
/- The host operations of @main read at an index, at the extended reals, from ARBITRARY contents: the stretch between the
   second and the third kernel call (inverse square roots of the degree columns, the value rows scaled by them), the four
   stretches before the first call (the spectrograms as rows, the biases as rows, the head weights and bias padded with
   zero columns), and the slice after the third call; then the third call's formula, and its output array after its run,
   in the specification's terms. -/
import proofs.«152008_j55130200211709_2_alg».proof.Proof.KI.R2Value
import proofs.«152008_j55130200211709_2_alg».proof.Proof.Gen.KernelIdeal.Regions
import proofs.«152008_j55130200211709_2_alg».proof.Proof.Args
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open scoped BigOperators

/-- A column index below ten as a column index of the padded width. -/
abbrev up10 (n : Fin 10) : Fin 128 := Fin.castLE (by decide) n

section HostOps
variable (W : Valuation τ sig (Elt Ideal))

/-! ## The stretch between the second and the third kernel call -/

/-- The stretch writes only its own six results. -/
theorem hostOps2_keep (r : Ref sig .tc) (h : r ∉ hostOps2_W) : StableHlo.after hostOps2 W r = W r :=
  StableHlo.after_of_writes_sub hostOps2 _ hostOps2_writes h

theorem v9_eq : @Eq (Vec Ideal S1024x1 .f32) (StableHlo.after hostOps2 W main_v9)
    (Host.rsqrt (F := Ideal) (s := S1024x1) (φ := .f32) (W main_v8_2)) := by
  show StableHlo.after hostOps2 W (Proc.devRef .tc main_v9) = _
  after_results
  try rfl

theorem v10_eq : @Eq (Vec Ideal S1024x1 .f32) (StableHlo.after hostOps2 W main_v10)
    (Host.rsqrt (F := Ideal) (s := S1024x1) (φ := .f32) (W main_v8_3)) := by
  show StableHlo.after hostOps2 W (Proc.devRef .tc main_v10) = _
  after_results
  try rfl

theorem v12_eq : @Eq (Vec Ideal S1024x128 .f32) (StableHlo.after hostOps2 W main_v12)
    (mulf (F := Ideal) (s := S1024x128) (φ := .f32) (broadcastInDim S1024x128 ![0, 1] bcast_S1024x1_S1024x128_0_1
      (Host.rsqrt (F := Ideal) (s := S1024x1) (φ := .f32) (W main_v8_2))) (W main_v7_2)) := by
  show StableHlo.after hostOps2 W (Proc.devRef .tc main_v12) = _
  after_results
  try rfl

theorem v14_eq : @Eq (Vec Ideal S1024x128 .f32) (StableHlo.after hostOps2 W main_v14)
    (mulf (F := Ideal) (s := S1024x128) (φ := .f32) (broadcastInDim S1024x128 ![0, 1] bcast_S1024x1_S1024x128_0_1
      (Host.rsqrt (F := Ideal) (s := S1024x1) (φ := .f32) (W main_v8_3))) (W main_v7_3)) := by
  show StableHlo.after hostOps2 W (Proc.devRef .tc main_v14) = _
  after_results
  try rfl

/-- A column repeated along the lanes, read at row `r`: the column's entry of the row. -/
theorem bcast_lanes_apply {α : Type} (x : S1024x1.Idx → α) (r : Fin 1024) (k : Fin 128) :
    broadcastInDim S1024x128 ![0, 1] bcast_S1024x1_S1024x128_0_1 x (ix2 r k) = x (ix2 r (0 : Fin 1)) :=
  broadcastInDim_apply _ _ x (ix2 r k) (ix2 r (0 : Fin 1)) (fun a => by
    match a with
    | ⟨0, _⟩ => rfl
    | ⟨1, _⟩ => rfl)

/-- The inverse square roots of the degree columns, entry by entry. -/
theorem v9_apply (r : Fin 1024) :
    (StableHlo.after hostOps2 W main_v9 : Vec Ideal S1024x1 .f32) (ix2 r (0 : Fin 1))
      = Ideal.rsqrt ((W main_v8_2 : Vec Ideal S1024x1 .f32) (ix2 r (0 : Fin 1))) := by
  rw [v9_eq]; rfl

theorem v10_apply (r : Fin 1024) :
    (StableHlo.after hostOps2 W main_v10 : Vec Ideal S1024x1 .f32) (ix2 r (0 : Fin 1))
      = Ideal.rsqrt ((W main_v8_3 : Vec Ideal S1024x1 .f32) (ix2 r (0 : Fin 1))) := by
  rw [v10_eq]; rfl

/-- The value rows scaled by the inverse square root of their node's degree, entry by entry. -/
theorem v12_apply (r : Fin 1024) (k : Fin 128) :
    (StableHlo.after hostOps2 W main_v12 : Vec Ideal S1024x128 .f32) (ix2 r k)
      = Ideal.rsqrt ((W main_v8_2 : Vec Ideal S1024x1 .f32) (ix2 r (0 : Fin 1))) * (W main_v7_2 : Vec Ideal S1024x128 .f32) (ix2 r k) := by
  rw [v12_eq, mulf_apply, bcast_lanes_apply]; rfl

theorem v14_apply (r : Fin 1024) (k : Fin 128) :
    (StableHlo.after hostOps2 W main_v14 : Vec Ideal S1024x128 .f32) (ix2 r k)
      = Ideal.rsqrt ((W main_v8_3 : Vec Ideal S1024x1 .f32) (ix2 r (0 : Fin 1))) * (W main_v7_3 : Vec Ideal S1024x128 .f32) (ix2 r k) := by
  rw [v14_eq, mulf_apply, bcast_lanes_apply]; rfl

/-! ## The four stretches before the first kernel call -/

/-- The contents after the four host stretches that precede the first kernel call, from contents `W0`. -/
abbrev pre (W0 : Valuation τ sig (Elt Ideal)) : Valuation τ sig (Elt Ideal) :=
  StableHlo.after hostOps0_3 (StableHlo.after hostOps0_2 (StableHlo.after hostOps0_1 (StableHlo.after hostOps0 W0)))

/-- The generated valuation before the first kernel call is `pre` of the launch contents. -/
theorem V4_eq_pre (m : (ℓ : Loc nD τ sig) → Buf (Elt Ideal) ℓ) (c : Dev nD) : V4 m c = pre (V0 m c) := rfl

/-- The four stretches write only their own results: every other buffer, the eleven arguments among them, is as before. -/
theorem pre_keep (r : Ref sig .tc) (h0 : r ∉ hostOps0_W) (h1 : r ∉ hostOps0_1_W) (h2 : r ∉ hostOps0_2_W) (h3 : r ∉ hostOps0_3_W) :
    pre W r = W r :=
  (StableHlo.after_of_writes_sub hostOps0_3 _ hostOps0_3_writes h3).trans <|
    (StableHlo.after_of_writes_sub hostOps0_2 _ hostOps0_2_writes h2).trans <|
      (StableHlo.after_of_writes_sub hostOps0_1 _ hostOps0_1_writes h1).trans
        (StableHlo.after_of_writes_sub hostOps0 _ hostOps0_writes h0)

theorem pre_arg0 : pre W main_arg0 = W main_arg0 := pre_keep W main_arg0 (by decide) (by decide) (by decide) (by decide)
theorem pre_arg1 : pre W main_arg1 = W main_arg1 := pre_keep W main_arg1 (by decide) (by decide) (by decide) (by decide)
theorem pre_arg2 : pre W main_arg2 = W main_arg2 := pre_keep W main_arg2 (by decide) (by decide) (by decide) (by decide)
theorem pre_arg3 : pre W main_arg3 = W main_arg3 := pre_keep W main_arg3 (by decide) (by decide) (by decide) (by decide)
theorem pre_arg4 : pre W main_arg4 = W main_arg4 := pre_keep W main_arg4 (by decide) (by decide) (by decide) (by decide)
theorem pre_arg5 : pre W main_arg5 = W main_arg5 := pre_keep W main_arg5 (by decide) (by decide) (by decide) (by decide)
theorem pre_arg6 : pre W main_arg6 = W main_arg6 := pre_keep W main_arg6 (by decide) (by decide) (by decide) (by decide)
theorem pre_arg7 : pre W main_arg7 = W main_arg7 := pre_keep W main_arg7 (by decide) (by decide) (by decide) (by decide)
theorem pre_arg8 : pre W main_arg8 = W main_arg8 := pre_keep W main_arg8 (by decide) (by decide) (by decide) (by decide)
theorem pre_arg9 : pre W main_arg9 = W main_arg9 := pre_keep W main_arg9 (by decide) (by decide) (by decide) (by decide)
theorem pre_arg10 : pre W main_arg10 = W main_arg10 := pre_keep W main_arg10 (by decide) (by decide) (by decide) (by decide)

/-- `main_v0` is the spectrogram array with each image's 64×64 pixels laid out as one row of 4096, row-major. -/
theorem pre_main_v0_eq : @Eq (Vec Ideal S1024x4096 .f32) (pre W main_v0)
    (shapeCast S1024x4096 (W main_arg1 : Vec Ideal S1024x64x64 .f32) shapeCasts_S1024x64x64_S1024x4096) := by
  show StableHlo.after hostOps0_3 (StableHlo.after hostOps0_2 (StableHlo.after hostOps0_1 (StableHlo.after hostOps0 W))) (Proc.devRef .tc main_v0) = _
  after_results
  try rfl

theorem pre_main_v0_apply (r : Fin 1024) (k : Fin 4096) :
    (pre W main_v0 : Vec Ideal S1024x4096 .f32) (ix2 r k) = Cert.Spec.specRow (W main_arg1 : Vec Ideal S1024x64x64 .f32) r k := by
  rw [pre_main_v0_eq]
  unfold Cert.Spec.specRow
  exact shapeCast_apply _ _ (ix2 r k) _ (by
    show (S1024x64x64.rowMajor _).val = (S1024x4096.rowMajor _).val
    rw [Shape.rowMajor_val_three, Shape.rowMajor_val_two]
    show (r.val * 64 + k.val / 64) * 64 + k.val % 64 = r.val * 4096 + k.val; omega)

/-- `main_v1` is `main_arg3` laid out as one row. -/
theorem pre_main_v1_eq : @Eq (Vec Ideal S1x128 .f32) (pre W main_v1)
    (shapeCast S1x128 (W main_arg3 : Vec Ideal S128 .f32) shapeCasts_S128_S1x128) := by
  show StableHlo.after hostOps0_3 (StableHlo.after hostOps0_2 (StableHlo.after hostOps0_1 (StableHlo.after hostOps0 W))) (Proc.devRef .tc main_v1) = _
  after_results
  try rfl

theorem pre_main_v1_apply (d : Fin 128) :
    (pre W main_v1 : Vec Ideal S1x128 .f32) (ix2 (0 : Fin 1) d) = (W main_arg3 : Vec Ideal S128 .f32) (ix1 d) := by
  rw [pre_main_v1_eq]
  exact shapeCast_apply _ _ (ix2 (0 : Fin 1) d) (ix1 d) (by
    rw [Shape.rowMajor_val_one, Shape.rowMajor_val_two]
    show d.val = 0 * 128 + d.val; omega)

/-- `main_v2` is `main_arg5` laid out as one row. -/
theorem pre_main_v2_eq : @Eq (Vec Ideal S1x128 .f32) (pre W main_v2)
    (shapeCast S1x128 (W main_arg5 : Vec Ideal S128 .f32) shapeCasts_S128_S1x128) := by
  show StableHlo.after hostOps0_3 (StableHlo.after hostOps0_2 (StableHlo.after hostOps0_1 (StableHlo.after hostOps0 W))) (Proc.devRef .tc main_v2) = _
  after_results
  try rfl

theorem pre_main_v2_apply (d : Fin 128) :
    (pre W main_v2 : Vec Ideal S1x128 .f32) (ix2 (0 : Fin 1) d) = (W main_arg5 : Vec Ideal S128 .f32) (ix1 d) := by
  rw [pre_main_v2_eq]
  exact shapeCast_apply _ _ (ix2 (0 : Fin 1) d) (ix1 d) (by
    rw [Shape.rowMajor_val_one, Shape.rowMajor_val_two]
    show d.val = 0 * 128 + d.val; omega)

/-- `main_v3` is `main_arg8` laid out as one row. -/
theorem pre_main_v3_eq : @Eq (Vec Ideal S1x128 .f32) (pre W main_v3)
    (shapeCast S1x128 (W main_arg8 : Vec Ideal S128 .f32) shapeCasts_S128_S1x128) := by
  show StableHlo.after hostOps0_3 (StableHlo.after hostOps0_2 (StableHlo.after hostOps0_1 (StableHlo.after hostOps0 W))) (Proc.devRef .tc main_v3) = _
  after_results
  try rfl

theorem pre_main_v3_apply (d : Fin 128) :
    (pre W main_v3 : Vec Ideal S1x128 .f32) (ix2 (0 : Fin 1) d) = (W main_arg8 : Vec Ideal S128 .f32) (ix1 d) := by
  rw [pre_main_v3_eq]
  exact shapeCast_apply _ _ (ix2 (0 : Fin 1) d) (ix1 d) (by
    rw [Shape.rowMajor_val_one, Shape.rowMajor_val_two]
    show d.val = 0 * 128 + d.val; omega)

/-- The padding value: the integer zero converted. -/
theorem pad_zero : (sitofp (F := Ideal) .f32 (constantI S_ 32 0#32)) (Shape.Idx.first h_S_) = (0 : EReal) := by
  show (((0#32 : BitVec 32).toInt : ℝ) : EReal) = 0
  simp

/-- `main_v4` is the head weights padded with zero columns from 10 to 128. -/
theorem pre_main_v4_eq : @Eq (Vec Ideal S128x128 .f32) (pre W main_v4)
    (pad S128x128 ![0, 0] ![0, 118] ![0, 0] (W main_arg9 : Vec Ideal S128x10 .f32) (sitofp (F := Ideal) .f32 (constantI S_ 32 0#32))
      pads_S128x10_S128x128_000_01180 h_S_) := by
  show StableHlo.after hostOps0_3 (StableHlo.after hostOps0_2 (StableHlo.after hostOps0_1 (StableHlo.after hostOps0 W))) (Proc.devRef .tc main_v4) = _
  after_results
  try rfl

theorem pre_main_v4_apply (k : Fin 128) (n : Fin 128) :
    @Eq EReal ((pre W main_v4 : Vec Ideal S128x128 .f32) (ix2 k n))
      (if h : n.val < 10 then (W main_arg9 : Vec Ideal S128x10 .f32) (ix2 k (⟨n.val, h⟩ : Fin 10)) else 0) := by
  rw [pre_main_v4_eq]
  split
  · rename_i h
    exact pad_apply_of_inside _ _ _ _ _ _ _ (ix2 k n) (ix2 k (⟨n.val, h⟩ : Fin 10)) (fun a => by
      match a with
      | ⟨0, _⟩ => show k.val = 0 + k.val * (0 + 1); omega
      | ⟨1, _⟩ => show n.val = 0 + n.val * (0 + 1); omega)
  · rename_i h
    rw [pad_apply_of_not_inside _ _ _ _ _ _ _ (ix2 k n) (1 : Fin 2) (by
      show ¬(0 ≤ n.val ∧ (n.val - 0) % (0 + 1) = 0 ∧ (n.val - 0) / (0 + 1) < 10); omega)]
    exact pad_zero

theorem pre_main_v4_apply_lt (k : Fin 128) (n : Fin 10) :
    (pre W main_v4 : Vec Ideal S128x128 .f32) (ix2 k (up10 n)) = (W main_arg9 : Vec Ideal S128x10 .f32) (ix2 k n) := by
  rw [pre_main_v4_apply, dif_pos (show (up10 n).val < 10 from n.isLt)]; rfl

/-- `main_v6` is the head bias as one row, padded with zeros from 10 to 128. -/
theorem pre_main_v6_eq : @Eq (Vec Ideal S1x128 .f32) (pre W main_v6)
    (pad S1x128 ![0, 0] ![0, 118] ![0, 0] (shapeCast S1x10 (W main_arg10 : Vec Ideal S10 .f32) shapeCasts_S10_S1x10)
      (sitofp (F := Ideal) .f32 (constantI S_ 32 0#32)) pads_S1x10_S1x128_000_01180 h_S_) := by
  show StableHlo.after hostOps0_3 (StableHlo.after hostOps0_2 (StableHlo.after hostOps0_1 (StableHlo.after hostOps0 W))) (Proc.devRef .tc main_v6) = _
  after_results
  try rfl

theorem pre_main_v6_apply (n : Fin 128) :
    @Eq EReal ((pre W main_v6 : Vec Ideal S1x128 .f32) (ix2 (0 : Fin 1) n))
      (if h : n.val < 10 then (W main_arg10 : Vec Ideal S10 .f32) (ix1 (⟨n.val, h⟩ : Fin 10)) else 0) := by
  rw [pre_main_v6_eq]
  split
  · rename_i h
    rw [pad_apply_of_inside _ _ _ _ _ _ _ (ix2 (0 : Fin 1) n) (ix2 (0 : Fin 1) (⟨n.val, h⟩ : Fin 10)) (fun a => by
      match a with
      | ⟨0, _⟩ => show 0 = 0 + 0 * (0 + 1); omega
      | ⟨1, _⟩ => show n.val = 0 + n.val * (0 + 1); omega)]
    exact shapeCast_apply _ _ (ix2 (0 : Fin 1) (⟨n.val, h⟩ : Fin 10)) (ix1 (⟨n.val, h⟩ : Fin 10)) (by
      rw [Shape.rowMajor_val_one, Shape.rowMajor_val_two]
      show n.val = 0 * 10 + n.val; omega)
  · rename_i h
    rw [pad_apply_of_not_inside _ _ _ _ _ _ _ (ix2 (0 : Fin 1) n) (1 : Fin 2) (by
      show ¬(0 ≤ n.val ∧ (n.val - 0) % (0 + 1) = 0 ∧ (n.val - 0) / (0 + 1) < 10); omega)]
    exact pad_zero

theorem pre_main_v6_apply_lt (n : Fin 10) :
    (pre W main_v6 : Vec Ideal S1x128 .f32) (ix2 (0 : Fin 1) (up10 n)) = (W main_arg10 : Vec Ideal S10 .f32) (ix1 n) := by
  rw [pre_main_v6_apply, dif_pos (show (up10 n).val < 10 from n.isLt)]; rfl

/-! ## The stretch after the third kernel call -/

/-- The result is the first ten columns of the aggregated output. -/
theorem v16_eq : @Eq (Vec Ideal S1024x10 .f32) (StableHlo.after hostOps3 W main_v16)
    (extractStridedSlice S1024x10 ![0, 0] (W main_v15 : Vec Ideal S1024x128 .f32) slices_S1024x128_S1024x10_0_0) := by
  show StableHlo.after hostOps3 W (Proc.devRef .tc main_v16) = _
  after_results
  try rfl

theorem v16_apply (r : Fin 1024) (n : Fin 10) :
    (StableHlo.after hostOps3 W main_v16 : Vec Ideal S1024x10 .f32) (ix2 r n) = (W main_v15 : Vec Ideal S1024x128 .f32) (ix2 r (up10 n)) := by
  rw [v16_eq]
  exact extractStridedSlice_apply _ _ _ (ix2 r n) (ix2 r (up10 n)) (fun a => by
    match a with
    | ⟨0, _⟩ => show r.val = 0 + r.val; omega
    | ⟨1, _⟩ => show n.val = 0 + n.val; omega)

end HostOps

/-! ## The aggregation call's result in the specification's terms -/

section Compose
open Cert.Spec

/-- When the nine operand arrays of the aggregation call are the two adjacency matrices, the inverse square roots of the
    two degree columns, the two value matrices with row `l` scaled by the inverse square root of node `l`'s degree, the
    hidden bias, and the head weights and bias padded to 128 columns, the call's formula at row `r` and a column below
    ten is the specification's head applied to its hidden layer. -/
theorem aggAt_eq_hid (A0 A1 : Vec Ideal S1024x1024 .f32) (A2 A3 : Vec Ideal S1024x1 .f32) (A4 A5 : Vec Ideal S1024x128 .f32)
    (A6 : Vec Ideal S1x128 .f32) (A7 : Vec Ideal S128x128 .f32) (A8 : Vec Ideal S1x128 .f32)
    (xt xf : Fin 1024 → Fin 128 → EReal) (Wgt Wgf : Fin 128 → Fin 128 → EReal) (bg : Fin 128 → EReal)
    (Wo : Fin 128 → Fin 10 → EReal) (bo : Fin 10 → EReal)
    (h0 : ∀ r l, A0 (ix2 r l) = adj xt r l) (h1 : ∀ r l, A1 (ix2 r l) = adj xf r l)
    (h2 : ∀ r, A2 (ix2 r (0 : Fin 1)) = dinv xt r) (h3 : ∀ r, A3 (ix2 r (0 : Fin 1)) = dinv xf r)
    (h4 : ∀ l k, A4 (ix2 l k) = dinv xt l * val xt Wgt l k) (h5 : ∀ l k, A5 (ix2 l k) = dinv xf l * val xf Wgf l k)
    (h6 : ∀ k, A6 (ix2 (0 : Fin 1) k) = bg k)
    (h7 : ∀ k (n : Fin 10), A7 (ix2 k (up10 n)) = Wo k n) (h8 : ∀ n : Fin 10, A8 (ix2 (0 : Fin 1) (up10 n)) = bo n)
    (r : Fin 1024) (n : Fin 10) :
    aggAt A0 A1 A2 A3 A4 A5 A6 A7 A8 r (up10 n) = (∑ h : Fin 128, hid xt xf Wgt Wgf bg r h * Wo h n) + bo n := by
  unfold aggAt hid agg
  simp only [h0, h1, h2, h3, h4, h5, h6, h7, h8, Ideal.ofBits_zero_f32]

/-- The same from the contents `W` entering the host stretch before the aggregation call: `W` holds the adjacency
    matrices and degree columns the second call wrote, the value matrices the first call wrote, the hidden bias as a row
    and the padded head weights and bias; the stretch takes the inverse square roots and scales the value rows. -/
theorem aggAt_after_hostOps2 (W : Valuation τ sig (Elt Ideal))
    (xt xf : Fin 1024 → Fin 128 → EReal) (Wgt Wgf : Fin 128 → Fin 128 → EReal) (bg : Fin 128 → EReal)
    (Wo : Fin 128 → Fin 10 → EReal) (bo : Fin 10 → EReal)
    (hAt : ∀ r l, (W main_v8_0 : Vec Ideal S1024x1024 .f32) (ix2 r l) = adj xt r l)
    (hAf : ∀ r l, (W main_v8_1 : Vec Ideal S1024x1024 .f32) (ix2 r l) = adj xf r l)
    (hDt : ∀ r, (W main_v8_2 : Vec Ideal S1024x1 .f32) (ix2 r (0 : Fin 1)) = deg xt r)
    (hDf : ∀ r, (W main_v8_3 : Vec Ideal S1024x1 .f32) (ix2 r (0 : Fin 1)) = deg xf r)
    (hVt : ∀ l k, (W main_v7_2 : Vec Ideal S1024x128 .f32) (ix2 l k) = val xt Wgt l k)
    (hVf : ∀ l k, (W main_v7_3 : Vec Ideal S1024x128 .f32) (ix2 l k) = val xf Wgf l k)
    (hbg : ∀ k, (W main_v3 : Vec Ideal S1x128 .f32) (ix2 (0 : Fin 1) k) = bg k)
    (hWo : ∀ k (n : Fin 10), (W main_v4 : Vec Ideal S128x128 .f32) (ix2 k (up10 n)) = Wo k n)
    (hbo : ∀ n : Fin 10, (W main_v6 : Vec Ideal S1x128 .f32) (ix2 (0 : Fin 1) (up10 n)) = bo n)
    (r : Fin 1024) (n : Fin 10) :
    aggAt (StableHlo.after hostOps2 W main_v8_0) (StableHlo.after hostOps2 W main_v8_1) (StableHlo.after hostOps2 W main_v9) (StableHlo.after hostOps2 W main_v10) (StableHlo.after hostOps2 W main_v12) (StableHlo.after hostOps2 W main_v14) (StableHlo.after hostOps2 W main_v3) (StableHlo.after hostOps2 W main_v4) (StableHlo.after hostOps2 W main_v6) r (up10 n)
      = (∑ h : Fin 128, hid xt xf Wgt Wgf bg r h * Wo h n) + bo n := by
  refine aggAt_eq_hid _ _ _ _ _ _ _ _ _ xt xf Wgt Wgf bg Wo bo ?_ ?_ ?_ ?_ ?_ ?_ ?_ ?_ ?_ r n
  · intro r l; rw [hostOps2_keep W main_v8_0 (by decide)]; exact hAt r l
  · intro r l; rw [hostOps2_keep W main_v8_1 (by decide)]; exact hAf r l
  · intro r; rw [v9_apply, hDt]; rfl
  · intro r; rw [v10_apply, hDf]; rfl
  · intro l k; rw [v12_apply, hDt, hVt]; rfl
  · intro l k; rw [v14_apply, hDf, hVf]; rfl
  · intro k; rw [hostOps2_keep W main_v3 (by decide)]; exact hbg k
  · intro k n; rw [hostOps2_keep W main_v4 (by decide)]; exact hWo k n
  · intro n; rw [hostOps2_keep W main_v6 (by decide)]; exact hbo n

end Compose

/-! ## The output array of the aggregation call, from the contents entering the stretch before it -/

section Region2Out
open Cert.Spec

/-- With the aggregation call entered at the contents the host stretch leaves from `Vw c`, row `r` and a column below ten of
    its output array after its run are the specification's head applied to its hidden layer. -/
theorem region2_out (Vw : Dev nD → Valuation τ sig (Elt Ideal)) (c : Dev nD)
    (xt xf : Fin 1024 → Fin 128 → EReal) (Wgt Wgf : Fin 128 → Fin 128 → EReal) (bg : Fin 128 → EReal)
    (Wo : Fin 128 → Fin 10 → EReal) (bo : Fin 10 → EReal)
    (hAt : ∀ r l, (Vw c main_v8_0 : Vec Ideal S1024x1024 .f32) (ix2 r l) = adj xt r l)
    (hAf : ∀ r l, (Vw c main_v8_1 : Vec Ideal S1024x1024 .f32) (ix2 r l) = adj xf r l)
    (hDt : ∀ r, (Vw c main_v8_2 : Vec Ideal S1024x1 .f32) (ix2 r (0 : Fin 1)) = deg xt r)
    (hDf : ∀ r, (Vw c main_v8_3 : Vec Ideal S1024x1 .f32) (ix2 r (0 : Fin 1)) = deg xf r)
    (hVt : ∀ l k, (Vw c main_v7_2 : Vec Ideal S1024x128 .f32) (ix2 l k) = val xt Wgt l k)
    (hVf : ∀ l k, (Vw c main_v7_3 : Vec Ideal S1024x128 .f32) (ix2 l k) = val xf Wgf l k)
    (hbg : ∀ k, (Vw c main_v3 : Vec Ideal S1x128 .f32) (ix2 (0 : Fin 1) k) = bg k)
    (hWo : ∀ k (n : Fin 10), (Vw c main_v4 : Vec Ideal S128x128 .f32) (ix2 k (up10 n)) = Wo k n)
    (hbo : ∀ n : Fin 10, (Vw c main_v6 : Vec Ideal S1x128 .f32) (ix2 (0 : Fin 1) (up10 n)) = bo n)
    (r : Fin 1024) (n : Fin 10) :
    ((dat2 (fun c b => StableHlo.after hostOps2 (Vw c) b) c).arrAt 9 cfg2.N : Vec Ideal S1024x128 .f32) (ix2 r (up10 n))
      = (∑ h : Fin 128, hid xt xf Wgt Wgf bg r h * Wo h n) + bo n := by
  rw [final2_9]
  exact aggAt_after_hostOps2 (Vw c) xt xf Wgt Wgf bg Wo bo hAt hAf hDt hDf hVt hVf hbg hWo hbo r n

end Region2Out

end Cert.KernelIdeal.Hand

end
-- ==== Proof.KI.R1Pieces.lean ====
import proofs.«152008_j55130200211709_2_alg».proof.Proof.KI.R1
import Idealize.ShloMosaic.Lib.Pipeline.Value

/-! # The adjacency kernel: what its two runs leave, as the body's named values

The body's run in either case ends with a list of stored pieces per output buffer. Each buffer receives whole-block
stores only, so it reads back as the payload of its last store. For the two adjacency blocks that is the body's
select between one and the reciprocal distance. For a degree column it is the row sums of the block added to what a
load of the column read just before: at the first step of a row the zero column the body had just stored there, at
a later step what the column held on entry. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-- The offsets of a whole-block access, however the zeros are spelt. -/
theorem hz1 : (![0, 0] : Fin 2 → Nat) = fun _ => 0 := funext fun a => by fin_cases a <;> rfl

/-! ## The case j = 0 -/

/-- At j = 0, the first adjacency block is the body's first select. -/
theorem outs1_A_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) :
    (outs1_A c i arg2 harg2 arg3 harg3 arg4 harg4 arg5 harg5 arg6 harg6 arg7 harg7 arg8 harg8 arg9 harg9 hc0 x0 x1 x2 x3).1 = k1_pay7 i x0 x1 := by
  unfold outs1_A
  dsimp only
  rw [View.read_writes_eq_canon _ _ _ (cover1_A_4 c i arg2 harg2 arg3 harg3 arg4 harg4 arg5 harg5 arg6 harg6 arg7 harg7 arg8 harg8 arg9 harg9 hc0 x0 x1 x2 x3)]
  unfold kernelRun1_A
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- At j = 0, the second adjacency block. -/
theorem outs1_A_5 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) :
    (outs1_A c i arg2 harg2 arg3 harg3 arg4 harg4 arg5 harg5 arg6 harg6 arg7 harg7 arg8 harg8 arg9 harg9 hc0 x0 x1 x2 x3).2.1 = k1_pay1 (k1_pay6 i) (k1_pay8 x3) (k1_pay9 x2) := by
  unfold outs1_A
  dsimp only
  rw [View.read_writes_eq_canon _ _ _ (cover1_A_5 c i arg2 harg2 arg3 harg3 arg4 harg4 arg5 harg5 arg6 harg6 arg7 harg7 arg8 harg8 arg9 harg9 hc0 x0 x1 x2 x3)]
  unfold kernelRun1_A
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- At j = 0, the first degree column: the row sums of the first block added to the zero column just stored. -/
theorem outs1_A_6 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) :
    (outs1_A c i arg2 harg2 arg3 harg3 arg4 harg4 arg5 harg5 arg6 harg6 arg7 harg7 arg8 harg8 arg9 harg9 hc0 x0 x1 x2 x3).2.2.1 = k1_pay2 (k1_pay7 i x0 x1) (k1_pay4 (F := F)) := by
  unfold outs1_A
  dsimp only
  rw [View.read_writes_eq_canon _ _ _ (cover1_A_6 c i arg2 harg2 arg3 harg3 arg4 harg4 arg5 harg5 arg6 harg6 arg7 harg7 arg8 harg8 arg9 harg9 hc0 x0 x1 x2 x3)]
  unfold kernelRun1_A
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- At j = 0, the second degree column likewise. -/
theorem outs1_A_7 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) :
    (outs1_A c i arg2 harg2 arg3 harg3 arg4 harg4 arg5 harg5 arg6 harg6 arg7 harg7 arg8 harg8 arg9 harg9 hc0 x0 x1 x2 x3).2.2.2 = k1_pay3 (k1_pay6 i) (k1_pay8 x3) (k1_pay9 x2) (k1_pay5 (F := F)) := by
  unfold outs1_A
  dsimp only
  rw [View.read_writes_eq_canon _ _ _ (cover1_A_7 c i arg2 harg2 arg3 harg3 arg4 harg4 arg5 harg5 arg6 harg6 arg7 harg7 arg8 harg8 arg9 harg9 hc0 x0 x1 x2 x3)]
  unfold kernelRun1_A
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- The case j = 0, all four outputs at once. -/
theorem outs1_A_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : cond1_0 i) (x0 x1 x2 x3 : Vec F S128x128 .f32) :
    outs1_A c i arg2 harg2 arg3 harg3 arg4 harg4 arg5 harg5 arg6 harg6 arg7 harg7 arg8 harg8 arg9 harg9 hc0 x0 x1 x2 x3
      = (k1_pay7 i x0 x1, k1_pay1 (k1_pay6 i) (k1_pay8 x3) (k1_pay9 x2), k1_pay2 (k1_pay7 i x0 x1) (k1_pay4 (F := F)),
          k1_pay3 (k1_pay6 i) (k1_pay8 x3) (k1_pay9 x2) (k1_pay5 (F := F))) :=
  Prod.ext (outs1_A_4 c i arg2 harg2 arg3 harg3 arg4 harg4 arg5 harg5 arg6 harg6 arg7 harg7 arg8 harg8 arg9 harg9 hc0 x0 x1 x2 x3) (Prod.ext (outs1_A_5 c i arg2 harg2 arg3 harg3 arg4 harg4 arg5 harg5 arg6 harg6 arg7 harg7 arg8 harg8 arg9 harg9 hc0 x0 x1 x2 x3)
    (Prod.ext (outs1_A_6 c i arg2 harg2 arg3 harg3 arg4 harg4 arg5 harg5 arg6 harg6 arg7 harg7 arg8 harg8 arg9 harg9 hc0 x0 x1 x2 x3) (outs1_A_7 c i arg2 harg2 arg3 harg3 arg4 harg4 arg5 harg5 arg6 harg6 arg7 harg7 arg8 harg8 arg9 harg9 hc0 x0 x1 x2 x3)))

/-! ## The case j > 0 -/

/-- At j > 0, the first adjacency block, as at j = 0. -/
theorem outs1_B_4 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) :
    (outs1_B c i arg2 harg2 arg3 harg3 arg4 harg4 arg5 harg5 arg6 harg6 arg7 harg7 arg8 harg8 arg9 harg9 hc0 x0 x1 x2 x3 xo6 xo7).1 = k1_pay7 i x0 x1 := by
  unfold outs1_B
  dsimp only
  rw [View.read_writes_eq_canon _ _ _ (cover1_B_4 c i arg2 harg2 arg3 harg3 arg4 harg4 arg5 harg5 arg6 harg6 arg7 harg7 arg8 harg8 arg9 harg9 hc0 x0 x1 x2 x3 xo6 xo7)]
  unfold kernelRun1_B
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- At j > 0, the second adjacency block, as at j = 0. -/
theorem outs1_B_5 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) :
    (outs1_B c i arg2 harg2 arg3 harg3 arg4 harg4 arg5 harg5 arg6 harg6 arg7 harg7 arg8 harg8 arg9 harg9 hc0 x0 x1 x2 x3 xo6 xo7).2.1 = k1_pay1 (k1_pay6 i) (k1_pay8 x3) (k1_pay9 x2) := by
  unfold outs1_B
  dsimp only
  rw [View.read_writes_eq_canon _ _ _ (cover1_B_5 c i arg2 harg2 arg3 harg3 arg4 harg4 arg5 harg5 arg6 harg6 arg7 harg7 arg8 harg8 arg9 harg9 hc0 x0 x1 x2 x3 xo6 xo7)]
  unfold kernelRun1_B
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- At j > 0, the first degree column: the row sums of the first block added to what the column held. -/
theorem outs1_B_6 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) :
    (outs1_B c i arg2 harg2 arg3 harg3 arg4 harg4 arg5 harg5 arg6 harg6 arg7 harg7 arg8 harg8 arg9 harg9 hc0 x0 x1 x2 x3 xo6 xo7).2.2.1 = k1_pay2 (k1_pay7 i x0 x1) xo6 := by
  unfold outs1_B
  dsimp only
  rw [View.read_writes_eq_canon _ _ _ (cover1_B_6 c i arg2 harg2 arg3 harg3 arg4 harg4 arg5 harg5 arg6 harg6 arg7 harg7 arg8 harg8 arg9 harg9 hc0 x0 x1 x2 x3 xo6 xo7)]
  unfold kernelRun1_B
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- At j > 0, the second degree column likewise. -/
theorem outs1_B_7 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) :
    (outs1_B c i arg2 harg2 arg3 harg3 arg4 harg4 arg5 harg5 arg6 harg6 arg7 harg7 arg8 harg8 arg9 harg9 hc0 x0 x1 x2 x3 xo6 xo7).2.2.2 = k1_pay3 (k1_pay6 i) (k1_pay8 x3) (k1_pay9 x2) xo7 := by
  unfold outs1_B
  dsimp only
  rw [View.read_writes_eq_canon _ _ _ (cover1_B_7 c i arg2 harg2 arg3 harg3 arg4 harg4 arg5 harg5 arg6 harg6 arg7 harg7 arg8 harg8 arg9 harg9 hc0 x0 x1 x2 x3 xo6 xo7)]
  unfold kernelRun1_B
  dsimp only
  try sl_unfold_words
  first
    | rw [View.canon_unit_zero hz1]
    | rw [View.canon_cons_unit_zero hz1]
  simp only [View.readCov_unit_zero (S := S128x1) _ hz1, View.readAt_eq_ld, harg2.read_unread, harg3.read_unread, harg4.read_unread, harg5.read_unread, harg8.read_unread, harg9.read_unread, View.ld_unit_zero (S := S128x128) hz1, View.ld_unit_zero (S := S128x1) hz1]

/-- The case j > 0, all four outputs at once. -/
theorem outs1_B_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S128x1 .f32) (harg9 : arg9.IsWhole) (hc0 : ¬cond1_0 i) (x0 x1 x2 x3 : Vec F S128x128 .f32) (xo6 xo7 : Vec F S128x1 .f32) :
    outs1_B c i arg2 harg2 arg3 harg3 arg4 harg4 arg5 harg5 arg6 harg6 arg7 harg7 arg8 harg8 arg9 harg9 hc0 x0 x1 x2 x3 xo6 xo7
      = (k1_pay7 i x0 x1, k1_pay1 (k1_pay6 i) (k1_pay8 x3) (k1_pay9 x2), k1_pay2 (k1_pay7 i x0 x1) xo6,
          k1_pay3 (k1_pay6 i) (k1_pay8 x3) (k1_pay9 x2) xo7) :=
  Prod.ext (outs1_B_4 c i arg2 harg2 arg3 harg3 arg4 harg4 arg5 harg5 arg6 harg6 arg7 harg7 arg8 harg8 arg9 harg9 hc0 x0 x1 x2 x3 xo6 xo7) (Prod.ext (outs1_B_5 c i arg2 harg2 arg3 harg3 arg4 harg4 arg5 harg5 arg6 harg6 arg7 harg7 arg8 harg8 arg9 harg9 hc0 x0 x1 x2 x3 xo6 xo7)
    (Prod.ext (outs1_B_6 c i arg2 harg2 arg3 harg3 arg4 harg4 arg5 harg5 arg6 harg6 arg7 harg7 arg8 harg8 arg9 harg9 hc0 x0 x1 x2 x3 xo6 xo7) (outs1_B_7 c i arg2 harg2 arg3 harg3 arg4 harg4 arg5 harg5 arg6 harg6 arg7 harg7 arg8 harg8 arg9 harg9 hc0 x0 x1 x2 x3 xo6 xo7)))

end Cert.KernelIdeal.Hand

end
-- ==== Proof.KI.R1ValueAdj.lean ====
import proofs.«152008_j55130200211709_2_alg».proof.Proof.KI.R1Pieces
import proofs.«152008_j55130200211709_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # The adjacency kernel: the two edge-weight matrices after the call

At the ideal values each of the two [1024,1024] outputs of the second pipelined call is the specification's
edge-weight matrix of the feature array it was built from: one on the diagonal, elsewhere the reciprocal of the L1
distance of the two rows plus the small constant.

The road: the body's value at an index — the diagonal test compares two global row numbers as 32-bit words, which
below 1024 is equality of the numbers (`pay6_eq_one_iff`); the distance is a lane sum of absolute differences of
two blocks laid out along a third axis (`rowRep_apply`, `colRep_apply`, `laneSum_apply`, `laneDist_apply`); hence
the stored entry (`pay7_apply`, `pay1_apply1`). Each input block is a row block of its feature array
(`iblk1_w_apply`), so the entry at `(p, q)` of position `t` is the specification's at the global rows
(`adjT_entry`, `adjF_entry`). What a position writes back is therefore its block of the matrix (`flushed1_w_eq`),
the 64 blocks cover the matrix (`covered1_w`), and the matrix ends holding the specification's (`final1_w`). -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The body's values at an index -/

/-- The single-precision word of one is the extended real one. -/
theorem ofBits_one_f32 : Ideal.ofBits .f32 0x3F800000#32 = 1 := by
  simp [Ideal.ofBits, Ideal.ieee, -EReal.coe_mul]; norm_num

/-- A row block viewed [128,1,128] and repeated along the middle axis reads row `p` at `(p, q, k)`. -/
theorem rowRep_apply {φ : FTy} (v : FVec Ideal S128x128 φ) (p q k : Fin 128) :
    broadcastTo S128x128x128 (shapeCast S128x1x128 v shapeCasts_S128x128_S128x1x128) broadcasts_S128x1x128_S128x128x128 (ix3 p q k) = v (ix2 p k) := by
  refine (broadcastTo_apply _ broadcasts_S128x1x128_S128x128x128 (ix3 p q k) (ix3 p (0 : Fin 1) k) fun a => ?_).trans ?_
  · match a with
    | ⟨0, _⟩ => show p.val = if (128 : Nat) = 1 then 0 else p.val; rw [if_neg (by decide)]
    | ⟨1, _⟩ => show (0 : Nat) = if (1 : Nat) = 1 then 0 else q.val; rw [if_pos rfl]
    | ⟨2, _⟩ => show k.val = if (128 : Nat) = 1 then 0 else k.val; rw [if_neg (by decide)]
  · refine shapeCast_apply v shapeCasts_S128x128_S128x1x128 (ix3 p (0 : Fin 1) k) (ix2 p k) ?_
    rw [Shape.rowMajor_val_two, Shape.rowMajor_val_three]
    show p.val * 128 + k.val = (p.val * 1 + 0) * 128 + k.val
    omega

/-- A row block viewed [1,128,128] and repeated along the first axis reads row `q` at `(p, q, k)`. -/
theorem colRep_apply {φ : FTy} (v : FVec Ideal S128x128 φ) (p q k : Fin 128) :
    broadcastTo S128x128x128 (shapeCast S1x128x128 v shapeCasts_S128x128_S1x128x128) broadcasts_S1x128x128_S128x128x128 (ix3 p q k) = v (ix2 q k) := by
  refine (broadcastTo_apply _ broadcasts_S1x128x128_S128x128x128 (ix3 p q k) (ix3 (0 : Fin 1) q k) fun a => ?_).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
    | ⟨2, _⟩ => show k.val = if (128 : Nat) = 1 then 0 else k.val; rw [if_neg (by decide)]
  · refine shapeCast_apply v shapeCasts_S128x128_S1x128x128 (ix3 (0 : Fin 1) q k) (ix2 q k) ?_
    rw [Shape.rowMajor_val_two, Shape.rowMajor_val_three]
    show q.val * 128 + k.val = (0 * 128 + q.val) * 128 + k.val
    omega

/-- A sum along the last axis of a [128,128,128] vector, from the zero word, read at `(p, q)`. -/
theorem laneSum_apply (src : FVec Ideal S128x128x128 .f32) (hφ : FKind.Formats FTy.f32)
    (hacc : (0x00000000#32 : BitVec FTy.f32.bits) = FKind.add.neutral .f32 hφ) (p q : Fin 128) :
    multiReduction .add [2] S128x128 src 0x00000000#32 reduces_S128x128x128_S128x128 hφ hacc (ix2 p q)
      = ∑ k : Fin 128, src (ix3 p q k) := by
  refine (Ideal.multiReduction_add_single src _ reduces_S128x128x128_S128x128 hφ hacc (ix2 p q)).trans ?_
  show ∑ k : Fin 128, src (reduces_S128x128x128_S128x128.lift (ix2 p q) k) = _
  refine Finset.sum_congr rfl fun k _ => congrArg src (funext fun a => Fin.ext ?_)
  match a with
  | ⟨0, _⟩ => rfl
  | ⟨1, _⟩ => rfl
  | ⟨2, _⟩ => rfl

/-- The body's diagonal test at `(p, q)` of block `(i₀, i₁)`: the two global indices, as 32-bit words, are equal
    exactly when they are equal as numbers (both are below 1024). -/
theorem pay6_eq_one_iff (i : grid1.Coords) (p q : Fin 128) :
    k1_pay6 i (ix2 p q) = 1 ↔ (i 0).val * 128 + p.val = (i 1).val * 128 + q.val := by
  have h0 : (i 0).val < 8 := (i 0).isLt
  have h1 : (i 1).val < 8 := (i 1).isLt
  have hp : p.val < 128 := p.isLt
  have hq : q.val < 128 := q.isLt
  have e : k1_pay6 i (ix2 p q)
      = BitVec.ofBool (BitVec.ofNat 32 (i 0).val * 128#32 + BitVec.ofNat 32 p.val == BitVec.ofNat 32 (i 1).val * 128#32 + BitVec.ofNat 32 q.val) := by
    unfold k1_pay6
    show IntOp.cmpi .eq (IntOp.addi _ (iota .tc S128x128 32 [0] iota_S128x128_d0_w32 (ix2 p q)))
        (IntOp.addi _ (iota .tc S128x128 32 [1] iota_S128x128_d1_w32 (ix2 p q))) = _
    rw [iota_single_apply, iota_single_apply]
    rfl
  have key : (BitVec.ofNat 32 (i 0).val * 128#32 + BitVec.ofNat 32 p.val = BitVec.ofNat 32 (i 1).val * 128#32 + BitVec.ofNat 32 q.val)
      ↔ (i 0).val * 128 + p.val = (i 1).val * 128 + q.val := by
    rw [← BitVec.toNat_inj]
    simp only [BitVec.toNat_add, BitVec.toNat_mul, BitVec.toNat_ofNat]
    omega
  have ob : ∀ b : Bool, BitVec.ofBool b = 1 ↔ b = true := by decide
  rw [e, ob, beq_iff_eq]
  exact key

/-- The select on that test. -/
theorem select_pay6 {α : Type} (i : grid1.Coords) (p q : Fin 128) (A B : α) :
    Scalar.select (k1_pay6 i (ix2 p q)) A B = if (i 0).val * 128 + p.val = (i 1).val * 128 + q.val then A else B := by
  unfold Scalar.select
  exact if_congr (pay6_eq_one_iff i p q) rfl rfl

/-- The L1 distance of row `p` of `x` and row `q` of `y`, as the body computes it: both blocks laid out along a third
    axis, subtracted, the absolute value summed along the lanes. -/
theorem laneDist_apply (x y : FVec Ideal S128x128 .bf16) (hφ : FKind.Formats FTy.f32)
    (hacc : (0x00000000#32 : BitVec FTy.f32.bits) = FKind.add.neutral .f32 hφ) (p q : Fin 128) :
    multiReduction .add [2] S128x128
        (extf .f32 (absf (subf
          (broadcastTo S128x128x128 (shapeCast S128x1x128 x shapeCasts_S128x128_S128x1x128) broadcasts_S128x1x128_S128x128x128)
          (broadcastTo S128x128x128 (shapeCast S1x128x128 y shapeCasts_S128x128_S1x128x128) broadcasts_S1x128x128_S128x128x128))) bitsLt_bf16_f32)
        0x00000000#32 reduces_S128x128x128_S128x128 hφ hacc (ix2 p q)
      = ∑ k : Fin 128, max (x (ix2 p k) - y (ix2 q k)) (-(x (ix2 p k) - y (ix2 q k))) := by
  refine (laneSum_apply _ hφ hacc p q).trans (Finset.sum_congr rfl fun k _ => ?_)
  show max (broadcastTo S128x128x128 (shapeCast S128x1x128 x shapeCasts_S128x128_S128x1x128) broadcasts_S128x1x128_S128x128x128 (ix3 p q k)
        - broadcastTo S128x128x128 (shapeCast S1x128x128 y shapeCasts_S128x128_S1x128x128) broadcasts_S1x128x128_S128x128x128 (ix3 p q k))
      (-(broadcastTo S128x128x128 (shapeCast S128x1x128 x shapeCasts_S128x128_S128x1x128) broadcasts_S128x1x128_S128x128x128 (ix3 p q k)
        - broadcastTo S128x128x128 (shapeCast S1x128x128 y shapeCasts_S128x128_S1x128x128) broadcasts_S1x128x128_S128x128x128 (ix3 p q k))) = _
  rw [rowRep_apply, colRep_apply]

/-- The same of two f32 blocks, which the body first rounds to bf16 (the identity on extended reals). -/
theorem laneDist_f32 (x y : FVec Ideal S128x128 .f32) (hφ : FKind.Formats FTy.f32)
    (hacc : (0x00000000#32 : BitVec FTy.f32.bits) = FKind.add.neutral .f32 hφ) (p q : Fin 128) :
    multiReduction .add [2] S128x128
        (extf .f32 (absf (subf
          (broadcastTo S128x128x128 (shapeCast S128x1x128 (truncf .bf16 (shapeCast S128x128 x shapeCasts_S128x128_S128x128) bitsLt_bf16_f32) shapeCasts_S128x128_S128x1x128) broadcasts_S128x1x128_S128x128x128)
          (broadcastTo S128x128x128 (shapeCast S1x128x128 (truncf .bf16 (shapeCast S128x128 y shapeCasts_S128x128_S128x128) bitsLt_bf16_f32) shapeCasts_S128x128_S1x128x128) broadcasts_S1x128x128_S128x128x128))) bitsLt_bf16_f32)
        0x00000000#32 reduces_S128x128x128_S128x128 hφ hacc (ix2 p q)
      = ∑ k : Fin 128, max (x (ix2 p k) - y (ix2 q k)) (-(x (ix2 p k) - y (ix2 q k))) := by
  refine (laneDist_apply _ _ hφ hacc p q).trans ?_
  rw [shapeCast_self, shapeCast_self]
  rfl

/-- The edge weight the body stores to the first adjacency block at `(p, q)`. -/
theorem pay7_apply (i : grid1.Coords) (x0 x1 : Vec Ideal S128x128 .f32) (p q : Fin 128) :
    k1_pay7 i x0 x1 (ix2 p q)
      = if (i 0).val * 128 + p.val = (i 1).val * 128 + q.val then 1
        else Ideal.div 1 ((∑ k : Fin 128, max (x0 (ix2 p k) - x1 (ix2 q k)) (-(x0 (ix2 p k) - x1 (ix2 q k)))) + Cert.Spec.eps) := by
  unfold k1_pay7
  show select (k1_pay6 i) _ _ (ix2 p q) = _
  rw [select_apply, select_pay6]
  by_cases hc : (i 0).val * 128 + p.val = (i 1).val * 128 + q.val
  · rw [if_pos hc, if_pos hc]; exact ofBits_one_f32
  · rw [if_neg hc, if_neg hc]
    refine congrArg₂ Ideal.div ofBits_one_f32 (congrArg (· + Cert.Spec.eps) ?_)
    exact laneDist_f32 x0 x1 _ _ p q

/-- The second adjacency block's, from the blocks the body laid out before. -/
theorem pay1_apply1 (i : grid1.Coords) (x2 x3 : Vec Ideal S128x128 .f32) (p q : Fin 128) :
    k1_pay1 (k1_pay6 i) (k1_pay8 x3) (k1_pay9 x2) (ix2 p q)
      = if (i 0).val * 128 + p.val = (i 1).val * 128 + q.val then 1
        else Ideal.div 1 ((∑ k : Fin 128, max (x2 (ix2 p k) - x3 (ix2 q k)) (-(x2 (ix2 p k) - x3 (ix2 q k)))) + Cert.Spec.eps) := by
  unfold k1_pay1 k1_pay8 k1_pay9
  show select (k1_pay6 i) _ _ (ix2 p q) = _
  rw [select_apply, select_pay6]
  by_cases hc : (i 0).val * 128 + p.val = (i 1).val * 128 + q.val
  · rw [if_pos hc, if_pos hc]; exact ofBits_one_f32
  · rw [if_neg hc, if_neg hc]
    refine congrArg₂ Ideal.div ofBits_one_f32 (congrArg (· + Cert.Spec.eps) ?_)
    exact laneDist_f32 x2 x3 _ _ p q

/-! ## Where the blocks sit

The grid point at position `t` is `(t / 8, t % 8)`. Windows 0 and 2 read row block `t / 8`, windows 1 and 3 row
block `t % 8`; the two adjacency windows write block `(t / 8, t % 8)`. Decided once over the 64 points. -/

theorem idx_facts1 : ∀ t : Fin cfg1.N,
    ((grid1.coords t 0).val = t.val / 8 ∧ (grid1.coords t 1).val = t.val % 8)
    ∧ (win1_0.index t (0 : Fin 2) = t.val / 8 ∧ win1_0.index t (1 : Fin 2) = 0)
    ∧ (win1_1.index t (0 : Fin 2) = t.val % 8 ∧ win1_1.index t (1 : Fin 2) = 0)
    ∧ (win1_2.index t (0 : Fin 2) = t.val / 8 ∧ win1_2.index t (1 : Fin 2) = 0)
    ∧ (win1_3.index t (0 : Fin 2) = t.val % 8 ∧ win1_3.index t (1 : Fin 2) = 0)
    ∧ (win1_4.index t (0 : Fin 2) = t.val / 8 ∧ win1_4.index t (1 : Fin 2) = t.val % 8)
    ∧ (win1_5.index t (0 : Fin 2) = t.val / 8 ∧ win1_5.index t (1 : Fin 2) = t.val % 8) :=
  (by decide +kernel : ∀ t : Fin grid1.N, _)

variable (V : (c : Dev nD) → (b : Ref sig .tc) → Buf (Elt Ideal) ((c : Thread nD τ).loc b))

/-- Input window 0: the block at position `t` is rows `128 · (t.val / 8) …` of the feature array. -/
theorem iblk1_0_apply (c : Dev nD) (t : Fin cfg1.N) (p k : Fin 128) (r : Fin 1024) (hr : r.val = (t.val / 8) * 128 + p.val) :
    (iblk1 V c 0 t : Vec Ideal S128x128 .f32) (ix2 p k) = (V c (Pipeline.arrRef spec1 0) : S1024x128.Idx → EReal) (ix2 r k) := by
  obtain ⟨-, ⟨e0, e1⟩, -, -, -, -, -⟩ := idx_facts1 t
  show (V c (Pipeline.arrRef spec1 0) : S1024x128.Idx → EReal) (((cfg1.win 0).blk t).view.emb (ix2 p k)) = _
  refine congrArg (V c (Pipeline.arrRef spec1 0) : S1024x128.Idx → EReal) (funext fun a => Fin.ext ?_)
  match a with
  | ⟨0, _⟩ => show win1_0.index t (0 : Fin 2) * 128 + 1 * p.val = r.val; rw [e0, hr]; omega
  | ⟨1, _⟩ => show win1_0.index t (1 : Fin 2) * 128 + 1 * k.val = k.val; rw [e1]; omega

/-- Input window 1: the block at position `t` is rows `128 · (t.val % 8) …` of the feature array. -/
theorem iblk1_1_apply (c : Dev nD) (t : Fin cfg1.N) (p k : Fin 128) (r : Fin 1024) (hr : r.val = (t.val % 8) * 128 + p.val) :
    (iblk1 V c 1 t : Vec Ideal S128x128 .f32) (ix2 p k) = (V c (Pipeline.arrRef spec1 1) : S1024x128.Idx → EReal) (ix2 r k) := by
  obtain ⟨-, -, ⟨e0, e1⟩, -, -, -, -⟩ := idx_facts1 t
  show (V c (Pipeline.arrRef spec1 1) : S1024x128.Idx → EReal) (((cfg1.win 1).blk t).view.emb (ix2 p k)) = _
  refine congrArg (V c (Pipeline.arrRef spec1 1) : S1024x128.Idx → EReal) (funext fun a => Fin.ext ?_)
  match a with
  | ⟨0, _⟩ => show win1_1.index t (0 : Fin 2) * 128 + 1 * p.val = r.val; rw [e0, hr]; omega
  | ⟨1, _⟩ => show win1_1.index t (1 : Fin 2) * 128 + 1 * k.val = k.val; rw [e1]; omega

/-- Input window 2: the block at position `t` is rows `128 · (t.val / 8) …` of the feature array. -/
theorem iblk1_2_apply (c : Dev nD) (t : Fin cfg1.N) (p k : Fin 128) (r : Fin 1024) (hr : r.val = (t.val / 8) * 128 + p.val) :
    (iblk1 V c 2 t : Vec Ideal S128x128 .f32) (ix2 p k) = (V c (Pipeline.arrRef spec1 2) : S1024x128.Idx → EReal) (ix2 r k) := by
  obtain ⟨-, -, -, ⟨e0, e1⟩, -, -, -⟩ := idx_facts1 t
  show (V c (Pipeline.arrRef spec1 2) : S1024x128.Idx → EReal) (((cfg1.win 2).blk t).view.emb (ix2 p k)) = _
  refine congrArg (V c (Pipeline.arrRef spec1 2) : S1024x128.Idx → EReal) (funext fun a => Fin.ext ?_)
  match a with
  | ⟨0, _⟩ => show win1_2.index t (0 : Fin 2) * 128 + 1 * p.val = r.val; rw [e0, hr]; omega
  | ⟨1, _⟩ => show win1_2.index t (1 : Fin 2) * 128 + 1 * k.val = k.val; rw [e1]; omega

/-- Input window 3: the block at position `t` is rows `128 · (t.val % 8) …` of the feature array. -/
theorem iblk1_3_apply (c : Dev nD) (t : Fin cfg1.N) (p k : Fin 128) (r : Fin 1024) (hr : r.val = (t.val % 8) * 128 + p.val) :
    (iblk1 V c 3 t : Vec Ideal S128x128 .f32) (ix2 p k) = (V c (Pipeline.arrRef spec1 3) : S1024x128.Idx → EReal) (ix2 r k) := by
  obtain ⟨-, -, -, -, ⟨e0, e1⟩, -, -⟩ := idx_facts1 t
  show (V c (Pipeline.arrRef spec1 3) : S1024x128.Idx → EReal) (((cfg1.win 3).blk t).view.emb (ix2 p k)) = _
  refine congrArg (V c (Pipeline.arrRef spec1 3) : S1024x128.Idx → EReal) (funext fun a => Fin.ext ?_)
  match a with
  | ⟨0, _⟩ => show win1_3.index t (0 : Fin 2) * 128 + 1 * p.val = r.val; rw [e0, hr]; omega
  | ⟨1, _⟩ => show win1_3.index t (1 : Fin 2) * 128 + 1 * k.val = k.val; rw [e1]; omega

/-! ## A point's stored values are entries of the edge-weight matrix -/

/-- From two blocks that are rows of one feature array `a`: the body's edge weight at `(p, q)` is the specification's
    at the global rows. -/
theorem adj_of_rows (a : S1024x128.Idx → EReal) (i : grid1.Coords) (x y : Vec Ideal S128x128 .f32) (p q : Fin 128) (r s : Fin 1024)
    (hr : r.val = (i 0).val * 128 + p.val) (hs : s.val = (i 1).val * 128 + q.val)
    (hx : ∀ k : Fin 128, x (ix2 p k) = a (ix2 r k)) (hy : ∀ k : Fin 128, y (ix2 q k) = a (ix2 s k)) :
    (if (i 0).val * 128 + p.val = (i 1).val * 128 + q.val then (1 : EReal)
      else Ideal.div 1 ((∑ k : Fin 128, max (x (ix2 p k) - y (ix2 q k)) (-(x (ix2 p k) - y (ix2 q k)))) + Cert.Spec.eps))
      = Cert.Spec.adj (fun r k => a (ix2 r k)) r s := by
  unfold Cert.Spec.adj Cert.Spec.dist
  have hc : ((i 0).val * 128 + p.val = (i 1).val * 128 + q.val) ↔ r = s := by rw [← hr, ← hs]; exact Fin.val_inj
  by_cases h : r = s
  · rw [if_pos (hc.mpr h), if_pos h]
  · rw [if_neg (fun h' => h (hc.mp h')), if_neg h]
    refine congrArg (fun d : EReal => Ideal.div 1 (d + Cert.Spec.eps)) (Finset.sum_congr rfl fun k _ => ?_)
    rw [hx k, hy k]

/-! ## Output window 4 -/

/-- The entry the body computes at `(p, q)` of position `t` is the edge weight of the time features between the global
    rows `r = (t / 8) · 128 + p` and `s = (t % 8) · 128 + q`. -/
theorem adjT_entry (c : Dev nD) (t : Fin cfg1.N) (p q : Fin 128) (r s : Fin 1024)
    (hr : r.val = t.val / 8 * 128 + p.val) (hs : s.val = t.val % 8 * 128 + q.val) :
    k1_pay7 (grid1.coords t) (iblk1 V c 0 t) (iblk1 V c 1 t) (ix2 p q)
      = Cert.Spec.adj (fun r k => (V c main_v7_0 : S1024x128.Idx → EReal) (ix2 r k)) r s := by
  obtain ⟨⟨g0, g1⟩, -⟩ := idx_facts1 t
  refine (pay7_apply (grid1.coords t) _ _ p q).trans ?_
  refine adj_of_rows (V c (Pipeline.arrRef spec1 0) : S1024x128.Idx → EReal) (grid1.coords t) _ _ p q r s (by rw [g0]; exact hr) (by rw [g1]; exact hs)
    (fun k => iblk1_0_apply V c t p k r hr) (fun k => ?_)
  exact iblk1_1_apply V c t q k s hs

/-- What the body leaves in window 4's buffer at position `t`, in either case of the branch. -/
theorem after1_4_eq (c : Dev nD) (t : Fin cfg1.N) :
    (dat1 V c).after 4 t = k1_pay7 (grid1.coords t) (iblk1 V c 0 t) (iblk1 V c 1 t) := by
  rw [after1_4]
  by_cases h0 : t.val % 8 = 0
  · rw [outsAt1_A V c t h0, outs1_A_4]
  · rw [outsAt1_B V c t h0, outs1_B_4]

/-- What position `t` writes back of window 4 is block `(t / 8, t % 8)` of the edge-weight matrix of the time features. -/
theorem flushed1_4_eq (c : Dev nD) (t : Fin cfg1.N) :
    (dat1 V c).flushed 4 t = ((cfg1.win 4).blk t).view.read (Elt Ideal)
      (fun i : S1024x1024.Idx => Cert.Spec.adj (fun r k => (V c main_v7_0 : S1024x128.Idx → EReal) (ix2 r k)) (i 0) (i 1)) := by
  show (cfg1.win 4).cut (grid1.coords t) ((dat1 V c).after 4 t) = _
  rw [after1_4_eq]
  obtain ⟨-, -, -, -, -, ⟨e0, e1⟩, -⟩ := idx_facts1 t
  funext j
  obtain ⟨p, q, rfl⟩ : ∃ (p : Fin 128) (q : Fin 128), j = ix2 p q := ⟨j 0, j 1, eq_ix2 j⟩
  have ht : t.val < 64 := by have h := t.isLt; have h4 : cfg1.N = 64 := N_1; omega
  have hr : t.val / 8 * 128 + p.val < 1024 := by omega
  have hs : t.val % 8 * 128 + q.val < 1024 := by omega
  have he : ((cfg1.win 4).blk t).view.emb (ix2 p q) = (ix2 (⟨t.val / 8 * 128 + p.val, hr⟩ : Fin 1024) (⟨t.val % 8 * 128 + q.val, hs⟩ : Fin 1024) : S1024x1024.Idx) :=
    funext fun a => Fin.ext (by
      match a with
      | ⟨0, _⟩ => show win1_4.index t (0 : Fin 2) * 128 + 1 * p.val = t.val / 8 * 128 + p.val; rw [e0]; omega
      | ⟨1, _⟩ => show win1_4.index t (1 : Fin 2) * 128 + 1 * q.val = t.val % 8 * 128 + q.val; rw [e1]; omega)
  show k1_pay7 (grid1.coords t) (iblk1 V c 0 t) (iblk1 V c 1 t) (ix2 p q) = (fun i : S1024x1024.Idx => Cert.Spec.adj (fun r k => (V c main_v7_0 : S1024x128.Idx → EReal) (ix2 r k)) (i 0) (i 1)) (((cfg1.win 4).blk t).view.emb (ix2 p q))
  rw [he]
  exact adjT_entry V c t p q ⟨_, hr⟩ ⟨_, hs⟩ rfl rfl

/-- An index of the matrix lies in position `t`'s block iff each coordinate lies in the block's range. -/
theorem mem_blk1_4 (t : Fin cfg1.N) (i : S1024x1024.Idx) :
    i ∈ ((cfg1.win 4).blk t).view.set ↔ ∀ a : Fin 2, win1_4.index t a * S128x128.size a ≤ (i a).val ∧ (i a).val < win1_4.index t a * S128x128.size a + S128x128.size a := by
  show i ∈ ((View.whole main_v8_0).slice (win1_4.rect t)).set ↔ _
  rw [View.set_slice_whole, Rect.mem_set_unit]
  exact Iff.rfl

/-- Every entry is in some position's block: entry `(r, s)` in that of position `8 (r / 128) + s / 128`. -/
theorem covered1_4 (i : S1024x1024.Idx) : ∃ t : Fin cfg1.N, (cfg1.win 4).flush t = true ∧ i ∈ ((cfg1.win 4).blk t).view.set := by
  have hi0 : (i 0).val < 1024 := (i 0).isLt
  have hi1 : (i 1).val < 1024 := (i 1).isLt
  have ht : 8 * ((i 0).val / 128) + (i 1).val / 128 < cfg1.N := by rw [show cfg1.N = 64 from N_1]; omega
  obtain ⟨-, -, -, -, -, ⟨e0, e1⟩, -⟩ := idx_facts1 ⟨8 * ((i 0).val / 128) + (i 1).val / 128, ht⟩
  refine ⟨⟨8 * ((i 0).val / 128) + (i 1).val / 128, ht⟩, flush1_4 _, ?_⟩
  rw [mem_blk1_4]
  intro a
  match a with
  | ⟨0, _⟩ =>
    show win1_4.index ⟨8 * ((i 0).val / 128) + (i 1).val / 128, ht⟩ (0 : Fin 2) * 128 ≤ (i 0).val ∧ (i 0).val < win1_4.index ⟨8 * ((i 0).val / 128) + (i 1).val / 128, ht⟩ (0 : Fin 2) * 128 + 128
    rw [e0]; show (8 * ((i 0).val / 128) + (i 1).val / 128) / 8 * 128 ≤ (i 0).val ∧ (i 0).val < (8 * ((i 0).val / 128) + (i 1).val / 128) / 8 * 128 + 128; omega
  | ⟨1, _⟩ =>
    show win1_4.index ⟨8 * ((i 0).val / 128) + (i 1).val / 128, ht⟩ (1 : Fin 2) * 128 ≤ (i 1).val ∧ (i 1).val < win1_4.index ⟨8 * ((i 0).val / 128) + (i 1).val / 128, ht⟩ (1 : Fin 2) * 128 + 128
    rw [e1]; show (8 * ((i 0).val / 128) + (i 1).val / 128) % 8 * 128 ≤ (i 1).val ∧ (i 1).val < (8 * ((i 0).val / 128) + (i 1).val / 128) % 8 * 128 + 128; omega

/-- The matrix of window 4 after the call: the edge weights of the time features. -/
theorem final1_4 (c : Dev nD) : (dat1 V c).arrAt 4 cfg1.N
    = fun i : S1024x1024.Idx => Cert.Spec.adj (fun r k => (V c main_v7_0 : S1024x128.Idx → EReal) (ix2 r k)) (i 0) (i 1) :=
  (dat1 V c).arrAt_eq_of_cover 4 _ (fun t _ => flushed1_4_eq V c t) covered1_4

/-! ## Output window 5 -/

/-- The entry the body computes at `(p, q)` of position `t` is the edge weight of the frequency features between the global
    rows `r = (t / 8) · 128 + p` and `s = (t % 8) · 128 + q`. -/
theorem adjF_entry (c : Dev nD) (t : Fin cfg1.N) (p q : Fin 128) (r s : Fin 1024)
    (hr : r.val = t.val / 8 * 128 + p.val) (hs : s.val = t.val % 8 * 128 + q.val) :
    k1_pay1 (k1_pay6 (grid1.coords t)) (k1_pay8 (iblk1 V c 3 t)) (k1_pay9 (iblk1 V c 2 t)) (ix2 p q)
      = Cert.Spec.adj (fun r k => (V c main_v7_1 : S1024x128.Idx → EReal) (ix2 r k)) r s := by
  obtain ⟨⟨g0, g1⟩, -⟩ := idx_facts1 t
  refine (pay1_apply1 (grid1.coords t) _ _ p q).trans ?_
  refine adj_of_rows (V c (Pipeline.arrRef spec1 2) : S1024x128.Idx → EReal) (grid1.coords t) _ _ p q r s (by rw [g0]; exact hr) (by rw [g1]; exact hs)
    (fun k => iblk1_2_apply V c t p k r hr) (fun k => ?_)
  exact iblk1_3_apply V c t q k s hs

/-- What the body leaves in window 5's buffer at position `t`, in either case of the branch. -/
theorem after1_5_eq (c : Dev nD) (t : Fin cfg1.N) :
    (dat1 V c).after 5 t = k1_pay1 (k1_pay6 (grid1.coords t)) (k1_pay8 (iblk1 V c 3 t)) (k1_pay9 (iblk1 V c 2 t)) := by
  rw [after1_5]
  by_cases h0 : t.val % 8 = 0
  · rw [outsAt1_A V c t h0, outs1_A_5]
  · rw [outsAt1_B V c t h0, outs1_B_5]

/-- What position `t` writes back of window 5 is block `(t / 8, t % 8)` of the edge-weight matrix of the frequency features. -/
theorem flushed1_5_eq (c : Dev nD) (t : Fin cfg1.N) :
    (dat1 V c).flushed 5 t = ((cfg1.win 5).blk t).view.read (Elt Ideal)
      (fun i : S1024x1024.Idx => Cert.Spec.adj (fun r k => (V c main_v7_1 : S1024x128.Idx → EReal) (ix2 r k)) (i 0) (i 1)) := by
  show (cfg1.win 5).cut (grid1.coords t) ((dat1 V c).after 5 t) = _
  rw [after1_5_eq]
  obtain ⟨-, -, -, -, -, -, ⟨e0, e1⟩⟩ := idx_facts1 t
  funext j
  obtain ⟨p, q, rfl⟩ : ∃ (p : Fin 128) (q : Fin 128), j = ix2 p q := ⟨j 0, j 1, eq_ix2 j⟩
  have ht : t.val < 64 := by have h := t.isLt; have h4 : cfg1.N = 64 := N_1; omega
  have hr : t.val / 8 * 128 + p.val < 1024 := by omega
  have hs : t.val % 8 * 128 + q.val < 1024 := by omega
  have he : ((cfg1.win 5).blk t).view.emb (ix2 p q) = (ix2 (⟨t.val / 8 * 128 + p.val, hr⟩ : Fin 1024) (⟨t.val % 8 * 128 + q.val, hs⟩ : Fin 1024) : S1024x1024.Idx) :=
    funext fun a => Fin.ext (by
      match a with
      | ⟨0, _⟩ => show win1_5.index t (0 : Fin 2) * 128 + 1 * p.val = t.val / 8 * 128 + p.val; rw [e0]; omega
      | ⟨1, _⟩ => show win1_5.index t (1 : Fin 2) * 128 + 1 * q.val = t.val % 8 * 128 + q.val; rw [e1]; omega)
  show k1_pay1 (k1_pay6 (grid1.coords t)) (k1_pay8 (iblk1 V c 3 t)) (k1_pay9 (iblk1 V c 2 t)) (ix2 p q) = (fun i : S1024x1024.Idx => Cert.Spec.adj (fun r k => (V c main_v7_1 : S1024x128.Idx → EReal) (ix2 r k)) (i 0) (i 1)) (((cfg1.win 5).blk t).view.emb (ix2 p q))
  rw [he]
  exact adjF_entry V c t p q ⟨_, hr⟩ ⟨_, hs⟩ rfl rfl

/-- An index of the matrix lies in position `t`'s block iff each coordinate lies in the block's range. -/
theorem mem_blk1_5 (t : Fin cfg1.N) (i : S1024x1024.Idx) :
    i ∈ ((cfg1.win 5).blk t).view.set ↔ ∀ a : Fin 2, win1_5.index t a * S128x128.size a ≤ (i a).val ∧ (i a).val < win1_5.index t a * S128x128.size a + S128x128.size a := by
  show i ∈ ((View.whole main_v8_1).slice (win1_5.rect t)).set ↔ _
  rw [View.set_slice_whole, Rect.mem_set_unit]
  exact Iff.rfl

/-- Every entry is in some position's block: entry `(r, s)` in that of position `8 (r / 128) + s / 128`. -/
theorem covered1_5 (i : S1024x1024.Idx) : ∃ t : Fin cfg1.N, (cfg1.win 5).flush t = true ∧ i ∈ ((cfg1.win 5).blk t).view.set := by
  have hi0 : (i 0).val < 1024 := (i 0).isLt
  have hi1 : (i 1).val < 1024 := (i 1).isLt
  have ht : 8 * ((i 0).val / 128) + (i 1).val / 128 < cfg1.N := by rw [show cfg1.N = 64 from N_1]; omega
  obtain ⟨-, -, -, -, -, -, ⟨e0, e1⟩⟩ := idx_facts1 ⟨8 * ((i 0).val / 128) + (i 1).val / 128, ht⟩
  refine ⟨⟨8 * ((i 0).val / 128) + (i 1).val / 128, ht⟩, flush1_5 _, ?_⟩
  rw [mem_blk1_5]
  intro a
  match a with
  | ⟨0, _⟩ =>
    show win1_5.index ⟨8 * ((i 0).val / 128) + (i 1).val / 128, ht⟩ (0 : Fin 2) * 128 ≤ (i 0).val ∧ (i 0).val < win1_5.index ⟨8 * ((i 0).val / 128) + (i 1).val / 128, ht⟩ (0 : Fin 2) * 128 + 128
    rw [e0]; show (8 * ((i 0).val / 128) + (i 1).val / 128) / 8 * 128 ≤ (i 0).val ∧ (i 0).val < (8 * ((i 0).val / 128) + (i 1).val / 128) / 8 * 128 + 128; omega
  | ⟨1, _⟩ =>
    show win1_5.index ⟨8 * ((i 0).val / 128) + (i 1).val / 128, ht⟩ (1 : Fin 2) * 128 ≤ (i 1).val ∧ (i 1).val < win1_5.index ⟨8 * ((i 0).val / 128) + (i 1).val / 128, ht⟩ (1 : Fin 2) * 128 + 128
    rw [e1]; show (8 * ((i 0).val / 128) + (i 1).val / 128) % 8 * 128 ≤ (i 1).val ∧ (i 1).val < (8 * ((i 0).val / 128) + (i 1).val / 128) % 8 * 128 + 128; omega

/-- The matrix of window 5 after the call: the edge weights of the frequency features. -/
theorem final1_5 (c : Dev nD) : (dat1 V c).arrAt 5 cfg1.N
    = fun i : S1024x1024.Idx => Cert.Spec.adj (fun r k => (V c main_v7_1 : S1024x128.Idx → EReal) (ix2 r k)) (i 0) (i 1) :=
  (dat1 V c).arrAt_eq_of_cover 5 _ (fun t _ => flushed1_5_eq V c t) covered1_5

end Cert.KernelIdeal.Hand

end
-- ==== Proof.KI.R1ValueDeg.lean ====
/- The adjacency kernel's two degree columns, the value at the extended reals: each column block is cleared at the first
   of the eight grid points of its row block and has the row sums of that point's 128×128 adjacency block added at every
   point, so after the eighth it holds, row by row, the sum of the 1024 entries of the row of the table the blocks are cut
   from; the last point of each row block writes the block back, and the eight row blocks tile the column. -/
import proofs.«152008_j55130200211709_2_alg».proof.Proof.KI.R1ValueAdj
import Idealize.ShloMosaic.Lib.Pipeline.Value
import Idealize.ShloMosaic.Lib.ValueIdx
import Idealize.ShloMosaic.PureOps.Ideal.Laws
import proofs.«152008_j55130200211709_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ### The column step at an index -/

/-- The lane sum of a 128×128 block, read at row `p`: the sum of the row's entries. -/
theorem rowSum128_apply (src : FVec Ideal S128x128 .f32) (h : S128x128.Reduces [1] S128) (hφ : FKind.Formats .f32)
    (hacc : (0x00000000#32 : BitVec 32) = 0x00000000#32) (p : Fin 128) :
    multiReduction .add [1] S128 src 0x00000000#32 h hφ hacc (ix1 p) = ∑ q : Fin 128, src (ix2 p q) := by
  refine (Ideal.multiReduction_add_single src 0x00000000#32 h hφ hacc (ix1 p)).trans ?_
  refine Finset.sum_congr rfl fun q _ => congrArg src (funext fun a => Fin.ext ?_)
  match a with
  | ⟨0, _⟩ => rfl
  | ⟨1, _⟩ => rfl

/-- A vector of 128 entries viewed as a 128×1 column reads, at row `p`, entry `p`. -/
theorem col128_apply {α : Type} (v : S128.Idx → α) (h : S128.ShapeCasts S128x1) (p : Fin 128) :
    shapeCast S128x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- The first stream's column step at row `p`: what the column held plus the row sum of the block. -/
theorem k1pay2_apply (v31 : FVec Ideal S128x128 .f32) (v54 : Vec Ideal S128x1 .f32) (p : Fin 128) :
    k1_pay2 v31 v54 (ix2 p (0 : Fin 1)) = v54 (ix2 p (0 : Fin 1)) + ∑ q : Fin 128, v31 (ix2 p q) := by
  unfold k1_pay2
  simp only [shapeCast_self]
  rw [addf_apply, col128_apply]
  exact congrArg _ (rowSum128_apply v31 _ _ _ p)

/-- The second stream's column step at row `p`. -/
theorem k1pay3_apply (v11 : IVec S128x128 1) (v39 : FVec Ideal S1x128x128 .bf16) (v40 : FVec Ideal S128x128x128 .bf16)
    (v60 : Vec Ideal S128x1 .f32) (p : Fin 128) :
    k1_pay3 v11 v39 v40 v60 (ix2 p (0 : Fin 1)) = v60 (ix2 p (0 : Fin 1)) + ∑ q : Fin 128, k1_pay1 v11 v39 v40 (ix2 p q) := by
  unfold k1_pay3
  simp only [shapeCast_self]
  rw [addf_apply, col128_apply]
  exact congrArg _ (rowSum128_apply _ _ _ _ p)

/-- The cleared columns are zero. -/
theorem k1pay4_apply (i : S128x1.Idx) : k1_pay4 (F := Ideal) i = 0 := by
  unfold k1_pay4
  rw [broadcast_apply]
  exact Ideal.ofBits_zero_f32
theorem k1pay5_apply (i : S128x1.Idx) : k1_pay5 (F := Ideal) i = 0 := by
  unfold k1_pay5
  rw [broadcast_apply]
  exact Ideal.ofBits_zero_f32

/-! ### The accumulation over a row of grid points -/

/-- A column block that is cleared at the first of every eight points and has a block's row sums added at each point:
    if the block at the point with inner position `j` holds, in row `p`, the entries `128 j … 128 j + 127` of a sequence `f`,
    then after that point the column's row `p` holds the sum of the first `128 (j + 1)` entries of `f`. -/
theorem col_acc {N : ℕ} (D : (n : ℕ) → n < N → S128x1.Idx → EReal) (B : (n : ℕ) → n < N → S128x128.Idx → EReal)
    (hA : ∀ n h, n % 8 = 0 → ∀ p : Fin 128, D n h (ix2 p (0 : Fin 1)) = 0 + ∑ q : Fin 128, B n h (ix2 p q))
    (hB : ∀ n (h : n + 1 < N), ¬(n + 1) % 8 = 0 → ∀ p : Fin 128,
      D (n + 1) h (ix2 p (0 : Fin 1)) = D n (Nat.lt_of_succ_lt h) (ix2 p (0 : Fin 1)) + ∑ q : Fin 128, B (n + 1) h (ix2 p q))
    (i : ℕ) (p : Fin 128) (f : ℕ → EReal)
    (hf : ∀ n h, n / 8 = i → ∀ q : Fin 128, B n h (ix2 p q) = f (n % 8 * 128 + q.val)) :
    ∀ n h, n / 8 = i → D n h (ix2 p (0 : Fin 1)) = ∑ s ∈ Finset.range ((n % 8 + 1) * 128), f s := by
  have first : ∀ m h, m % 8 = 0 → m / 8 = i → D m h (ix2 p (0 : Fin 1)) = ∑ s ∈ Finset.range ((m % 8 + 1) * 128), f s := by
    intro m h hm hi
    rw [hA m h hm p, zero_add, hm, show (0 + 1) * 128 = 128 from rfl, Finset.sum_range]
    refine Finset.sum_congr rfl fun q _ => ?_
    rw [hf m h hi q, hm, Nat.zero_mul, Nat.zero_add]
  intro n
  induction n with
  | zero => exact fun h hi => first 0 h rfl hi
  | succ n ih =>
    intro h hi
    by_cases h0 : (n + 1) % 8 = 0
    · exact first (n + 1) h h0 hi
    · rw [hB n h h0 p, ih (Nat.lt_of_succ_lt h) (by omega),
        show ((n + 1) % 8 + 1) * 128 = (n % 8 + 1) * 128 + 128 from by omega, Finset.sum_range_add]
      congr 1
      rw [Finset.sum_range]
      refine Finset.sum_congr rfl fun q _ => ?_
      rw [hf (n + 1) h hi q, show (n + 1) % 8 = n % 8 + 1 from by omega]

/-! ### The degree columns' windows over the grid -/

/-- Both degree columns' block at point `t` is row block `t / 8`, column block 0. -/
theorem idx_facts1_deg : ∀ t : Fin cfg1.N,
    win1_6.index t (0 : Fin 2) = t.val / 8 ∧ win1_6.index t (1 : Fin 2) = 0
    ∧ win1_7.index t (0 : Fin 2) = t.val / 8 ∧ win1_7.index t (1 : Fin 2) = 0 :=
  (by decide +kernel : ∀ t : Fin grid1.N, _)

/-- A row of a 1024×1024 table as a sequence, zero past its end. -/
def rowSeq (E : Fin 1024 → Fin 1024 → EReal) (r : Fin 1024) (s : ℕ) : EReal := if h : s < 1024 then E r ⟨s, h⟩ else 0

/-- The column of row sums of a 1024×1024 table. -/
def degArr (E : Fin 1024 → Fin 1024 → EReal) : Vec Ideal S1024x1 .f32 := fun i => ∑ l : Fin 1024, E (i 0) l

theorem sum_rowSeq (E : Fin 1024 → Fin 1024 → EReal) (r : Fin 1024) : ∑ s ∈ Finset.range 1024, rowSeq E r s = ∑ l : Fin 1024, E r l := by
  rw [Finset.sum_range]
  exact Finset.sum_congr rfl fun l _ => by unfold rowSeq; exact dif_pos l.isLt

section Region1Deg

variable (V : (c : Dev nD) → (b : Ref sig .tc) → Buf (Elt Ideal) ((c : Thread nD τ).loc b))

/-- The two streams' adjacency blocks at point `t`, from the input blocks there. -/
def blkT1 (c : Dev nD) (t : Fin cfg1.N) : Vec Ideal S128x128 .f32 := k1_pay7 (grid1.coords t) (iblk1 V c 0 t) (iblk1 V c 1 t)
def blkF1 (c : Dev nD) (t : Fin cfg1.N) : Vec Ideal S128x128 .f32 :=
  k1_pay1 (k1_pay6 (grid1.coords t)) (k1_pay8 (iblk1 V c 3 t)) (k1_pay9 (iblk1 V c 2 t))

/-- The first column after a point with j = 0: cleared, then the block's row sums added. -/
theorem col6_A (c : Dev nD) (t : Fin cfg1.N) (h0 : t.val % 8 = 0) :
    (outsAt1 V c t.val t.isLt).2.2.1 = k1_pay2 (F := Ideal) (blkT1 V c t) (k1_pay4 (F := Ideal)) := by
  rw [outsAt1_A V c t h0, outs1_A_eq]; rfl
/-- The first column after a point with j > 0: the block's row sums added to what the point before left. -/
theorem col6_B (c : Dev nD) (t : Fin cfg1.N) (h0 : ¬t.val % 8 = 0) :
    (outsAt1 V c t.val t.isLt).2.2.1
      = k1_pay2 (F := Ideal) (blkT1 V c t) (outsAt1 V c (t.val - 1) (Nat.lt_of_le_of_lt (Nat.sub_le _ _) t.isLt)).2.2.1 := by
  rw [outsAt1_B V c t h0, outs1_B_eq]; rfl
theorem col7_A (c : Dev nD) (t : Fin cfg1.N) (h0 : t.val % 8 = 0) :
    (outsAt1 V c t.val t.isLt).2.2.2 = k1_pay3 (k1_pay6 (grid1.coords t)) (k1_pay8 (iblk1 V c 3 t)) (k1_pay9 (iblk1 V c 2 t)) (k1_pay5 (F := Ideal)) := by
  rw [outsAt1_A V c t h0, outs1_A_eq]
theorem col7_B (c : Dev nD) (t : Fin cfg1.N) (h0 : ¬t.val % 8 = 0) :
    (outsAt1 V c t.val t.isLt).2.2.2
      = k1_pay3 (k1_pay6 (grid1.coords t)) (k1_pay8 (iblk1 V c 3 t)) (k1_pay9 (iblk1 V c 2 t))
          (outsAt1 V c (t.val - 1) (Nat.lt_of_le_of_lt (Nat.sub_le _ _) t.isLt)).2.2.2 := by
  rw [outsAt1_B V c t h0, outs1_B_eq]

/-- After point `t` the first column's row `p` holds the sum of the first `128 (t % 8 + 1)` entries of row `r` of the table
    the blocks are cut from, `r` the array's row under row `p` of row block `t / 8`. -/
theorem deg6_inv (c : Dev nD) (E : Fin 1024 → Fin 1024 → EReal)
    (hE : ∀ (t : Fin cfg1.N) (p q : Fin 128) (r s : Fin 1024), r.val = t.val / 8 * 128 + p.val → s.val = t.val % 8 * 128 + q.val →
      blkT1 V c t (ix2 p q) = E r s)
    (t : Fin cfg1.N) (p : Fin 128) (r : Fin 1024) (hr : r.val = t.val / 8 * 128 + p.val) :
    (outsAt1 V c t.val t.isLt).2.2.1 (ix2 p (0 : Fin 1)) = ∑ s ∈ Finset.range ((t.val % 8 + 1) * 128), rowSeq E r s := by
  have hN : cfg1.N = 64 := N_1
  refine col_acc (N := cfg1.N) (fun n h => (outsAt1 V c n h).2.2.1) (fun n h => blkT1 V c ⟨n, h⟩) ?_ ?_ (t.val / 8) p (rowSeq E r) ?_
    t.val t.isLt rfl
  · intro n h hm p'
    refine (congrFun (col6_A V c ⟨n, h⟩ hm) _).trans ?_
    rw [k1pay2_apply, k1pay4_apply]
  · intro n h h0 p'
    refine (congrFun (col6_B V c ⟨n + 1, h⟩ h0) _).trans ?_
    rw [k1pay2_apply]; rfl
  · intro n h hi q
    have hn : n < 64 := hN ▸ h
    have hs : n % 8 * 128 + q.val < 1024 := by have := q.isLt; omega
    rw [hE ⟨n, h⟩ p q r ⟨n % 8 * 128 + q.val, hs⟩ (by show r.val = n / 8 * 128 + p.val; rw [hi]; exact hr) rfl]
    unfold rowSeq
    rw [dif_pos hs]

/-- What a flushing point writes back to the first column's array: its block of the table's row sums. -/
theorem flushed1_6_eq (c : Dev nD) (E : Fin 1024 → Fin 1024 → EReal)
    (hE : ∀ (t : Fin cfg1.N) (p q : Fin 128) (r s : Fin 1024), r.val = t.val / 8 * 128 + p.val → s.val = t.val % 8 * 128 + q.val →
      blkT1 V c t (ix2 p q) = E r s)
    (t : Fin cfg1.N) (hfl : (cfg1.win 6).flush t = true) :
    (dat1 V c).flushed 6 t = ((cfg1.win 6).blk t).view.read (Elt Ideal) (degArr E) := by
  have h7 : t.val % 8 = 7 := (flush1_6 t).mp hfl
  show (cfg1.win 6).cut (grid1.coords t) ((dat1 V c).after 6 t) = _
  rw [after1_6]
  obtain ⟨e0, e1, -⟩ := idx_facts1_deg t
  funext y
  obtain ⟨p, z, rfl⟩ : ∃ (p : Fin 128) (z : Fin 1), y = ix2 p z := ⟨y 0, y 1, eq_ix2 y⟩
  obtain rfl : z = 0 := Subsingleton.elim _ _
  refine (deg6_inv V c E hE t p (((cfg1.win 6).blk t).view.emb (ix2 p (0 : Fin 1)) 0)
    (by show win1_6.index t (0 : Fin 2) * 128 + 1 * p.val = t.val / 8 * 128 + p.val; omega)).trans ?_
  rw [h7]
  exact sum_rowSeq E _

/-- An index of a degree column's array is in point `t`'s block iff each coordinate is in the block's range on its axis. -/
theorem mem_blk1_6 (t : Fin cfg1.N) (i : S1024x1.Idx) :
    i ∈ ((cfg1.win 6).blk t).view.set ↔ ∀ a : Fin 2, win1_6.index t a * S128x1.size a ≤ (i a).val ∧ (i a).val < win1_6.index t a * S128x1.size a + S128x1.size a := by
  show i ∈ ((View.whole main_v8_2).slice (win1_6.rect t)).set ↔ _
  rw [View.set_slice_whole, Rect.mem_set_unit]
  exact Iff.rfl

/-- Row `r` of the column is written back by the last point of row block `r / 128`. -/
theorem arr_cover1_6 (i : S1024x1.Idx) :
    ∃ t : Fin cfg1.N, (cfg1.win 6).flush t = true ∧ i ∈ ((cfg1.win 6).blk t).view.set := by
  have hi0 : (i 0).val < 1024 := (i 0).isLt
  have hi1 : (i 1).val < 1 := (i 1).isLt
  have hN : cfg1.N = 64 := N_1
  have ht : (i 0).val / 128 * 8 + 7 < cfg1.N := by omega
  obtain ⟨e0, e1, -⟩ := idx_facts1_deg ⟨(i 0).val / 128 * 8 + 7, ht⟩
  refine ⟨⟨(i 0).val / 128 * 8 + 7, ht⟩, (flush1_6 _).mpr (by show ((i 0).val / 128 * 8 + 7) % 8 = 7; omega), ?_⟩
  rw [mem_blk1_6]
  intro a
  match a with
  | ⟨0, _⟩ =>
    show win1_6.index ⟨(i 0).val / 128 * 8 + 7, ht⟩ (0 : Fin 2) * 128 ≤ (i 0).val ∧ (i 0).val < win1_6.index ⟨(i 0).val / 128 * 8 + 7, ht⟩ (0 : Fin 2) * 128 + 128
    rw [e0]; show ((i 0).val / 128 * 8 + 7) / 8 * 128 ≤ (i 0).val ∧ (i 0).val < ((i 0).val / 128 * 8 + 7) / 8 * 128 + 128; omega
  | ⟨1, _⟩ =>
    show win1_6.index ⟨(i 0).val / 128 * 8 + 7, ht⟩ (1 : Fin 2) * 1 ≤ (i 1).val ∧ (i 1).val < win1_6.index ⟨(i 0).val / 128 * 8 + 7, ht⟩ (1 : Fin 2) * 1 + 1
    rw [e1]; omega

/-- The first degree column after the region's run: the row sums of the table its blocks are cut from. -/
theorem final1_6_of (c : Dev nD) (E : Fin 1024 → Fin 1024 → EReal)
    (hE : ∀ (t : Fin cfg1.N) (p q : Fin 128) (r s : Fin 1024), r.val = t.val / 8 * 128 + p.val → s.val = t.val % 8 * 128 + q.val →
      blkT1 V c t (ix2 p q) = E r s) :
    (dat1 V c).arrAt 6 cfg1.N = degArr E :=
  (dat1 V c).arrAt_eq_of_cover 6 _ (fun t hfl => flushed1_6_eq V c E hE t hfl) arr_cover1_6

end Region1Deg

section Region1Deg7

variable (V : (c : Dev nD) → (b : Ref sig .tc) → Buf (Elt Ideal) ((c : Thread nD τ).loc b))

/-- After point `t` the second column's row `p` holds the sum of the first `128 (t % 8 + 1)` entries of row `r` of the table
    the second stream's blocks are cut from. -/
theorem deg7_inv (c : Dev nD) (E : Fin 1024 → Fin 1024 → EReal)
    (hE : ∀ (t : Fin cfg1.N) (p q : Fin 128) (r s : Fin 1024), r.val = t.val / 8 * 128 + p.val → s.val = t.val % 8 * 128 + q.val →
      blkF1 V c t (ix2 p q) = E r s)
    (t : Fin cfg1.N) (p : Fin 128) (r : Fin 1024) (hr : r.val = t.val / 8 * 128 + p.val) :
    (outsAt1 V c t.val t.isLt).2.2.2 (ix2 p (0 : Fin 1)) = ∑ s ∈ Finset.range ((t.val % 8 + 1) * 128), rowSeq E r s := by
  have hN : cfg1.N = 64 := N_1
  refine col_acc (N := cfg1.N) (fun n h => (outsAt1 V c n h).2.2.2) (fun n h => blkF1 V c ⟨n, h⟩) ?_ ?_ (t.val / 8) p (rowSeq E r) ?_
    t.val t.isLt rfl
  · intro n h hm p'
    refine (congrFun (col7_A V c ⟨n, h⟩ hm) _).trans ?_
    rw [k1pay3_apply, k1pay5_apply]; rfl
  · intro n h h0 p'
    refine (congrFun (col7_B V c ⟨n + 1, h⟩ h0) _).trans ?_
    rw [k1pay3_apply]; rfl
  · intro n h hi q
    have hn : n < 64 := hN ▸ h
    have hs : n % 8 * 128 + q.val < 1024 := by have := q.isLt; omega
    rw [hE ⟨n, h⟩ p q r ⟨n % 8 * 128 + q.val, hs⟩ (by show r.val = n / 8 * 128 + p.val; rw [hi]; exact hr) rfl]
    unfold rowSeq
    rw [dif_pos hs]

/-- What a flushing point writes back to the second column's array: its block of the table's row sums. -/
theorem flushed1_7_eq (c : Dev nD) (E : Fin 1024 → Fin 1024 → EReal)
    (hE : ∀ (t : Fin cfg1.N) (p q : Fin 128) (r s : Fin 1024), r.val = t.val / 8 * 128 + p.val → s.val = t.val % 8 * 128 + q.val →
      blkF1 V c t (ix2 p q) = E r s)
    (t : Fin cfg1.N) (hfl : (cfg1.win 7).flush t = true) :
    (dat1 V c).flushed 7 t = ((cfg1.win 7).blk t).view.read (Elt Ideal) (degArr E) := by
  have h7 : t.val % 8 = 7 := (flush1_7 t).mp hfl
  show (cfg1.win 7).cut (grid1.coords t) ((dat1 V c).after 7 t) = _
  rw [after1_7]
  obtain ⟨-, -, e0, e1⟩ := idx_facts1_deg t
  funext y
  obtain ⟨p, z, rfl⟩ : ∃ (p : Fin 128) (z : Fin 1), y = ix2 p z := ⟨y 0, y 1, eq_ix2 y⟩
  obtain rfl : z = 0 := Subsingleton.elim _ _
  refine (deg7_inv V c E hE t p (((cfg1.win 7).blk t).view.emb (ix2 p (0 : Fin 1)) 0)
    (by show win1_7.index t (0 : Fin 2) * 128 + 1 * p.val = t.val / 8 * 128 + p.val; omega)).trans ?_
  rw [h7]
  exact sum_rowSeq E _

theorem mem_blk1_7 (t : Fin cfg1.N) (i : S1024x1.Idx) :
    i ∈ ((cfg1.win 7).blk t).view.set ↔ ∀ a : Fin 2, win1_7.index t a * S128x1.size a ≤ (i a).val ∧ (i a).val < win1_7.index t a * S128x1.size a + S128x1.size a := by
  show i ∈ ((View.whole main_v8_3).slice (win1_7.rect t)).set ↔ _
  rw [View.set_slice_whole, Rect.mem_set_unit]
  exact Iff.rfl

theorem arr_cover1_7 (i : S1024x1.Idx) :
    ∃ t : Fin cfg1.N, (cfg1.win 7).flush t = true ∧ i ∈ ((cfg1.win 7).blk t).view.set := by
  have hi0 : (i 0).val < 1024 := (i 0).isLt
  have hi1 : (i 1).val < 1 := (i 1).isLt
  have hN : cfg1.N = 64 := N_1
  have ht : (i 0).val / 128 * 8 + 7 < cfg1.N := by omega
  obtain ⟨-, -, e0, e1⟩ := idx_facts1_deg ⟨(i 0).val / 128 * 8 + 7, ht⟩
  refine ⟨⟨(i 0).val / 128 * 8 + 7, ht⟩, (flush1_7 _).mpr (by show ((i 0).val / 128 * 8 + 7) % 8 = 7; omega), ?_⟩
  rw [mem_blk1_7]
  intro a
  match a with
  | ⟨0, _⟩ =>
    show win1_7.index ⟨(i 0).val / 128 * 8 + 7, ht⟩ (0 : Fin 2) * 128 ≤ (i 0).val ∧ (i 0).val < win1_7.index ⟨(i 0).val / 128 * 8 + 7, ht⟩ (0 : Fin 2) * 128 + 128
    rw [e0]; show ((i 0).val / 128 * 8 + 7) / 8 * 128 ≤ (i 0).val ∧ (i 0).val < ((i 0).val / 128 * 8 + 7) / 8 * 128 + 128; omega
  | ⟨1, _⟩ =>
    show win1_7.index ⟨(i 0).val / 128 * 8 + 7, ht⟩ (1 : Fin 2) * 1 ≤ (i 1).val ∧ (i 1).val < win1_7.index ⟨(i 0).val / 128 * 8 + 7, ht⟩ (1 : Fin 2) * 1 + 1
    rw [e1]; omega

/-- The second degree column after the region's run: the row sums of the table its blocks are cut from. -/
theorem final1_7_of (c : Dev nD) (E : Fin 1024 → Fin 1024 → EReal)
    (hE : ∀ (t : Fin cfg1.N) (p q : Fin 128) (r s : Fin 1024), r.val = t.val / 8 * 128 + p.val → s.val = t.val % 8 * 128 + q.val →
      blkF1 V c t (ix2 p q) = E r s) :
    (dat1 V c).arrAt 7 cfg1.N = degArr E :=
  (dat1 V c).arrAt_eq_of_cover 7 _ (fun t hfl => flushed1_7_eq V c E hE t hfl) arr_cover1_7

end Region1Deg7

/-- The row sums of the edge-weight table are the specification's weighted degrees. -/
theorem degArr_adj (x : Fin 1024 → Fin 128 → EReal) :
    degArr (Cert.Spec.adj x) = fun i => Cert.Spec.deg x (i 0) := rfl

/-! ### The two degree columns after the region's run -/

section Region1DegFinal

variable (V : (c : Dev nD) → (b : Ref sig .tc) → Buf (Elt Ideal) ((c : Thread nD τ).loc b))

/-- The first degree column after the region's run: the specification's weighted degrees of the first feature array. -/
theorem final1_6 (c : Dev nD) :
    (dat1 V c).arrAt 6 cfg1.N
      = fun i : S1024x1.Idx => Cert.Spec.deg (fun r k => (V c main_v7_0 : S1024x128.Idx → EReal) (ix2 r k)) (i 0) :=
  (final1_6_of V c _ (adjT_entry V c)).trans (degArr_adj _)

/-- The second degree column after the region's run: the weighted degrees of the second feature array. -/
theorem final1_7 (c : Dev nD) :
    (dat1 V c).arrAt 7 cfg1.N
      = fun i : S1024x1.Idx => Cert.Spec.deg (fun r k => (V c main_v7_1 : S1024x128.Idx → EReal) (ix2 r k)) (i 0) :=
  (final1_7_of V c _ (adjF_entry V c)).trans (degArr_adj _)

end Region1DegFinal

end Cert.KernelIdeal.Hand

end
-- ==== Proof.KI.KernelValue.lean ====
/-
  The kernel program's result is the specification.

  Walking the program's boundaries: the four host stretches lay the arguments out (the spectrograms as rows, the
  biases as one-row matrices, the head weights and bias padded with zero columns); the projection kernel leaves the two
  feature matrices and the two projected-value matrices; the adjacency kernel the two edge-weight matrices and the two
  degree columns; the next host stretch the inverse roots of the degrees and the values scaled by them; the aggregation
  kernel the padded output, of which the last host operation keeps the first ten columns.  At each boundary the buffers
  that matter hold the specification's intermediates of the launch arrays, index by index, so the result buffer ends
  holding the specification of the eleven argument arrays.  The kernel's arrangement of the aggregation is the
  specification's, so no finiteness is used.
-/
import proofs.«152008_j55130200211709_2_alg».proof.Proof.KI.Run
import proofs.«152008_j55130200211709_2_alg».proof.Proof.KI.R0Value
import proofs.«152008_j55130200211709_2_alg».proof.Proof.KI.HostValue
import proofs.«152008_j55130200211709_2_alg».proof.Proof.KI.R1ValueAdj
import proofs.«152008_j55130200211709_2_alg».proof.Proof.KI.R1ValueDeg
import proofs.«152008_j55130200211709_2_alg».proof.Proof.Args
import proofs.«152008_j55130200211709_2_alg».proof.Pre_finite_inputs

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.Spec

variable (m : (ℓ : Loc nD τ sig) → Buf (Elt Ideal) ℓ) (c : Dev nD)

/-! ## After the projection kernel -/

theorem W5_v7_0 : W5 m c main_v7_0 = featT (V4 m c main_arg0) (V4 m c main_arg2) (V4 m c main_v1) :=
  (W5_arr m c 8).trans (final0_8 (VR4 m) c)
theorem W5_v7_1 : W5 m c main_v7_1 = featF (V4 m c main_v0) (V4 m c main_arg4) (V4 m c main_v2) :=
  (W5_arr m c 9).trans (final0_9 (VR4 m) c)
theorem W5_v7_2 : W5 m c main_v7_2
    = timesW (featT (V4 m c main_arg0) (V4 m c main_arg2) (V4 m c main_v1)) (V4 m c main_arg6) :=
  (W5_arr m c 10).trans (final0_10 (VR4 m) c)
theorem W5_v7_3 : W5 m c main_v7_3
    = timesW (featF (V4 m c main_v0) (V4 m c main_arg4) (V4 m c main_v2)) (V4 m c main_arg7) :=
  (W5_arr m c 11).trans (final0_11 (VR4 m) c)

/-! ## The features and the projected values, in the specification's terms -/

/-- The projection kernel's feature function is the specification's dense layer, the bias row read as a vector. -/
theorem featT_eq_feat (a : Vec Ideal S1024x4000 .f32) (w : Vec Ideal S4000x128 .f32) (b : Vec Ideal S1x128 .f32)
    (b' : Vec Ideal S128 .f32) (hb : ∀ d, b (ix2 (0 : Fin 1) d) = b' (ix1 d)) (r : Fin 1024) (d : Fin 128) :
    featT a w b (ix2 r d) = feat (at2 a) (at2 w) (at1 b') r d := by
  show Max.max ((∑ k : Fin 4000, a (ix2 r k) * w (ix2 k d)) + b (ix2 (0 : Fin 1) d)) 0 = _
  rw [hb]
  rfl

/-- The same for the rows of 4096, read through any row function. -/
theorem featF_eq_feat (a : Vec Ideal S1024x4096 .f32) (w : Vec Ideal S4096x128 .f32) (b : Vec Ideal S1x128 .f32)
    (s : Fin 1024 → Fin 4096 → EReal) (b' : Vec Ideal S128 .f32) (ha : ∀ r k, a (ix2 r k) = s r k)
    (hb : ∀ d, b (ix2 (0 : Fin 1) d) = b' (ix1 d)) (r : Fin 1024) (d : Fin 128) :
    featF a w b (ix2 r d) = feat s (at2 w) (at1 b') r d := by
  show Max.max ((∑ k : Fin 4096, a (ix2 r k) * w (ix2 k d)) + b (ix2 (0 : Fin 1) d)) 0 = _
  rw [hb]
  simp only [ha]
  rfl

/-- Rows times a square matrix are the specification's projected values. -/
theorem timesW_eq_val (x : Vec Ideal S1024x128 .f32) (g : Vec Ideal S128x128 .f32) (X : Fin 1024 → Fin 128 → EReal)
    (hx : ∀ r k, x (ix2 r k) = X r k) (l : Fin 1024) (k : Fin 128) : timesW x g (ix2 l k) = val X (at2 g) l k := by
  show ∑ j : Fin 128, x (ix2 l j) * g (ix2 j k) = _
  simp only [hx]
  rfl

section Launch
variable (W0 : Valuation τ sig (Elt Ideal))

/-- The time features of the launch arrays. -/
abbrev xtOf : Fin 1024 → Fin 128 → EReal :=
  feat (at2 (W0 main_arg0 : Vec Ideal S1024x4000 .f32)) (at2 (W0 main_arg2 : Vec Ideal S4000x128 .f32))
    (at1 (W0 main_arg3 : Vec Ideal S128 .f32))
/-- The frequency features of the launch arrays. -/
abbrev xfOf : Fin 1024 → Fin 128 → EReal :=
  feat (specRow (W0 main_arg1 : Vec Ideal S1024x64x64 .f32)) (at2 (W0 main_arg4 : Vec Ideal S4096x128 .f32))
    (at1 (W0 main_arg5 : Vec Ideal S128 .f32))

/-- The projection kernel's first result, read at an index, is the time features. -/
theorem featT_at (r : Fin 1024) (d : Fin 128) :
    featT (pre W0 main_arg0) (pre W0 main_arg2) (pre W0 main_v1) (ix2 r d) = xtOf W0 r d := by
  rw [pre_arg0, pre_arg2]
  exact featT_eq_feat _ _ _ _ (pre_main_v1_apply W0) r d

/-- The projection kernel's second result, read at an index, is the frequency features. -/
theorem featF_at (r : Fin 1024) (d : Fin 128) :
    featF (pre W0 main_v0) (pre W0 main_arg4) (pre W0 main_v2) (ix2 r d) = xfOf W0 r d := by
  rw [pre_arg4]
  exact featF_eq_feat _ _ _ _ _ (pre_main_v0_apply W0) (pre_main_v2_apply W0) r d

end Launch

theorem xt_at (r : Fin 1024) (d : Fin 128) :
    (W5 m c main_v7_0 : Vec Ideal S1024x128 .f32) (ix2 r d) = xtOf (V0 m c) r d := by
  rw [W5_v7_0, V4_eq_pre]; exact featT_at (V0 m c) r d
theorem xf_at (r : Fin 1024) (d : Fin 128) :
    (W5 m c main_v7_1 : Vec Ideal S1024x128 .f32) (ix2 r d) = xfOf (V0 m c) r d := by
  rw [W5_v7_1, V4_eq_pre]; exact featF_at (V0 m c) r d
theorem vt_at (l : Fin 1024) (k : Fin 128) :
    (W5 m c main_v7_2 : Vec Ideal S1024x128 .f32) (ix2 l k)
      = val (xtOf (V0 m c)) (at2 (V0 m c main_arg6 : Vec Ideal S128x128 .f32)) l k := by
  rw [W5_v7_2, V4_eq_pre, pre_arg6]
  exact timesW_eq_val _ _ _ (featT_at (V0 m c)) l k
theorem vf_at (l : Fin 1024) (k : Fin 128) :
    (W5 m c main_v7_3 : Vec Ideal S1024x128 .f32) (ix2 l k)
      = val (xfOf (V0 m c)) (at2 (V0 m c main_arg7 : Vec Ideal S128x128 .f32)) l k := by
  rw [W5_v7_3, V4_eq_pre, pre_arg7]
  exact timesW_eq_val _ _ _ (featF_at (V0 m c)) l k

/-! ## After the adjacency kernel

  The adjacency kernel leaves the edge weights and the degrees of the two feature matrices. -/

section Adjacency

theorem adjT_at (i j : Fin 1024) :
    (W6 m c main_v8_0 : Vec Ideal S1024x1024 .f32) (ix2 i j) = adj (xtOf (V0 m c)) i j := by
  rw [W6_v8_0, final1_4 (VR5 m) c]
  show adj (fun r k => (W5 m c main_v7_0 : Vec Ideal S1024x128 .f32) (ix2 r k)) i j = _
  rw [show (fun r k => (W5 m c main_v7_0 : Vec Ideal S1024x128 .f32) (ix2 r k)) = xtOf (V0 m c) from
    funext fun r => funext fun k => xt_at m c r k]
theorem adjF_at (i j : Fin 1024) :
    (W6 m c main_v8_1 : Vec Ideal S1024x1024 .f32) (ix2 i j) = adj (xfOf (V0 m c)) i j := by
  rw [W6_v8_1, final1_5 (VR5 m) c]
  show adj (fun r k => (W5 m c main_v7_1 : Vec Ideal S1024x128 .f32) (ix2 r k)) i j = _
  rw [show (fun r k => (W5 m c main_v7_1 : Vec Ideal S1024x128 .f32) (ix2 r k)) = xfOf (V0 m c) from
    funext fun r => funext fun k => xf_at m c r k]
theorem degT_at (i : Fin 1024) :
    (W6 m c main_v8_2 : Vec Ideal S1024x1 .f32) (ix2 i (0 : Fin 1)) = deg (xtOf (V0 m c)) i := by
  rw [W6_v8_2, final1_6 (VR5 m) c]
  show deg (fun r k => (W5 m c main_v7_0 : Vec Ideal S1024x128 .f32) (ix2 r k)) i = _
  rw [show (fun r k => (W5 m c main_v7_0 : Vec Ideal S1024x128 .f32) (ix2 r k)) = xtOf (V0 m c) from
    funext fun r => funext fun k => xt_at m c r k]
theorem degF_at (i : Fin 1024) :
    (W6 m c main_v8_3 : Vec Ideal S1024x1 .f32) (ix2 i (0 : Fin 1)) = deg (xfOf (V0 m c)) i := by
  rw [W6_v8_3, final1_7 (VR5 m) c]
  show deg (fun r k => (W5 m c main_v7_1 : Vec Ideal S1024x128 .f32) (ix2 r k)) i = _
  rw [show (fun r k => (W5 m c main_v7_1 : Vec Ideal S1024x128 .f32) (ix2 r k)) = xfOf (V0 m c) from
    funext fun r => funext fun k => xf_at m c r k]

/-- A buffer that neither kernel writes and no host stretch after the first four writes is, after the adjacency
    kernel, as the first four host stretches left it. -/
theorem W6_keep (r : Ref sig .tc) (h1 : r ∉ ([main_v8_0, main_v8_1, main_v8_2, main_v8_3] : List (Ref sig .tc)))
    (h0 : ∀ w, Pipeline.arrRef spec0 w ≠ r) : W6 m c r = pre (V0 m c) r :=
  (W6_of m c r h1).trans ((W5_of_ne m c r h0).trans (congrFun (V4_eq_pre m c) _))

/-- The result, index by index. -/
theorem result_at (r : Fin 1024) (n : Fin 10) :
    (W9 m c main_v16 : Vec Ideal S1024x10 .f32) (ix2 r n)
      = out (at2 (V0 m c main_arg0 : Vec Ideal S1024x4000 .f32)) (specRow (V0 m c main_arg1 : Vec Ideal S1024x64x64 .f32))
          (at2 (V0 m c main_arg2 : Vec Ideal S4000x128 .f32)) (at1 (V0 m c main_arg3 : Vec Ideal S128 .f32))
          (at2 (V0 m c main_arg4 : Vec Ideal S4096x128 .f32)) (at1 (V0 m c main_arg5 : Vec Ideal S128 .f32))
          (at2 (V0 m c main_arg6 : Vec Ideal S128x128 .f32)) (at2 (V0 m c main_arg7 : Vec Ideal S128x128 .f32))
          (at1 (V0 m c main_arg8 : Vec Ideal S128 .f32)) (at2 (V0 m c main_arg9 : Vec Ideal S128x10 .f32))
          (at1 (V0 m c main_arg10 : Vec Ideal S10 .f32)) r n := by
  refine (v16_apply (W8 m c) r n).trans ((congrFun (W8_arr m c 9) (ix2 r (up10 n))).trans ?_)
  exact region2_out (W6 m) c (xtOf (V0 m c)) (xfOf (V0 m c)) (at2 (V0 m c main_arg6 : Vec Ideal S128x128 .f32))
    (at2 (V0 m c main_arg7 : Vec Ideal S128x128 .f32)) (at1 (V0 m c main_arg8 : Vec Ideal S128 .f32))
    (at2 (V0 m c main_arg9 : Vec Ideal S128x10 .f32)) (at1 (V0 m c main_arg10 : Vec Ideal S10 .f32))
    (adjT_at m c) (adjF_at m c) (degT_at m c) (degF_at m c)
    (fun l k => by rw [W6_of m c main_v7_2 (by decide)]; exact vt_at m c l k)
    (fun l k => by rw [W6_of m c main_v7_3 (by decide)]; exact vf_at m c l k)
    (fun k => by rw [W6_keep m c main_v3 (by decide) (by decide)]; exact pre_main_v3_apply (V0 m c) k)
    (fun k n => by rw [W6_keep m c main_v4 (by decide) (by decide)]; exact pre_main_v4_apply_lt (V0 m c) k n)
    (fun n => by rw [W6_keep m c main_v6 (by decide) (by decide)]; exact pre_main_v6_apply_lt (V0 m c) n)
    r n

/-- The kernel program's result array is the specification of the eleven argument arrays. -/
theorem kernel_result [Cert.Pre_finite_inputs.Facts]
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = fun _ => 1#1) :
    W9 m c main_v16 = Cert.Spec.outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  funext i
  rw [eq_ix2 i]
  exact result_at m c (i 0) (i 1)

end Adjacency

end Cert.KernelIdeal.Hand

end
-- ==== Proof.Algebra.lean ====
/-
  Finiteness and the algebra between the two arrangements of the normalised aggregation.

  On the extended reals, sums and products are commutative and associative, but a factor moves across a sum only when
  everything is a real number.  This module shows that every intermediate of the specification is a real number when the
  argument arrays are (features, distances, edge weights, degrees, inverse roots, projected values), and from that the law
      ∑ j, ((c · a j) · d j) · v j  =  c · ∑ j, a j · (d j · v j),
  which turns "normalise the matrix, then multiply" into "scale the values, sum, scale the row".  It also records the
  identity  y · (1 − e) + e = (1 if e = 1, y if e = 0)  behind the self loops, which needs no finiteness.
-/
import proofs.«152008_j55130200211709_2_alg».proof.Proof.Spec
import Idealize.ShloMosaic.PureOps.Ideal.Laws

noncomputable section

namespace Cert.RefValue

open Idealize.ShloMosaic Cert.Spec

/-! ## Real, nonnegative real and positive real extended reals -/

/-- An extended real that is a real number. -/
def IsReal (x : EReal) : Prop := ∃ r : ℝ, x = (r : EReal)
/-- An extended real that is a nonnegative real number. -/
def IsNonneg (x : EReal) : Prop := ∃ r : ℝ, 0 ≤ r ∧ x = (r : EReal)
/-- An extended real that is a positive real number. -/
def IsPos (x : EReal) : Prop := ∃ r : ℝ, 0 < r ∧ x = (r : EReal)

theorem IsNonneg.isReal {x : EReal} (h : IsNonneg x) : IsReal x := let ⟨r, _, e⟩ := h; ⟨r, e⟩
theorem IsPos.isReal {x : EReal} (h : IsPos x) : IsReal x := let ⟨r, _, e⟩ := h; ⟨r, e⟩
theorem IsPos.isNonneg {x : EReal} (h : IsPos x) : IsNonneg x := let ⟨r, p, e⟩ := h; ⟨r, p.le, e⟩

theorem isReal_zero : IsReal 0 := ⟨0, rfl⟩
theorem isPos_one : IsPos 1 := ⟨1, one_pos, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem IsReal.sum {ι : Type*} [Fintype ι] {f : ι → EReal} (h : ∀ i, IsReal (f i)) : IsReal (∑ i, f i) := by
  choose g hg using h
  exact ⟨∑ i, g i, by rw [coe_sum]; exact Finset.sum_congr rfl fun i _ => hg i⟩
theorem IsNonneg.sum {ι : Type*} [Fintype ι] {f : ι → EReal} (h : ∀ i, IsNonneg (f i)) : IsNonneg (∑ i, f i) := by
  choose g hg0 hg using h
  exact ⟨∑ i, g i, Finset.sum_nonneg fun i _ => hg0 i, by rw [coe_sum]; exact Finset.sum_congr rfl fun i _ => hg i⟩
theorem IsPos.sum {ι : Type*} [Fintype ι] [Nonempty ι] {f : ι → EReal} (h : ∀ i, IsPos (f i)) : IsPos (∑ i, f i) := by
  choose g hg0 hg using h
  exact ⟨∑ i, g i, Finset.sum_pos (fun i _ => hg0 i) Finset.univ_nonempty,
    by rw [coe_sum]; exact Finset.sum_congr rfl fun i _ => hg i⟩

/-- The absolute value, written as the larger of a number and its opposite, of a real is a nonnegative real. -/
theorem IsReal.abs_nonneg {x : EReal} (hx : IsReal x) : IsNonneg (Max.max x (-x)) := by
  obtain ⟨a, rfl⟩ := hx
  refine ⟨|a|, _root_.abs_nonneg a, ?_⟩
  rw [abs_eq_max_neg, EReal.coe_strictMono.monotone.map_max, EReal.coe_neg]

theorem IsNonneg.add_pos {x y : EReal} (hx : IsNonneg x) (hy : IsPos y) : IsPos (x + y) := by
  obtain ⟨a, ha, rfl⟩ := hx; obtain ⟨b, hb, rfl⟩ := hy
  exact ⟨a + b, by positivity, (EReal.coe_add a b).symm⟩

/-- The inverse of a positive real, as the ideal division computes it, is a positive real. -/
theorem IsPos.one_div {y : EReal} (hy : IsPos y) : IsPos (Ideal.div 1 y) := by
  obtain ⟨b, hb, rfl⟩ := hy
  refine ⟨1 / b, by positivity, ?_⟩
  rw [Ideal.div_coe hb.ne', one_mul]

/-- The inverse square root of a positive real is a positive real. -/
theorem IsPos.rsqrt {y : EReal} (hy : IsPos y) : IsPos (Ideal.rsqrt y) := by
  obtain ⟨b, hb, rfl⟩ := hy
  refine ⟨(Real.sqrt b)⁻¹, by positivity, ?_⟩
  rw [Ideal.rsqrt_coe, if_neg (not_lt.mpr hb.le), if_neg hb.ne']

/-- The shift `ε` is a positive real. -/
theorem eps_pos : IsPos eps := by
  refine ⟨10995116 * (2 : ℝ) ^ (-40 : ℤ), by positivity, ?_⟩
  unfold eps
  simp [Ideal.ofBits, Ideal.ieee, -EReal.coe_mul]

/-! ## Every intermediate of the specification is a real number when the arrays are -/

section Intermediates
variable {K : ℕ} (x : Fin 1024 → Fin 128 → EReal)

/-- A dense layer's positive part of real arrays is real. -/
theorem feat_real (u : Fin 1024 → Fin K → EReal) (W : Fin K → Fin 128 → EReal) (b : Fin 128 → EReal)
    (hu : ∀ r k, IsReal (u r k)) (hW : ∀ k d, IsReal (W k d)) (hb : ∀ d, IsReal (b d)) (r : Fin 1024) (d : Fin 128) :
    IsReal (feat u W b r d) :=
  ((IsReal.sum fun k => (hu r k).mul (hW k d)).add (hb d)).max isReal_zero

/-- The L1 distance of two real rows is a nonnegative real. -/
theorem dist_nonneg (hx : ∀ i k, IsReal (x i k)) (i j : Fin 1024) : IsNonneg (dist x i j) :=
  IsNonneg.sum fun k => ((hx i k).sub (hx j k)).abs_nonneg

/-- Every edge weight is a positive real. -/
theorem adj_pos (hx : ∀ i k, IsReal (x i k)) (i j : Fin 1024) : IsPos (adj x i j) := by
  unfold adj
  split_ifs
  · exact isPos_one
  · exact ((dist_nonneg x hx i j).add_pos eps_pos).one_div

/-- Every degree is a positive real. -/
theorem deg_pos (hx : ∀ i k, IsReal (x i k)) (i : Fin 1024) : IsPos (deg x i) :=
  IsPos.sum fun j => adj_pos x hx i j

/-- Every inverse root of a degree is a positive real. -/
theorem dinv_pos (hx : ∀ i k, IsReal (x i k)) (i : Fin 1024) : IsPos (dinv x i) :=
  (deg_pos x hx i).rsqrt

/-- Projected values of real arrays are real. -/
theorem val_real (W : Fin 128 → Fin 128 → EReal) (hx : ∀ i k, IsReal (x i k)) (hW : ∀ k h, IsReal (W k h))
    (j : Fin 1024) (h : Fin 128) : IsReal (val x W j h) :=
  IsReal.sum fun k => (hx j k).mul (hW k h)

end Intermediates

/-! ## The two arrangements of the normalised aggregation -/

/-- For real numbers, scaling every term of a sum by `c` (and grouping the other factors differently) is scaling the sum. -/
theorem sum_scale {ι : Type*} [Fintype ι] {c : EReal} {a d v : ι → EReal} (hc : IsReal c) (ha : ∀ j, IsReal (a j))
    (hd : ∀ j, IsReal (d j)) (hv : ∀ j, IsReal (v j)) :
    ∑ j, ((c * a j) * d j) * v j = c * ∑ j, a j * (d j * v j) := by
  obtain ⟨c, rfl⟩ := hc
  choose a' ha' using ha
  choose d' hd' using hd
  choose v' hv' using hv
  simp only [ha', hd', hv', ← EReal.coe_mul, ← coe_sum]
  refine congrArg _ ?_
  rw [Finset.mul_sum]
  exact Finset.sum_congr rfl fun j _ => by ring

/-- The matrix normalised on both sides and then multiplied with the projected values is the specification's
    aggregation, when the features and the weights are real. -/
theorem agg_eq (x : Fin 1024 → Fin 128 → EReal) (W : Fin 128 → Fin 128 → EReal) (hx : ∀ i k, IsReal (x i k))
    (hW : ∀ k h, IsReal (W k h)) (i : Fin 1024) (h : Fin 128) :
    ∑ j, ((dinv x i * adj x i j) * dinv x j) * val x W j h = agg x W i h :=
  sum_scale (dinv_pos x hx i).isReal (fun j => (adj_pos x hx i j).isReal) (fun j => (dinv_pos x hx j).isReal)
    (fun j => val_real x W hx hW j h)

/-! ## Self loops by arithmetic -/

/-- With `e` the indicator of a condition, `y · (1 − e) + e` is `1` where it holds and `y` elsewhere, for every
    extended real `y`: `y · 0 = 0`, `y · 1 = y`. -/
theorem diag_identity (y : EReal) (p : Prop) [Decidable p] :
    y * (1 - (if p then 1 else 0)) + (if p then 1 else 0) = if p then 1 else y := by
  split_ifs
  · have h : (1 : EReal) - 1 = 0 := by rw [← EReal.coe_one, ← EReal.coe_sub, sub_self, EReal.coe_zero]
    rw [h, mul_zero, zero_add]
  · rw [sub_zero, mul_one, add_zero]

/-- The indicator as the reference spells it: the comparison of the two 32-bit row and column numbers (the first
    with a zero offset added), read as a number. -/
theorem eye_eq (i j : Fin 1024) :
    FloatOps.uitofp (F := Ideal) .f32 (IntOp.cmpi .eq (IntOp.addi (BitVec.ofNat 32 i.val) 0#32) (BitVec.ofNat 32 j.val))
      = if i = j then (1 : EReal) else 0 := by
  have hij : (BitVec.ofNat 32 i.val + 0#32 = BitVec.ofNat 32 j.val) ↔ i = j := by
    rw [BitVec.add_zero]
    constructor
    · intro h
      have h2 := congrArg BitVec.toNat h
      simp only [BitVec.toNat_ofNat, Nat.reducePow] at h2
      have hi := i.isLt
      have hj := j.isLt
      exact Fin.ext (by omega)
    · rintro rfl; rfl
  show (((IntOp.cmpi .eq (IntOp.addi (BitVec.ofNat 32 i.val) 0#32) (BitVec.ofNat 32 j.val)).toNat : ℝ) : EReal) = _
  unfold IntOp.cmpi IntOp.addi
  by_cases h : i = j
  · rw [if_pos h]
    have : (BitVec.ofNat 32 i.val + 0#32 == BitVec.ofNat 32 j.val) = true := beq_iff_eq.mpr (hij.mpr h)
    simp only [this]
    simp
  · rw [if_neg h]
    have : (BitVec.ofNat 32 i.val + 0#32 == BitVec.ofNat 32 j.val) = false := by
      rw [beq_eq_false_iff_ne]; exact fun e => h (hij.mp e)
    simp only [this]
    simp

end Cert.RefValue

end
-- ==== Proof.RefIsSpec.lean ====
/-
  The reference computes the specification.

  The reference builds, for each of the two feature matrices, the matrix  (dinv i · a i j) · dinv j  with
  a i j = (1 / (dist i j + ε)) · (1 − e i j) + e i j  (e the indicator of the diagonal) and multiplies it with the projected
  values; the specification selects on the diagonal and applies the column factor to the values and the row factor after
  the sum.  Stage by stage the reference's intermediates are the specification's (features, distances, indicator, edge
  weights, degrees, inverse roots, normalised matrix, values); the two arrangements of the last sum agree because every
  factor is a real number when the arrays the aggregation multiplies are real (Algebra).  The hidden layer and the
  output layer are the same arrangement on both sides.
-/
import proofs.«152008_j55130200211709_2_alg».proof.Proof.Gen.ReferenceIdeal.Read
import proofs.«152008_j55130200211709_2_alg».proof.Proof.Spec
import proofs.«152008_j55130200211709_2_alg».proof.Proof.Args
import proofs.«152008_j55130200211709_2_alg».proof.Proof.Algebra
import Idealize.ShloMosaic.Lib.IdealHost

noncomputable section

namespace Cert.RefValue

open Cert.ReferenceIdeal Cert.ReferenceIdeal.Gen Cert.ReferenceIdeal.Read Idealize.ShloMosaic Idealize.ShloMosaic.ValueIdx Cert.Spec

/-- Two rank-1 indices with the same coordinate are equal. -/
local macro "idx1" : tactic => `(tactic| exact funext fun a => by match a with | ⟨0, _⟩ => rfl)
/-- Two rank-2 indices with the same coordinates are equal. -/
local macro "idx2" : tactic => `(tactic| exact funext fun a => by match a with | ⟨0, _⟩ => rfl | ⟨1, _⟩ => rfl)
/-- Two rank-3 indices with the same coordinates are equal. -/
local macro "idx3" : tactic => `(tactic| exact funext fun a => by match a with | ⟨0, _⟩ => rfl | ⟨1, _⟩ => rfl | ⟨2, _⟩ => rfl)

/-! ## The node features -/

/-- The time features: the dense layer of the waveforms, positive part. -/
theorem xt_eq (x0 : (⟨S1024x4000, .f32⟩ : BufTy).Contents (Elt Ideal)) (x2 : (⟨S4000x128, .f32⟩ : BufTy).Contents (Elt Ideal))
    (x3 : (⟨S128, .f32⟩ : BufTy).Contents (Elt Ideal)) (r : Fin 1024) (d : Fin 128) :
    val_main_v4 (F := Ideal) x0 x2 x3 (ix2 r d) = feat (at2 x0) (at2 x2) (at1 x3) r d := by
  rw [val_main_v4_apply, val_main_v3_apply, val_main_v0_apply, val_main_v2_apply, val_main_v1_apply,
    val_main_call0_v0_apply, val_main_call0_cst_apply]
  have e1 : ∀ k, lidx_main_v0 (ix2 r d) k = ix2 r k := fun k => by idx2
  have e2 : ∀ k, ridx_main_v0 (ix2 r d) k = ix2 k d := fun k => by idx2
  have e3 : idx_main_v1 (idx_main_v2 (ix2 r d)) = ix1 d := by idx1
  rw [e3, Ideal.ofBits_def, Ideal.ofBits_zero_f32]
  refine congrArg (fun t => Max.max (t + x3 (ix1 d)) 0) (Finset.sum_congr rfl fun k _ => ?_)
  rw [e1, e2]

/-- The frequency features: the dense layer of the spectrograms read as rows, positive part. -/
theorem xf_eq (x1 : (⟨S1024x64x64, .f32⟩ : BufTy).Contents (Elt Ideal)) (x4 : (⟨S4096x128, .f32⟩ : BufTy).Contents (Elt Ideal))
    (x5 : (⟨S128, .f32⟩ : BufTy).Contents (Elt Ideal)) (r : Fin 1024) (d : Fin 128) :
    val_main_v10 (F := Ideal) x1 x4 x5 (ix2 r d) = feat (specRow x1) (at2 x4) (at1 x5) r d := by
  rw [val_main_v10_apply, val_main_v9_apply, val_main_v6_apply, val_main_v8_apply, val_main_v7_apply,
    val_main_call1_v0_apply, val_main_call1_cst_apply]
  have e1 : ∀ k : Fin 4096, idx_main_v5 (lidx_main_v6 (ix2 r d) k)
      = ix3 r (⟨k.val / 64, by have := k.isLt; omega⟩ : Fin 64) (⟨k.val % 64, by omega⟩ : Fin 64) := fun k =>
    funext fun a => Fin.ext (by
      have hr := r.isLt
      have hk := k.isLt
      match a with
      | ⟨0, _⟩ => show (r.val * 4096 + k.val) / 4096 = r.val; omega
      | ⟨1, _⟩ => show (r.val * 4096 + k.val) / 64 % 64 = k.val / 64; omega
      | ⟨2, _⟩ => show (r.val * 4096 + k.val) % 64 = k.val % 64; omega)
  have e2 : ∀ k, ridx_main_v6 (ix2 r d) k = ix2 k d := fun k => by idx2
  have e3 : idx_main_v7 (idx_main_v8 (ix2 r d)) = ix1 d := by idx1
  rw [e3, Ideal.ofBits_def, Ideal.ofBits_zero_f32]
  refine congrArg (fun t => Max.max (t + x5 (ix1 d)) 0) (Finset.sum_congr rfl fun k _ => ?_)
  rw [val_main_v5_apply, e1, e2]
  rfl

/-! ## The normalised adjacency of the time features

  Stated over a name `X` for the feature matrix, so that the terms stay small. -/

section Time
variable (x0 : (⟨S1024x4000, .f32⟩ : BufTy).Contents (Elt Ideal)) (x2 : (⟨S4000x128, .f32⟩ : BufTy).Contents (Elt Ideal))
    (x3 : (⟨S128, .f32⟩ : BufTy).Contents (Elt Ideal)) (X : Fin 1024 → Fin 128 → EReal)
  (hX : ∀ r d, val_main_v4 (F := Ideal) x0 x2 x3 (ix2 r d) = X r d)
include hX

/-- The pairwise L1 distances. -/
theorem t_dist (i j : Fin 1024) : val_main_v17 (F := Ideal) x0 x2 x3 (ix2 i j) = dist X i j := by
  rw [val_main_v17_apply, val_main_cst_apply, Ideal.ofBits_def, Ideal.ofBits_zero_f32, zero_add]
  refine Finset.sum_congr rfl fun k _ => ?_
  rw [val_main_v16_apply, val_main_v15_apply, val_main_v13_apply, val_main_v11_apply, val_main_v14_apply, val_main_v12_apply]
  have e1 : idx_main_v11 (idx_main_v13 (idx_main_v17 (ix2 i j) k)) = ix2 i k := by idx2
  have e2 : idx_main_v12 (idx_main_v14 (idx_main_v17 (ix2 i j) k)) = ix2 j k := by idx2
  rw [e1, e2, hX, hX]
  rfl

omit hX in
/-- The indicator of the diagonal. -/
theorem t_eye (i j : Fin 1024) : val_main_v23 (F := Ideal) (ix2 i j) = if i = j then (1 : EReal) else 0 := by
  rw [val_main_v23_apply, val_main_v22_apply, val_main_v21_apply, val_main_v18_apply, val_main_v20_apply, val_main_c_apply,
    val_main_v19_apply]
  exact eye_eq i j

/-- The edge weights with self loops. -/
theorem t_adj (i j : Fin 1024) : val_main_v31 (F := Ideal) x0 x2 x3 (ix2 i j) = adj X i j := by
  rw [val_main_v31_apply, val_main_v30_apply, val_main_v27_apply, val_main_v29_apply, val_main_v28_apply, val_main_cst_2_apply,
    val_main_v26_apply, val_main_cst_1_apply, val_main_v25_apply, val_main_v24_apply, val_main_cst_0_apply,
    t_dist x0 x2 x3 X hX, t_eye]
  simp only [Ideal.addf_def, Ideal.mulf_def, Ideal.subf_def, Ideal.hostDivf_def, Ideal.ofBits_def, Ideal.ofBits_one_f32]
  rw [diag_identity]
  rfl

/-- The degrees. -/
theorem t_deg (i : Fin 1024) : val_main_v32 (F := Ideal) x0 x2 x3 (ix1 i) = deg X i := by
  rw [val_main_v32_apply, val_main_cst_3_apply, Ideal.ofBits_def, Ideal.ofBits_zero_f32, zero_add]
  refine Finset.sum_congr rfl fun k _ => ?_
  have e1 : idx_main_v32 (ix1 i) k = ix2 i k := by idx2
  rw [e1, t_adj x0 x2 x3 X hX]

/-- The inverse roots of the degrees. -/
theorem t_dinv (i : Fin 1024) : val_main_v33 (F := Ideal) x0 x2 x3 (ix1 i) = dinv X i := by
  rw [val_main_v33_apply, t_deg x0 x2 x3 X hX]
  rfl

/-- The adjacency normalised on both sides. -/
theorem t_norm (i j : Fin 1024) :
    val_main_v39 (F := Ideal) x0 x2 x3 (ix2 i j) = (dinv X i * adj X i j) * dinv X j := by
  rw [val_main_v39_apply, val_main_v36_apply, val_main_v35_apply, val_main_v34_apply, val_main_v38_apply, val_main_v37_apply]
  have e1 : idx_main_v34 (idx_main_v35 (ix2 i j)) = ix1 i := by idx1
  have e2 : idx_main_v37 (idx_main_v38 (ix2 i j)) = ix1 j := by idx1
  rw [e1, e2, t_dinv x0 x2 x3 X hX, t_dinv x0 x2 x3 X hX, t_adj x0 x2 x3 X hX]
  rfl

/-- The projected values. -/
theorem t_val (x6 : (⟨S128x128, .f32⟩ : BufTy).Contents (Elt Ideal)) (j : Fin 1024) (h : Fin 128) :
    val_main_v69 (F := Ideal) x0 x2 x3 x6 (ix2 j h) = val X (at2 x6) j h := by
  rw [val_main_v69_apply]
  refine Finset.sum_congr rfl fun k _ => ?_
  have e1 : lidx_main_v69 (ix2 j h) k = ix2 j k := by idx2
  have e2 : ridx_main_v69 (ix2 j h) k = ix2 k h := by idx2
  rw [e1, e2, hX]

/-- The aggregation, in the reference's arrangement. -/
theorem t_agg_sum (x6 : (⟨S128x128, .f32⟩ : BufTy).Contents (Elt Ideal)) (i : Fin 1024) (h : Fin 128) :
    val_main_v70 (F := Ideal) x0 x2 x3 x6 (ix2 i h)
      = ∑ j, ((dinv X i * adj X i j) * dinv X j) * val X (at2 x6) j h := by
  rw [val_main_v70_apply]
  refine Finset.sum_congr rfl fun j _ => ?_
  have e1 : lidx_main_v70 (ix2 i h) j = ix2 i j := by idx2
  have e2 : ridx_main_v70 (ix2 i h) j = ix2 j h := by idx2
  rw [e1, e2, t_norm x0 x2 x3 X hX, t_val x0 x2 x3 X hX]

end Time

/-! ## The normalised adjacency of the frequency features

  The same steps on the second feature matrix. -/

section Freq
variable (x1 : (⟨S1024x64x64, .f32⟩ : BufTy).Contents (Elt Ideal)) (x4 : (⟨S4096x128, .f32⟩ : BufTy).Contents (Elt Ideal))
    (x5 : (⟨S128, .f32⟩ : BufTy).Contents (Elt Ideal)) (X : Fin 1024 → Fin 128 → EReal)
  (hX : ∀ r d, val_main_v10 (F := Ideal) x1 x4 x5 (ix2 r d) = X r d)
include hX

/-- The pairwise L1 distances. -/
theorem f_dist (i j : Fin 1024) : val_main_v46 (F := Ideal) x1 x4 x5 (ix2 i j) = dist X i j := by
  rw [val_main_v46_apply, val_main_cst_4_apply, Ideal.ofBits_def, Ideal.ofBits_zero_f32, zero_add]
  refine Finset.sum_congr rfl fun k _ => ?_
  rw [val_main_v45_apply, val_main_v44_apply, val_main_v42_apply, val_main_v40_apply, val_main_v43_apply, val_main_v41_apply]
  have e1 : idx_main_v40 (idx_main_v42 (idx_main_v46 (ix2 i j) k)) = ix2 i k := by idx2
  have e2 : idx_main_v41 (idx_main_v43 (idx_main_v46 (ix2 i j) k)) = ix2 j k := by idx2
  rw [e1, e2, hX, hX]
  rfl

omit hX in
/-- The indicator of the diagonal. -/
theorem f_eye (i j : Fin 1024) : val_main_v52 (F := Ideal) (ix2 i j) = if i = j then (1 : EReal) else 0 := by
  rw [val_main_v52_apply, val_main_v51_apply, val_main_v50_apply, val_main_v47_apply, val_main_v49_apply, val_main_c_5_apply,
    val_main_v48_apply]
  exact eye_eq i j

/-- The edge weights with self loops. -/
theorem f_adj (i j : Fin 1024) : val_main_v60 (F := Ideal) x1 x4 x5 (ix2 i j) = adj X i j := by
  rw [val_main_v60_apply, val_main_v59_apply, val_main_v56_apply, val_main_v58_apply, val_main_v57_apply, val_main_cst_8_apply,
    val_main_v55_apply, val_main_cst_7_apply, val_main_v54_apply, val_main_v53_apply, val_main_cst_6_apply,
    f_dist x1 x4 x5 X hX, f_eye]
  simp only [Ideal.addf_def, Ideal.mulf_def, Ideal.subf_def, Ideal.hostDivf_def, Ideal.ofBits_def, Ideal.ofBits_one_f32]
  rw [diag_identity]
  rfl

/-- The degrees. -/
theorem f_deg (i : Fin 1024) : val_main_v61 (F := Ideal) x1 x4 x5 (ix1 i) = deg X i := by
  rw [val_main_v61_apply, val_main_cst_9_apply, Ideal.ofBits_def, Ideal.ofBits_zero_f32, zero_add]
  refine Finset.sum_congr rfl fun k _ => ?_
  have e1 : idx_main_v61 (ix1 i) k = ix2 i k := by idx2
  rw [e1, f_adj x1 x4 x5 X hX]

/-- The inverse roots of the degrees. -/
theorem f_dinv (i : Fin 1024) : val_main_v62 (F := Ideal) x1 x4 x5 (ix1 i) = dinv X i := by
  rw [val_main_v62_apply, f_deg x1 x4 x5 X hX]
  rfl

/-- The adjacency normalised on both sides. -/
theorem f_norm (i j : Fin 1024) :
    val_main_v68 (F := Ideal) x1 x4 x5 (ix2 i j) = (dinv X i * adj X i j) * dinv X j := by
  rw [val_main_v68_apply, val_main_v65_apply, val_main_v64_apply, val_main_v63_apply, val_main_v67_apply, val_main_v66_apply]
  have e1 : idx_main_v63 (idx_main_v64 (ix2 i j)) = ix1 i := by idx1
  have e2 : idx_main_v66 (idx_main_v67 (ix2 i j)) = ix1 j := by idx1
  rw [e1, e2, f_dinv x1 x4 x5 X hX, f_dinv x1 x4 x5 X hX, f_adj x1 x4 x5 X hX]
  rfl

/-- The projected values. -/
theorem f_val (x7 : (⟨S128x128, .f32⟩ : BufTy).Contents (Elt Ideal)) (j : Fin 1024) (h : Fin 128) :
    val_main_v71 (F := Ideal) x1 x4 x5 x7 (ix2 j h) = val X (at2 x7) j h := by
  rw [val_main_v71_apply]
  refine Finset.sum_congr rfl fun k _ => ?_
  have e1 : lidx_main_v71 (ix2 j h) k = ix2 j k := by idx2
  have e2 : ridx_main_v71 (ix2 j h) k = ix2 k h := by idx2
  rw [e1, e2, hX]

/-- The aggregation, in the reference's arrangement. -/
theorem f_agg_sum (x7 : (⟨S128x128, .f32⟩ : BufTy).Contents (Elt Ideal)) (i : Fin 1024) (h : Fin 128) :
    val_main_v72 (F := Ideal) x1 x4 x5 x7 (ix2 i h)
      = ∑ j, ((dinv X i * adj X i j) * dinv X j) * val X (at2 x7) j h := by
  rw [val_main_v72_apply]
  refine Finset.sum_congr rfl fun j _ => ?_
  have e1 : lidx_main_v72 (ix2 i h) j = ix2 i j := by idx2
  have e2 : ridx_main_v72 (ix2 i h) j = ix2 j h := by idx2
  rw [e1, e2, f_norm x1 x4 x5 X hX, f_val x1 x4 x5 X hX]

end Freq

/-! ## The result -/

section Result
variable (x0 : (⟨S1024x4000, .f32⟩ : BufTy).Contents (Elt Ideal)) (x1 : (⟨S1024x64x64, .f32⟩ : BufTy).Contents (Elt Ideal))
    (x2 : (⟨S4000x128, .f32⟩ : BufTy).Contents (Elt Ideal)) (x3 : (⟨S128, .f32⟩ : BufTy).Contents (Elt Ideal))
    (x4 : (⟨S4096x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal))
  (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h7 : ∀ i, IsReal (x7 i))
include h0 h1 h2 h3 h4 h5 h6 h7

/-- The hidden layer of the reference is the specification's, when the arrays the aggregation multiplies are real. -/
theorem hid_eq (i : Fin 1024) (h : Fin 128) :
    val_main_v77 (F := Ideal) x0 x1 x2 x3 x4 x5 x6 x7 x8 (ix2 i h)
      = hid (feat (at2 x0) (at2 x2) (at1 x3)) (feat (specRow x1) (at2 x4) (at1 x5)) (at2 x6) (at2 x7) (at1 x8) i h := by
  rw [val_main_v77_apply, val_main_v76_apply, val_main_v73_apply, val_main_v75_apply, val_main_v74_apply,
    val_main_call2_v0_apply, val_main_call2_cst_apply,
    t_agg_sum x0 x2 x3 _ (xt_eq x0 x2 x3), f_agg_sum x1 x4 x5 _ (xf_eq x1 x4 x5)]
  have e1 : idx_main_v74 (idx_main_v75 (ix2 i h)) = ix1 h := by idx1
  have hxt : ∀ r d, IsReal (feat (at2 x0) (at2 x2) (at1 x3) r d) :=
    feat_real (at2 x0) (at2 x2) (at1 x3) (fun r k => h0 _) (fun k d => h2 _) (fun d => h3 _)
  have hxf : ∀ r d, IsReal (feat (specRow x1) (at2 x4) (at1 x5) r d) :=
    feat_real (specRow x1) (at2 x4) (at1 x5) (fun r k => h1 _) (fun k d => h4 _) (fun d => h5 _)
  rw [e1, Ideal.ofBits_def, Ideal.ofBits_zero_f32,
    agg_eq (feat (at2 x0) (at2 x2) (at1 x3)) (at2 x6) hxt (fun k d => h6 _),
    agg_eq (feat (specRow x1) (at2 x4) (at1 x5)) (at2 x7) hxf (fun k d => h7 _)]
  rfl

/-- The reference's result at an index is the specification's. -/
theorem out_eq (i : Fin 1024) (c : Fin 10) :
    val_main_v81 (F := Ideal) x0 x1 x2 x3 x4 x5 x6 x7 x8 x9 x10 (ix2 i c)
      = out (at2 x0) (specRow x1) (at2 x2) (at1 x3) (at2 x4) (at1 x5) (at2 x6) (at2 x7) (at1 x8) (at2 x9) (at1 x10) i c := by
  rw [val_main_v81_apply, val_main_v78_apply, val_main_v80_apply, val_main_v79_apply]
  have e1 : idx_main_v79 (idx_main_v80 (ix2 i c)) = ix1 c := by idx1
  rw [e1]
  refine congrArg (fun t => t + x10 (ix1 c)) (Finset.sum_congr rfl fun h _ => ?_)
  have e2 : lidx_main_v78 (ix2 i c) h = ix2 i h := by idx2
  have e3 : ridx_main_v78 (ix2 i c) h = ix2 h c := by idx2
  rw [e2, e3, hid_eq x0 x1 x2 x3 x4 x5 x6 x7 x8 h0 h1 h2 h3 h4 h5 h6 h7]

/-- The reference computes the specification: its result array is `outOf` of the eleven argument arrays, when the
    waveforms, spectrograms, the two dense layers and the two aggregation weights are real-valued. -/
theorem ref_eq :
    val_main_v81 (F := Ideal) x0 x1 x2 x3 x4 x5 x6 x7 x8 x9 x10 = outOf x0 x1 x2 x3 x4 x5 x6 x7 x8 x9 x10 := by
  funext i
  rw [eq_ix2 i]
  exact out_eq x0 x1 x2 x3 x4 x5 x6 x7 x8 x9 x10 h0 h1 h2 h3 h4 h5 h6 h7 (i 0) (i 1)

end Result

end Cert.RefValue

end
-- ==== Proof.RefFinite.lean ====
/-
  The precondition says every entry of every argument array is a real number.

  The printed predicate is the conjunction, over the eleven arrays, of "all entries x satisfy |x| < +∞".  Read back: a
  conjunction of bits that is 1 has every bit 1; an all-reduction by "and" that is 1 had 1 at every index; and an extended
  real whose absolute value is below +∞ is neither infinity, so it is a real.
-/
import proofs.«152008_j55130200211709_2_alg».proof.Pre_finite_inputs
import proofs.«152008_j55130200211709_2_alg».proof.Proof.Algebra
import Idealize.ShloMosaic.Lib.ReduceAll
import Idealize.ShloMosaic.Lib.Pipeline.Value

noncomputable section

namespace Cert.RefValue

open Cert.Pre_finite_inputs Idealize.ShloMosaic Idealize.ShloMosaic.ValueIdx

/-- The scalar shape has one index. -/
instance : Subsingleton S_.Idx := ⟨fun a b => funext fun d => d.elim0⟩

/-- The pattern of +∞ denotes the top element. -/
theorem ofBits_inf : Ideal.ofBits .f32 0x7F800000#32 = (⊤ : EReal) := by
  simp [Ideal.ofBits, Ideal.ieee]

/-- An extended real whose absolute value is below +∞ is a real number. -/
theorem isReal_of_abs_lt_top (x : EReal) (h : Max.max x (-x) < ⊤) : IsReal x := by
  induction x using EReal.rec with
  | bot => exact absurd h (by simp)
  | coe r => exact ⟨r, rfl⟩
  | top => exact absurd h (by simp)

/-- One conjunct of the predicate: if "all entries have absolute value below +∞" came out 1, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : IsReal (x i) := by
  have h1 := Host.reduce_andi_all _ _ hr hu ix0 e i
  rw [cmpf_apply, broadcastInDim_apply _ hb _ i ix0 (fun a => a.elim0)] at h1
  have h2 : Ideal.cmp .olt (Max.max (x i) (-(x i))) (Ideal.ofBits .f32 0x7F800000#32) = 1#1 := h1
  rw [ofBits_inf] at h2
  refine isReal_of_abs_lt_top _ ?_
  unfold Ideal.cmp at h2
  by_contra hc
  simp [hc] at h2

/-- The precondition, read back: each of the eleven argument arrays is real-valued. -/
theorem finite_inputs [Cert.Pre_finite_inputs.Facts] (a0 : FVec Ideal S1024x4000 .f32) (a1 : FVec Ideal S1024x64x64 .f32)
    (a2 : FVec Ideal S4000x128 .f32) (a3 : FVec Ideal S128 .f32) (a4 : FVec Ideal S4096x128 .f32) (a5 : FVec Ideal S128 .f32)
    (a6 a7 : FVec Ideal S128x128 .f32) (a8 : FVec Ideal S128 .f32) (a9 : FVec Ideal S128x10 .f32) (a10 : FVec Ideal S10 .f32)
    (h : Cert.Pre_finite_inputs.fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) := by
  have h' := congrFun h ix0
  dsimp only [fn, fn_part1, fn_part2, fn_part3] at h'
  simp only [andi, IntOp.andi_eq_one] at h'
  obtain ⟨⟨⟨⟨⟨⟨⟨⟨⟨⟨e0, e1⟩, e2⟩, e3⟩, e4⟩, e5⟩, e6⟩, e7⟩, e8⟩, e9⟩, e10⟩ := h'
  exact ⟨all_real a0 _ _ _ e0, all_real a1 _ _ _ e1, all_real a2 _ _ _ e2, all_real a3 _ _ _ e3, all_real a4 _ _ _ e4,
    all_real a5 _ _ _ e5, all_real a6 _ _ _ e6, all_real a7 _ _ _ e7, all_real a8 _ _ _ e8, all_real a9 _ _ _ e9,
    all_real a10 _ _ _ e10⟩

end Cert.RefValue

end
-- ==== Proof.RefSide.lean ====
/-
  The reference side in one statement: under the precondition (every argument array real-valued), the reference's
  result array is the specification of the eleven argument arrays.
-/
import proofs.«152008_j55130200211709_2_alg».proof.Proof.RefIsSpec
import proofs.«152008_j55130200211709_2_alg».proof.Proof.RefFinite

noncomputable section

namespace Cert.RefValue

open Cert.ReferenceIdeal Cert.ReferenceIdeal.Gen Cert.ReferenceIdeal.Read Idealize.ShloMosaic Cert.Spec

/-- Under the precondition the reference's result is the specification. -/
theorem ref_result [Cert.Pre_finite_inputs.Facts]
    (x0 : (⟨S1024x4000, .f32⟩ : BufTy).Contents (Elt Ideal)) (x1 : (⟨S1024x64x64, .f32⟩ : BufTy).Contents (Elt Ideal))
    (x2 : (⟨S4000x128, .f32⟩ : BufTy).Contents (Elt Ideal)) (x3 : (⟨S128, .f32⟩ : BufTy).Contents (Elt Ideal))
    (x4 : (⟨S4096x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal))
    (h : Cert.Pre_finite_inputs.fn (F := Ideal) x0 x1 x2 x3 x4 x5 x6 x7 x8 x9 x10 = fun _ => 1#1) :
    val_main_v81 (F := Ideal) x0 x1 x2 x3 x4 x5 x6 x7 x8 x9 x10 = outOf x0 x1 x2 x3 x4 x5 x6 x7 x8 x9 x10 := by
  obtain ⟨h0, h1, h2, h3, h4, h5, h6, h7, -, -, -⟩ := finite_inputs x0 x1 x2 x3 x4 x5 x6 x7 x8 x9 x10 h
  exact ref_eq x0 x1 x2 x3 x4 x5 x6 x7 x8 x9 x10 h0 h1 h2 h3 h4 h5 h6 h7

end Cert.RefValue

end
-- ==== Proof.lean ====
/-
  Three programs: a graph-network forward pass as three accelerator kernels with host glue (at word level and read on
  the extended reals), and the same function written with plain array operations.

  From waveforms and spectrograms the programs compute node features x = max(X·W + b, 0) for a "time" and a "frequency"
  stream; for each stream a dense graph on the 1024 nodes with edge weight 1/(‖x_i − x_j‖₁ + ε) off the diagonal and 1 on
  it, normalised symmetrically by the inverse square roots of the weighted degrees; one graph-convolution layer
  h = max(Â_t·(x_t·W_t) + Â_f·(x_f·W_f) + b, 0); and a final linear layer.

  * Each program runs to the end from any memory, faults nowhere and leaves its arguments unchanged. For the kernel
    program this is the run of its nine segments (four host stretches, the projection kernel, the adjacency kernel, a host
    stretch, the aggregation kernel, the final slice), each kernel a pipeline over its grid whose body is run symbolically;
    for the reference it is its run as a list of host operations.
  * The idealised kernel program is the word-level one read at exact arithmetic: nothing was rewritten.
  * On the extended reals both programs compute the function `Cert.Spec.out` of the arguments. The kernel side applies the
    column factor of the normalisation to the projected values before the product and the row factor after it, and
    accumulates the degrees block by block; the reference normalises the whole matrix first. The two arrangements agree
    because, the inputs being finite, every factor is a real number (distances are nonnegative, ε is positive, so every
    edge weight and every degree is a positive real), and on the reals the products distribute over the sums.
-/
import proofs.«152008_j55130200211709_2_alg».proof.Defs
import proofs.«152008_j55130200211709_2_alg».proof.Proof.Gen.Kernel
import proofs.«152008_j55130200211709_2_alg».proof.Proof.Gen.KernelIdeal
import proofs.«152008_j55130200211709_2_alg».proof.Proof.Gen.ReferenceIdeal
import proofs.«152008_j55130200211709_2_alg».proof.Proof.Gen.Pre_finite_inputs
import proofs.«152008_j55130200211709_2_alg».proof.Proof.Gen.ReferenceIdeal.Run
import proofs.«152008_j55130200211709_2_alg».proof.Proof.Gen.ReferenceIdeal.Read
import proofs.«152008_j55130200211709_2_alg».proof.Proof.K.Frame
import proofs.«152008_j55130200211709_2_alg».proof.Proof.KI.Frame
import proofs.«152008_j55130200211709_2_alg».proof.Proof.KI.KernelValue
import proofs.«152008_j55130200211709_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealised programs end with the specification of the (agreeing) arguments in their result buffers: the kernel
    program's run ends with its result at the end of the fold of buffer contents, which is the specification; the
    reference's run ends at its operations' composed term, which under the precondition is the specification too. -/
theorem algebraic : Cert.algebraic_KernelIdeal_ReferenceIdeal := by
  intro m ρ m' ρ' hpre hagree
  refine ⟨fun c => Cert.Spec.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.kernel_result m c (hpre c)), (h c).2⟩)
      (Cert.KernelIdeal.Hand.run_result (F := Ideal) m ρ)
  · refine (θ_run Cert.ReferenceIdeal.defs _ _).mono (fun r h c => ⟨?_, (h c).2⟩)
      (Cert.ReferenceIdeal.Value.run (F := Ideal) m' ρ')
    have ha := hagree c
    have hp := hpre c
    rw [(h c).1, Cert.ReferenceIdeal.Read.val_main_v81_eq,
      ha.1, ha.2.1, ha.2.2.1, ha.2.2.2.1, ha.2.2.2.2.1, ha.2.2.2.2.2.1, ha.2.2.2.2.2.2.1, ha.2.2.2.2.2.2.2.1,
      ha.2.2.2.2.2.2.2.2.1, ha.2.2.2.2.2.2.2.2.2.1, ha.2.2.2.2.2.2.2.2.2.2]
    exact Cert.RefValue.ref_result _ _ _ _ _ _ _ _ _ _ _ hp

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
